-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x16 : Shape := ⟨2, ![200000, 16]⟩
abbrev S200000 : Shape := ⟨1, ![200000]⟩
abbrev S3x272x128 : Shape := ⟨3, ![3, 272, 128]⟩
abbrev S3x128x128 : Shape := ⟨3, ![3, 128, 128]⟩
abbrev S3x256x128 : Shape := ⟨3, ![3, 256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x16 : S_.BroadcastsInDim S200000x16 (![] : Fin 0 → Fin S200000x16.rank)
  reducesTo_S200000x16_S_d0_1 : S200000x16.ReducesTo [0, 1] S_
  bcast_S_S3x272x128 : S_.BroadcastsInDim S3x272x128 (![] : Fin 0 → Fin S3x272x128.rank)
  reducesTo_S3x272x128_S_d0_1_2 : S3x272x128.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x256x128 : S_.BroadcastsInDim S3x256x128 (![] : Fin 0 → Fin S3x256x128.rank)
  reducesTo_S3x256x128_S_d0_1_2 : S3x256x128.ReducesTo [0, 1, 2] S_

variable [Facts]

def fn_part1 {F : FTy → Type} [FloatOps F] (main_arg6 : FVec F S3x256x128 .f32) (main_arg7 : FVec F S3x128x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x256x128 .f32 := Host.absf main_arg6
  let main_cst_6 : FVec F S_ .f32 := constant S_ .f32 0x7F800000#32
  let main_v20 : FVec F S3x256x128 .f32 := broadcastInDim S3x256x128 ![] bcast_S_S3x256x128 main_cst_6
  let main_v21 : IVec S3x256x128 1 := cmpf .olt main_v19 main_v20
  let main_c_7 : IVec S_ 1 := constantI S_ 1 1#1
  let main_v22 : IVec S_ 1 := (fun x v => Host.reduce IntOp.andi x v reducesTo_S3x256x128_S_d0_1_2 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  main_v28

def fn {F : FTy → Type} [FloatOps F] (main_arg0 : FVec F S50000x128 .f32) (main_arg1 : FVec F S200000x16 .f32) (main_arg2 : IVec S200000 32) (main_arg3 : IVec S200000 32) (main_arg4 : FVec F S3x272x128 .f32) (main_arg5 : FVec F S3x128x128 .f32) (main_arg6 : FVec F S3x256x128 .f32) (main_arg7 : FVec F S3x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x16 .f32 := Host.absf main_arg1
  let main_cst_0 : FVec F S_ .f32 := constant S_ .f32 0x7F800000#32
  let main_v5 : FVec F S200000x16 .f32 := broadcastInDim S200000x16 ![] bcast_S_S200000x16 main_cst_0
  let main_v6 : IVec S200000x16 1 := cmpf .olt main_v4 main_v5
  let main_c_1 : IVec S_ 1 := constantI S_ 1 1#1
  let main_v7 : IVec S_ 1 := (fun x v => Host.reduce IntOp.andi x v reducesTo_S200000x16_S_d0_1 h_S_) main_v6 main_c_1
  let main_v8 : IVec S_ 1 := andi main_v3 main_v7
  let main_v9 : FVec F S3x272x128 .f32 := Host.absf main_arg4
  let main_cst_2 : FVec F S_ .f32 := constant S_ .f32 0x7F800000#32
  let main_v10 : FVec F S3x272x128 .f32 := broadcastInDim S3x272x128 ![] bcast_S_S3x272x128 main_cst_2
  let main_v11 : IVec S3x272x128 1 := cmpf .olt main_v9 main_v10
  let main_c_3 : IVec S_ 1 := constantI S_ 1 1#1
  let main_v12 : IVec S_ 1 := (fun x v => Host.reduce IntOp.andi x v reducesTo_S3x272x128_S_d0_1_2 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S50000x128 : Shape := ⟨2, ![50000, 128]⟩
abbrev S200000x16 : Shape := ⟨2, ![200000, 16]⟩
abbrev S200000 : Shape := ⟨1, ![200000]⟩
abbrev S3x272x128 : Shape := ⟨3, ![3, 272, 128]⟩
abbrev S3x128x128 : Shape := ⟨3, ![3, 128, 128]⟩
abbrev S3x256x128 : Shape := ⟨3, ![3, 256, 128]⟩
abbrev S400000 : Shape := ⟨1, ![400000]⟩
abbrev S400000x16 : Shape := ⟨2, ![400000, 16]⟩
abbrev S_ : Shape := ⟨0, ![]⟩
abbrev S400000x1 : Shape := ⟨2, ![400000, 1]⟩
abbrev S400000x128 : Shape := ⟨2, ![400000, 128]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S10000x128 : Shape := ⟨2, ![10000, 128]⟩
abbrev S10000x16 : Shape := ⟨2, ![10000, 16]⟩

abbrev nBuf : Space → Nat
  | .hbm => 127
  | .vmem => 63
  | .smem => 0
  | _ => 0

abbrev bufTy : (tb : Table) → Fin (tcTables nBuf tb) → BufTy
  | .hbm, ⟨0, _⟩ => ⟨S50000x128, .f32⟩
  | .hbm, ⟨1, _⟩ => ⟨S200000x16, .f32⟩
  | .hbm, ⟨2, _⟩ => ⟨S200000, .i32⟩
  | .hbm, ⟨3, _⟩ => ⟨S200000, .i32⟩
  | .hbm, ⟨4, _⟩ => ⟨S3x272x128, .f32⟩
  | .hbm, ⟨5, _⟩ => ⟨S3x128x128, .f32⟩
  | .hbm, ⟨6, _⟩ => ⟨S3x256x128, .f32⟩
  | .hbm, ⟨7, _⟩ => ⟨S3x128x128, .f32⟩
  | .hbm, ⟨8, _⟩ => ⟨S400000, .i32⟩
  | .hbm, ⟨9, _⟩ => ⟨S400000, .i32⟩
  | .hbm, ⟨10, _⟩ => ⟨S400000x16, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x128, .f32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S400000x128, .f32⟩
  | .hbm, ⟨29, _⟩ => ⟨S1x128x128, .f32⟩
  | .hbm, ⟨30, _⟩ => ⟨S128x128, .f32⟩
  | .hbm, ⟨31, _⟩ => ⟨S1x128x128, .f32⟩
  | .hbm, ⟨32, _⟩ => ⟨S128x128, .f32⟩
  | .hbm, ⟨33, _⟩ => ⟨S1x16x128, .f32⟩
  | .hbm, ⟨34, _⟩ => ⟨S16x128, .f32⟩
  | .hbm, ⟨35, _⟩ => ⟨S1x128x128, .f32⟩
  | .hbm, ⟨36, _⟩ => ⟨S128x128, .f32⟩
  | .hbm, ⟨37, _⟩ => ⟨S400000x128, .f32⟩
  | .hbm, ⟨38, _⟩ => ⟨S_, .f32⟩
  | .hbm, ⟨39, _⟩ => ⟨S50000x128, .f32⟩
  | .hbm, ⟨40, _⟩ => ⟨S400000x1, .i32⟩
  | .hbm, ⟨41, _⟩ => ⟨S50000x128, .f32⟩
  | .hbm, ⟨42, _⟩ => ⟨S1x128x128, .f32⟩
  | .hbm, ⟨43, _⟩ => ⟨S128x128, .f32⟩
  | .hbm, ⟨44, _⟩ => ⟨S1x128x128, .f32⟩
  | .hbm, ⟨45, _⟩ => ⟨S128x128, .f32⟩
  | .hbm, ⟨46, _⟩ => ⟨S1x128x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000x128, .f32⟩
  | .hbm, ⟨59, _⟩ => ⟨S_, .i32⟩
  | .hbm, ⟨60, _⟩ => ⟨S400000, .i32⟩
  | .hbm, ⟨61, _⟩ => ⟨S400000, .i1⟩
  | .hbm, ⟨62, _⟩ => ⟨S_, .i32⟩
  | .hbm, ⟨63, _⟩ => ⟨S400000, .i32⟩
  | .hbm, ⟨64, _⟩ => ⟨S400000, .i32⟩
  | .hbm, ⟨65, _⟩ => ⟨S400000, .i32⟩
  | .hbm, ⟨66, _⟩ => ⟨S400000x1, .i32⟩
  | .hbm, ⟨67, _⟩ => ⟨S400000x128, .f32⟩
  | .hbm, ⟨68, _⟩ => ⟨S1x128x128, .f32⟩
  | .hbm, ⟨69, _⟩ => ⟨S128x128, .f32⟩
  | .hbm, ⟨70, _⟩ => ⟨S1x128x128, .f32⟩
  | .hbm, ⟨71, _⟩ => ⟨S128x128, .f32⟩
  | .hbm, ⟨72, _⟩ => ⟨S1x16x128, .f32⟩
  | .hbm, ⟨73, _⟩ => ⟨S16x128, .f32⟩
  | .hbm, ⟨74, _⟩ => ⟨S1x128x128, .f32⟩
  | .hbm, ⟨75, _⟩ => ⟨S128x128, .f32⟩
  | .hbm, ⟨76, _⟩ => ⟨S400000x128, .f32⟩
  | .hbm, ⟨77, _⟩ => ⟨S_, .f32⟩
  | .hbm, ⟨78, _⟩ => ⟨S50000x128, .f32⟩
  | .hbm, ⟨79, _⟩ => ⟨S400000x1, .i32⟩
  | .hbm, ⟨80, _⟩ => ⟨S50000x128, .f32⟩
  | .hbm, ⟨81, _⟩ => ⟨S1x128x128, .f32⟩
  | .hbm, ⟨82, _⟩ => ⟨S128x128, .f32⟩
  | .hbm, ⟨83, _⟩ => ⟨S1x128x128, .f32⟩
  | .hbm, ⟨84, _⟩ => ⟨S128x128, .f32⟩
  | .hbm, ⟨85, _⟩ => ⟨S1x128x128, .f32⟩
  | .hbm, ⟨86, _⟩ => ⟨S128x128, .f32⟩
  | .hbm, ⟨87, _⟩ => ⟨S50000x128, .f32⟩
  | .hbm, ⟨88, _⟩ => ⟨S50000x128, .f32⟩
  | .hbm, ⟨89, _⟩ => ⟨S_, .i32⟩
  | .hbm, ⟨90, _⟩ => ⟨S400000, .i32⟩
  | .hbm, ⟨91, _⟩ => ⟨S400000, .i1⟩
  | .hbm, ⟨92, _⟩ => ⟨S_, .i32⟩
  | .hbm, ⟨93, _⟩ => ⟨S400000, .i32⟩
  | .hbm, ⟨94, _⟩ => ⟨S400000, .i32⟩
  | .hbm, ⟨95, _⟩ => ⟨S400000, .i32⟩
  | .hbm, ⟨96, _⟩ => ⟨S400000x1, .i32⟩
  | .hbm, ⟨97, _⟩ => ⟨S400000x128, .f32⟩
  | .hbm, ⟨98, _⟩ => ⟨S_, .i32⟩
  | .hbm, ⟨99, _⟩ => ⟨S400000, .i32⟩
  | .hbm, ⟨100, _⟩ => ⟨S400000, .i1⟩
  | .hbm, ⟨101, _⟩ => ⟨S_, .i32⟩
  | .hbm, ⟨102, _⟩ => ⟨S400000, .i32⟩
  | .hbm, ⟨103, _⟩ => ⟨S400000, .i32⟩
  | .hbm, ⟨104, _⟩ => ⟨S400000, .i32⟩
  | .hbm, ⟨105, _⟩ => ⟨S400000x1, .i32⟩
  | .hbm, ⟨106, _⟩ => ⟨S400000x128, .f32⟩
  | .hbm, ⟨107, _⟩ => ⟨S1x128x128, .f32⟩
  | .hbm, ⟨108, _⟩ => ⟨S128x128, .f32⟩
  | .hbm, ⟨109, _⟩ => ⟨S1x128x128, .f32⟩
  | .hbm, ⟨110, _⟩ => ⟨S128x128, .f32⟩
  | .hbm, ⟨111, _⟩ => ⟨S1x16x128, .f32⟩
  | .hbm, ⟨112, _⟩ => ⟨S16x128, .f32⟩
  | .hbm, ⟨113, _⟩ => ⟨S1x128x128, .f32⟩
  | .hbm, ⟨114, _⟩ => ⟨S128x128, .f32⟩
  | .hbm, ⟨115, _⟩ => ⟨S400000x128, .f32⟩
  | .hbm, ⟨116, _⟩ => ⟨S_, .f32⟩
  | .hbm, ⟨117, _⟩ => ⟨S50000x128, .f32⟩
  | .hbm, ⟨118, _⟩ => ⟨S400000x1, .i32⟩
  | .hbm, ⟨119, _⟩ => ⟨S50000x128, .f32⟩
  | .hbm, ⟨120, _⟩ => ⟨S1x128x128, .f32⟩
  | .hbm, ⟨121, _⟩ => ⟨S128x128, .f32⟩
  | .hbm, ⟨122, _⟩ => ⟨S1x128x128, .f32⟩
  | .hbm, ⟨123, _⟩ => ⟨S128x128, .f32⟩
  | .hbm, ⟨124, _⟩ => ⟨S1x128x128, .f32⟩
  | .hbm, ⟨125, _⟩ => ⟨S128x128, .f32⟩
  | .hbm, ⟨126, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x16, .f32⟩
  | .local _ .vmem, ⟨5, _⟩ => ⟨S10000x16, .f32⟩
  | .local _ .vmem, ⟨6, _⟩ => ⟨S128x128, .f32⟩
  | .local _ .vmem, ⟨7, _⟩ => ⟨S128x128, .f32⟩
  | .local _ .vmem, ⟨8, _⟩ => ⟨S16x128, .f32⟩
  | .local _ .vmem, ⟨9, _⟩ => ⟨S128x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x16, .f32⟩
  | .local _ .vmem, ⟨26, _⟩ => ⟨S10000x16, .f32⟩
  | .local _ .vmem, ⟨27, _⟩ => ⟨S128x128, .f32⟩
  | .local _ .vmem, ⟨28, _⟩ => ⟨S128x128, .f32⟩
  | .local _ .vmem, ⟨29, _⟩ => ⟨S16x128, .f32⟩
  | .local _ .vmem, ⟨30, _⟩ => ⟨S128x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x16, .f32⟩
  | .local _ .vmem, ⟨47, _⟩ => ⟨S10000x16, .f32⟩
  | .local _ .vmem, ⟨48, _⟩ => ⟨S128x128, .f32⟩
  | .local _ .vmem, ⟨49, _⟩ => ⟨S128x128, .f32⟩
  | .local _ .vmem, ⟨50, _⟩ => ⟨S16x128, .f32⟩
  | .local _ .vmem, ⟨51, _⟩ => ⟨S128x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S10000x128, .f32⟩
  | .local _ .vmem, ⟨57, _⟩ => ⟨S10000x128, .f32⟩
  | .local _ .vmem, ⟨58, _⟩ => ⟨S128x128, .f32⟩
  | .local _ .vmem, ⟨59, _⟩ => ⟨S128x128, .f32⟩
  | .local _ .vmem, ⟨60, _⟩ => ⟨S128x128, .f32⟩
  | .local _ .vmem, ⟨61, _⟩ => ⟨S10000x128, .f32⟩
  | .local _ .vmem, ⟨62, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_8 : Ref sig .tc := ⟨.hbm, 89, rfl⟩
abbrev main_v71 : Ref sig .tc := ⟨.hbm, 90, rfl⟩
abbrev main_v72 : Ref sig .tc := ⟨.hbm, 91, rfl⟩
abbrev main_c_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_10 : Ref sig .tc := ⟨.hbm, 98, rfl⟩
abbrev main_v78 : Ref sig .tc := ⟨.hbm, 99, rfl⟩
abbrev main_v79 : Ref sig .tc := ⟨.hbm, 100, rfl⟩
abbrev main_c_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_12 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  concatenates_S200000_S200000_S400000_d0 : Shape.Concatenates [S200000, S200000] S400000 0
  concatenates_S200000x16_S200000x16_S400000x16_d0 : Shape.Concatenates [S200000x16, S200000x16] S400000x16 0
  bcast_S_S400000 : S_.BroadcastsInDim S400000 (![] : Fin 0 → Fin S400000.rank)
  bcast_S400000_S400000x1_0 : S400000.BroadcastsInDim S400000x1 (![0] : Fin 1 → Fin S400000x1.rank)
  slices_S3x272x128_S1x128x128_0_0_0 : S3x272x128.Slices ![0, 0, 0] S1x128x128
  shapeCasts_S1x128x128_S128x128 : S1x128x128.ShapeCasts S128x128
  slices_S3x272x128_S1x128x128_0_128_0 : S3x272x128.Slices ![0, 128, 0] S1x128x128
  slices_S3x272x128_S1x16x128_0_256_0 : S3x272x128.Slices ![0, 256, 0] S1x16x128
  shapeCasts_S1x16x128_S16x128 : S1x16x128.ShapeCasts S16x128
  slices_S3x128x128_S1x128x128_0_0_0 : S3x128x128.Slices ![0, 0, 0] S1x128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  bcast_S_S50000x128 : S_.BroadcastsInDim S50000x128 (![] : Fin 0 → Fin S50000x128.rank)
  slices_S3x256x128_S1x128x128_0_0_0 : S3x256x128.Slices ![0, 0, 0] S1x128x128
  slices_S3x256x128_S1x128x128_0_128_0 : S3x256x128.Slices ![0, 128, 0] S1x128x128
  slices_S3x272x128_S1x128x128_1_0_0 : S3x272x128.Slices ![1, 0, 0] S1x128x128
  slices_S3x272x128_S1x128x128_1_128_0 : S3x272x128.Slices ![1, 128, 0] S1x128x128
  slices_S3x272x128_S1x16x128_1_256_0 : S3x272x128.Slices ![1, 256, 0] S1x16x128
  slices_S3x128x128_S1x128x128_1_0_0 : S3x128x128.Slices ![1, 0, 0] S1x128x128
  slices_S3x256x128_S1x128x128_1_0_0 : S3x256x128.Slices ![1, 0, 0] S1x128x128
  slices_S3x256x128_S1x128x128_1_128_0 : S3x256x128.Slices ![1, 128, 0] S1x128x128
  slices_S3x272x128_S1x128x128_2_0_0 : S3x272x128.Slices ![2, 0, 0] S1x128x128
  slices_S3x272x128_S1x128x128_2_128_0 : S3x272x128.Slices ![2, 128, 0] S1x128x128
  slices_S3x272x128_S1x16x128_2_256_0 : S3x272x128.Slices ![2, 256, 0] S1x16x128
  slices_S3x128x128_S1x128x128_2_0_0 : S3x128x128.Slices ![2, 0, 0] S1x128x128
  slices_S3x256x128_S1x128x128_2_0_0 : S3x256x128.Slices ![2, 0, 0] S1x128x128
  slices_S3x256x128_S1x128x128_2_128_0 : S3x256x128.Slices ![2, 128, 0] S1x128x128
  gather_S50000x128_S400000x1_S400000x128_1_0_n_n_0_1_1128_wf : GatherDims.WF S50000x128 S400000x1 S400000x128 [1] [0] [] [0] [] 1 ![1, 128]
  dot_S10000x128_S128x128_S10000x128_1_0_0_1_n_n_wf : DotDims.WF S10000x128 S128x128 S10000x128 [1] [0] [0] [1] [] []
  dot_S10000x16_S16x128_S10000x128_1_0_0_1_n_n_wf : DotDims.WF S10000x16 S16x128 S10000x128 [1] [0] [0] [1] [] []
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S400000x128.size a
  hwx0_0 : ∀ i : grid0.Coords, EltTy.bits .f32 = 32 ∨ (Rect.block (s := S400000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S400000x128.size a
  hwx0_1 : ∀ i : grid0.Coords, EltTy.bits .f32 = 32 ∨ (Rect.block (s := S400000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S400000x16.size a
  hwx0_2 : ∀ i : grid0.Coords, EltTy.bits .f32 = 32 ∨ (Rect.block (s := S400000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S400000x128.size a
  hwx0_7 : ∀ i : grid0.Coords, EltTy.bits .f32 = 32 ∨ (Rect.block (s := S400000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S400000x128.size a
  hwx2_0 : ∀ i : grid2.Coords, EltTy.bits .f32 = 32 ∨ (Rect.block (s := S400000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S400000x128.size a
  hwx2_1 : ∀ i : grid2.Coords, EltTy.bits .f32 = 32 ∨ (Rect.block (s := S400000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S400000x16.size a
  hwx2_2 : ∀ i : grid2.Coords, EltTy.bits .f32 = 32 ∨ (Rect.block (s := S400000x16) S10000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x128.size a ≤ S16x128.size a
  hwx2_5 : ∀ i : grid2.Coords, EltTy.bits .f32 = 32 ∨ (Rect.block (s := S16x128) S16x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S400000x128.size a
  hwx2_7 : ∀ i : grid2.Coords, EltTy.bits .f32 = 32 ∨ (Rect.block (s := S400000x128) S10000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S400000x128.size a
  hwx4_0 : ∀ i : grid4.Coords, EltTy.bits .f32 = 32 ∨ (Rect.block (s := S400000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S400000x128.size a
  hwx4_1 : ∀ i : grid4.Coords, EltTy.bits .f32 = 32 ∨ (Rect.block (s := S400000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S400000x16.size a
  hwx4_2 : ∀ i : grid4.Coords, EltTy.bits .f32 = 32 ∨ (Rect.block (s := S400000x16) S10000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x128.size a ≤ S16x128.size a
  hwx4_5 : ∀ i : grid4.Coords, EltTy.bits .f32 = 32 ∨ (Rect.block (s := S16x128) S16x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S400000x128.size a
  hwx4_7 : ∀ i : grid4.Coords, EltTy.bits .f32 = 32 ∨ (Rect.block (s := S400000x128) S10000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S50000x128.size a
  hwx5_1 : ∀ i : grid5.Coords, EltTy.bits .f32 = 32 ∨ (Rect.block (s := S50000x128) S10000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S50000x128.size a
  hwx5_5 : ∀ i : grid5.Coords, EltTy.bits .f32 = 32 ∨ (Rect.block (s := S50000x128) S10000x128.size (cc5_transform_5 i) (hinb5_5 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S10000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S16x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S10000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v36) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v77) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S10000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v86) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v90) S16x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v93) S10000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v70) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v98) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v102) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v103) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S200000x16 : Shape := ⟨2, ![200000, 16]⟩
abbrev S200000 : Shape := ⟨1, ![200000]⟩
abbrev S3x272x128 : Shape := ⟨3, ![3, 272, 128]⟩
abbrev S3x128x128 : Shape := ⟨3, ![3, 128, 128]⟩
abbrev S3x256x128 : Shape := ⟨3, ![3, 256, 128]⟩
abbrev S400000 : Shape := ⟨1, ![400000]⟩
abbrev S400000x16 : Shape := ⟨2, ![400000, 16]⟩
abbrev S_ : Shape := ⟨0, ![]⟩
abbrev S400000x1 : Shape := ⟨2, ![400000, 1]⟩
abbrev S400000x128 : Shape := ⟨2, ![400000, 128]⟩
abbrev S400000x272 : Shape := ⟨2, ![400000, 272]⟩
abbrev S1x272x128 : Shape := ⟨3, ![1, 272, 128]⟩
abbrev S272x128 : Shape := ⟨2, ![272, 128]⟩
abbrev S1x128x128 : Shape := ⟨3, ![1, 128, 128]⟩
abbrev S128x128 : Shape := ⟨2, ![128, 128]⟩
abbrev S50000x256 : Shape := ⟨2, ![50000, 256]⟩
abbrev S1x256x128 : Shape := ⟨3, ![1, 256, 128]⟩
abbrev S256x128 : Shape := ⟨2, ![256, 128]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S200000x16, .f32⟩
  | 2 => ⟨S200000, .i32⟩
  | 3 => ⟨S200000, .i32⟩
  | 4 => ⟨S3x272x128, .f32⟩
  | 5 => ⟨S3x128x128, .f32⟩
  | 6 => ⟨S3x256x128, .f32⟩
  | 7 => ⟨S3x128x128, .f32⟩
  | 8 => ⟨S400000, .i32⟩
  | 9 => ⟨S400000, .i32⟩
  | 10 => ⟨S400000x16, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S400000x128, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S400000x272, .f32⟩
  | 30 => ⟨S1x272x128, .f32⟩
  | 31 => ⟨S272x128, .f32⟩
  | 32 => ⟨S400000x128, .f32⟩
  | 33 => ⟨S_, .f32⟩
  | 34 => ⟨S400000x128, .f32⟩
  | 35 => ⟨S400000x128, .i1⟩
  | 36 => ⟨S_, .f32⟩
  | 37 => ⟨S400000x128, .f32⟩
  | 38 => ⟨S400000x128, .f32⟩
  | 39 => ⟨S400000x128, .f32⟩
  | 40 => ⟨S1x128x128, .f32⟩
  | 41 => ⟨S128x128, .f32⟩
  | 42 => ⟨S400000x128, .f32⟩
  | 43 => ⟨S_, .f32⟩
  | 44 => ⟨S50000x128, .f32⟩
  | 45 => ⟨S400000x1, .i32⟩
  | 46 => ⟨S50000x128, .f32⟩
  | 47 => ⟨S50000x256, .f32⟩
  | 48 => ⟨S1x256x128, .f32⟩
  | 49 => ⟨S256x128, .f32⟩
  | 50 => ⟨S50000x128, .f32⟩
  | 51 => ⟨S_, .f32⟩
  | 52 => ⟨S50000x128, .f32⟩
  | 53 => ⟨S50000x128, .i1⟩
  | 54 => ⟨S_, .f32⟩
  | 55 => ⟨S50000x128, .f32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S50000x128, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x128, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000x128, .f32⟩
  | 80 => ⟨S400000x272, .f32⟩
  | 81 => ⟨S1x272x128, .f32⟩
  | 82 => ⟨S272x128, .f32⟩
  | 83 => ⟨S400000x128, .f32⟩
  | 84 => ⟨S_, .f32⟩
  | 85 => ⟨S400000x128, .f32⟩
  | 86 => ⟨S400000x128, .i1⟩
  | 87 => ⟨S_, .f32⟩
  | 88 => ⟨S400000x128, .f32⟩
  | 89 => ⟨S400000x128, .f32⟩
  | 90 => ⟨S400000x128, .f32⟩
  | 91 => ⟨S1x128x128, .f32⟩
  | 92 => ⟨S128x128, .f32⟩
  | 93 => ⟨S400000x128, .f32⟩
  | 94 => ⟨S_, .f32⟩
  | 95 => ⟨S50000x128, .f32⟩
  | 96 => ⟨S400000x1, .i32⟩
  | 97 => ⟨S50000x128, .f32⟩
  | 98 => ⟨S50000x256, .f32⟩
  | 99 => ⟨S1x256x128, .f32⟩
  | 100 => ⟨S256x128, .f32⟩
  | 101 => ⟨S50000x128, .f32⟩
  | 102 => ⟨S_, .f32⟩
  | 103 => ⟨S50000x128, .f32⟩
  | 104 => ⟨S50000x128, .i1⟩
  | 105 => ⟨S_, .f32⟩
  | 106 => ⟨S50000x128, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S50000x128, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x128, .f32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S50000x128, .f32⟩

abbrev hbmTy0_1 (i : Nat) : BufTy := match i % 128 with
  | 0 => ⟨S400000, .i32⟩
  | 1 => ⟨S400000x1, .i32⟩
  | 2 => ⟨S400000x128, .f32⟩
  | 3 => ⟨S400000x272, .f32⟩
  | 4 => ⟨S1x272x128, .f32⟩
  | 5 => ⟨S272x128, .f32⟩
  | 6 => ⟨S400000x128, .f32⟩
  | 7 => ⟨S_, .f32⟩
  | 8 => ⟨S400000x128, .f32⟩
  | 9 => ⟨S400000x128, .i1⟩
  | 10 => ⟨S_, .f32⟩
  | 11 => ⟨S400000x128, .f32⟩
  | 12 => ⟨S400000x128, .f32⟩
  | 13 => ⟨S400000x128, .f32⟩
  | 14 => ⟨S1x128x128, .f32⟩
  | 15 => ⟨S128x128, .f32⟩
  | 16 => ⟨S400000x128, .f32⟩
  | 17 => ⟨S_, .f32⟩
  | 18 => ⟨S50000x128, .f32⟩
  | 19 => ⟨S400000x1, .i32⟩
  | 20 => ⟨S50000x128, .f32⟩
  | 21 => ⟨S50000x256, .f32⟩
  | 22 => ⟨S1x256x128, .f32⟩
  | 23 => ⟨S256x128, .f32⟩
  | 24 => ⟨S50000x128, .f32⟩
  | 25 => ⟨S_, .f32⟩
  | 26 => ⟨S50000x128, .f32⟩
  | 27 => ⟨S50000x128, .i1⟩
  | 28 => ⟨S_, .f32⟩
  | 29 => ⟨S50000x128, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_3 : Ref sig .tc := ⟨.hbm, 62, rfl⟩
abbrev main_v37 : Ref sig .tc := ⟨.hbm, 63, rfl⟩
abbrev main_v38 : Ref sig .tc := ⟨.hbm, 64, rfl⟩
abbrev main_c_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_5 : Ref sig .tc := ⟨.hbm, 71, rfl⟩
abbrev main_v44 : Ref sig .tc := ⟨.hbm, 72, rfl⟩
abbrev main_v45 : Ref sig .tc := ⟨.hbm, 73, rfl⟩
abbrev main_c_6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_cst_0 : Ref sig .tc := ⟨.hbm, 87, rfl⟩
abbrev main_call2_v2 : Ref sig .tc := ⟨.hbm, 88, rfl⟩
abbrev main_call2_v3 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_7 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call3_cst : Ref sig .tc := ⟨.hbm, 102, rfl⟩
abbrev main_call3_v0 : Ref sig .tc := ⟨.hbm, 103, rfl⟩
abbrev main_call3_v1 : Ref sig .tc := ⟨.hbm, 104, rfl⟩
abbrev main_call3_cst_0 : Ref sig .tc := ⟨.hbm, 105, rfl⟩
abbrev main_call3_v2 : Ref sig .tc := ⟨.hbm, 106, rfl⟩
abbrev main_call3_v3 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_8 : Ref sig .tc := ⟨.hbm, 113, rfl⟩
abbrev main_v71 : Ref sig .tc := ⟨.hbm, 114, rfl⟩
abbrev main_v72 : Ref sig .tc := ⟨.hbm, 115, rfl⟩
abbrev main_c_9 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_10 : Ref sig .tc := ⟨.hbm, 122, rfl⟩
abbrev main_v78 : Ref sig .tc := ⟨.hbm, 123, rfl⟩
abbrev main_v79 : Ref sig .tc := ⟨.hbm, 124, rfl⟩
abbrev main_c_11 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_cst_0 : Ref sig .tc := ⟨.hbm, 138, rfl⟩
abbrev main_call4_v2 : Ref sig .tc := ⟨.hbm, 139, rfl⟩
abbrev main_call4_v3 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_12 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_call5_cst : Ref sig .tc := ⟨.hbm, 153, rfl⟩
abbrev main_call5_v0 : Ref sig .tc := ⟨.hbm, 154, rfl⟩
abbrev main_call5_v1 : Ref sig .tc := ⟨.hbm, 155, rfl⟩
abbrev main_call5_cst_0 : Ref sig .tc := ⟨.hbm, 156, rfl⟩
abbrev main_call5_v2 : Ref sig .tc := ⟨.hbm, 157, rfl⟩
abbrev main_call5_v3 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩

abbrev nD : Nat := 1
abbrev τ : Topo := Topo.v7x

variable {F : FTy → Type} [FloatOps F]

class Facts₀ : Prop where
  concatenates_S200000_S200000_S400000_d0 : Shape.Concatenates [S200000, S200000] S400000 0
  concatenates_S200000x16_S200000x16_S400000x16_d0 : Shape.Concatenates [S200000x16, S200000x16] S400000x16 0
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x16_S400000x272_d1 : Shape.Concatenates [S400000x128, S400000x128, S400000x16] S400000x272 1
  slices_S3x272x128_S1x272x128_0_0_0 : S3x272x128.Slices ![0, 0, 0] S1x272x128
  shapeCasts_S1x272x128_S272x128 : S1x272x128.ShapeCasts S272x128
  bcast_S_S400000x128 : S_.BroadcastsInDim S400000x128 (![] : Fin 0 → Fin S400000x128.rank)
  slices_S3x128x128_S1x128x128_0_0_0 : S3x128x128.Slices ![0, 0, 0] S1x128x128
  shapeCasts_S1x128x128_S128x128 : S1x128x128.ShapeCasts S128x128
  bcast_S_S50000x128 : S_.BroadcastsInDim S50000x128 (![] : Fin 0 → Fin S50000x128.rank)
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  slices_S3x272x128_S1x272x128_1_0_0 : S3x272x128.Slices ![1, 0, 0] S1x272x128
  slices_S3x128x128_S1x128x128_1_0_0 : S3x128x128.Slices ![1, 0, 0] S1x128x128
  slices_S3x256x128_S1x256x128_1_0_0 : S3x256x128.Slices ![1, 0, 0] S1x256x128
  slices_S3x272x128_S1x272x128_2_0_0 : S3x272x128.Slices ![2, 0, 0] S1x272x128
  slices_S3x128x128_S1x128x128_2_0_0 : S3x128x128.Slices ![2, 0, 0] S1x128x128
  slices_S3x256x128_S1x256x128_2_0_0 : S3x256x128.Slices ![2, 0, 0] S1x256x128
  gather_S50000x128_S400000x1_S400000x128_1_0_n_n_0_1_1128_wf : GatherDims.WF S50000x128 S400000x1 S400000x128 [1] [0] [] [0] [] 1 ![1, 128]
  dot_S400000x272_S272x128_S400000x128_1_0_0_1_n_n_wf : DotDims.WF S400000x272 S272x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x272_S272x128_S400000x128_1_0_0_1_n_n : DotDims S400000x272 S272x128 S400000x128 where
  lhsContracting := [1]
  rhsContracting := [0]
  lhsNonContracting := [0]
  rhsNonContracting := [1]
  lhsBatch := []
  rhsBatch := []
  wf := dot_S400000x272_S272x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Network.lean ====
/-
  The mathematics of one message-passing network, stated once and apart from either program.

  A layer takes node features `h` (50000 rows of 128), gathers for each of the 400000 directed messages the
  features of its source row and of its destination row, and sends the message's three inputs — source features,
  destination features, 16 edge features — through a two-stage perceptron: first three matrix products summed
  (the product of the concatenated input with a 272-row weight matrix, written as the sum over its three row
  bands), a leaky rectifier with slope 0.01 (its f32 word `0x3C23D70A`, the same word in both programs), then one
  more matrix product (`edgeStage`). The messages are summed per destination node (a scatter-add, kept here as an
  opaque function `Glue.scat`, as is the gather `Glue.gath`: both programs apply the same host operation to
  the same operands, so neither is ever opened). The node update is the same two-stage perceptron on the pair
  (node features, summed messages), its first product again split in two row bands (`nodeStage`). Three layers
  are chained with a residual sum after the first two (`net`).

  All sums are over the extended reals; only commutativity and associativity of `+` are ever used, so no
  finiteness is needed anywhere.
-/
import Idealize.ShloMosaic.PureOps.Ideal
import Idealize.ShloMosaic.Lib.ValueIdx

noncomputable section

open scoped BigOperators

namespace Gnn

open Idealize.ShloMosaic Idealize.ShloMosaic.ValueIdx

/-- Node features: 50000 rows of 128. -/
abbrev SN : Shape := ⟨2, ![50000, 128]⟩
/-- Per-message features: 400000 rows of 128. -/
abbrev SE : Shape := ⟨2, ![400000, 128]⟩
/-- Per-message edge features: 400000 rows of 16. -/
abbrev SF : Shape := ⟨2, ![400000, 16]⟩
/-- A 128 × 128 weight matrix. -/
abbrev SM : Shape := ⟨2, ![128, 128]⟩
/-- The 16 × 128 weight band that multiplies the edge features. -/
abbrev SC : Shape := ⟨2, ![16, 128]⟩
/-- A column of 400000 row numbers (32-bit words). -/
abbrev SI : Shape := ⟨2, ![400000, 1]⟩

/-- The leaky rectifier as both programs spell it: `x` where `x ≥ 0`, else `0.01 · x`, the comparison and the
    two literals read at the ideal instance. -/
def lrelu (x : EReal) : EReal :=
  Scalar.select (FloatOps.cmpf (F := Ideal) (φ := .f32) .oge x (Ideal.ofBits .f32 0x00000000#32)) x
    (Ideal.ofBits .f32 0x3C23D70A#32 * x)

/-- The message perceptron on `R` rows: entry `(r, j)` is
    `∑ k, lrelu (∑ q, hs r q · wa q k + ∑ q, hd r q · wb q k + ∑ q, ef r q · wc q k) · w2 k j`. -/
def edgeStage {R : Nat} (hs hd : (⟨2, ![R, 128]⟩ : Shape).Idx → EReal) (ef : (⟨2, ![R, 16]⟩ : Shape).Idx → EReal)
    (wa wb : SM.Idx → EReal) (wc : SC.Idx → EReal) (w2 : SM.Idx → EReal) : (⟨2, ![R, 128]⟩ : Shape).Idx → EReal :=
  fun i => ∑ k : Fin 128,
    lrelu ((∑ q : Fin 128, hs (ix2 (i 0) q) * wa (ix2 q k)) + (∑ q : Fin 128, hd (ix2 (i 0) q) * wb (ix2 q k))
      + ∑ q : Fin 16, ef (ix2 (i 0) q) * wc (ix2 q k)) * w2 (ix2 k (i 1))

/-- The node perceptron on `R` rows: entry `(r, j)` is
    `∑ k, lrelu (∑ q, h r q · na q k + ∑ q, red r q · nb q k) · n2 k j`. -/
def nodeStage {R : Nat} (h red : (⟨2, ![R, 128]⟩ : Shape).Idx → EReal) (na nb n2 : SM.Idx → EReal) :
    (⟨2, ![R, 128]⟩ : Shape).Idx → EReal :=
  fun i => ∑ k : Fin 128,
    lrelu ((∑ q : Fin 128, h (ix2 (i 0) q) * na (ix2 q k)) + ∑ q : Fin 128, red (ix2 (i 0) q) * nb (ix2 q k))
      * n2 (ix2 k (i 1))

/-- The two host operations both programs share, kept opaque: the row gather and the per-destination sum. -/
structure Glue where
  gath : (SN.Idx → EReal) → (SI.Idx → BitVec 32) → SE.Idx → EReal
  scat : (SN.Idx → EReal) → (SI.Idx → BitVec 32) → (SE.Idx → EReal) → SN.Idx → EReal

/-- One layer's seven weight matrices. -/
structure Weights where
  wa : SM.Idx → EReal
  wb : SM.Idx → EReal
  wc : SC.Idx → EReal
  w2 : SM.Idx → EReal
  na : SM.Idx → EReal
  nb : SM.Idx → EReal
  n2 : SM.Idx → EReal

/-- One layer: gather, message perceptron, per-destination sum into the zero array `z`, node perceptron.
    `sW`, `dW` are the (wrapped) source and destination row numbers the gathers read, `dR` the destination row
    numbers the sum scatters by. -/
def layer (g : Glue) (z : SN.Idx → EReal) (sW dW dR : SI.Idx → BitVec 32) (ef : SF.Idx → EReal) (W : Weights)
    (h : SN.Idx → EReal) : SN.Idx → EReal :=
  nodeStage h (g.scat z dR (edgeStage (g.gath h sW) (g.gath h dW) ef W.wa W.wb W.wc W.w2)) W.na W.nb W.n2

/-- Three layers, a residual sum after each of the first two. -/
def net (g : Glue) (z : SN.Idx → EReal) (sW dW dR : SI.Idx → BitVec 32) (ef : SF.Idx → EReal) (W : Fin 3 → Weights)
    (h0 : SN.Idx → EReal) : SN.Idx → EReal :=
  layer g z sW dW dR ef (W 2)
    (fun i => layer g z sW dW dR ef (W 1) (fun i => layer g z sW dW dR ef (W 0) h0 i + h0 i) i
      + (fun i => layer g z sW dW dR ef (W 0) h0 i + h0 i) i)

/-! ## The host operations both programs share, over literal shapes

Each takes the shape facts it needs as hypotheses, so that a program's own spelling of the same operation (with its
own witnesses of those facts) is this term. -/

/-- The scalar shape. -/
abbrev S0 : Shape := ⟨0, ![]⟩
/-- 400000 row numbers. -/
abbrev SR : Shape := ⟨1, ![400000]⟩
/-- 200000 row numbers (one direction of the edges). -/
abbrev SH : Shape := ⟨1, ![200000]⟩
/-- One direction's edge features. -/
abbrev SFh : Shape := ⟨2, ![200000, 16]⟩
/-- The stacked first message weights, 3 layers of 272 rows. -/
abbrev SW1 : Shape := ⟨3, ![3, 272, 128]⟩
/-- Stacked 128-row weights. -/
abbrev SW2 : Shape := ⟨3, ![3, 128, 128]⟩
/-- The stacked first node weights, 3 layers of 256 rows. -/
abbrev SWn : Shape := ⟨3, ![3, 256, 128]⟩
/-- One layer's 128-row band, still with its unit layer axis. -/
abbrev S1M : Shape := ⟨3, ![1, 128, 128]⟩
/-- One layer's 16-row band, still with its unit layer axis. -/
abbrev S1C : Shape := ⟨3, ![1, 16, 128]⟩

/-- Two lists of 200000 row numbers, one after the other. -/
def joinRows (hc : Shape.Concatenates [SH, SH] SR 0) (a b : SH.Idx → BitVec 32) : SR.Idx → BitVec 32 :=
  concatenate SR 0 [⟨SH, a⟩, ⟨SH, b⟩] hc

/-- The edge features twice, one copy per direction. -/
def joinFeats (hc : Shape.Concatenates [SFh, SFh] SF 0) (a b : SFh.Idx → EReal) : SF.Idx → EReal :=
  concatenate SF 0 [⟨SFh, a⟩, ⟨SFh, b⟩] hc

/-- A negative row number counts from the end: `x + 50000` where `x < 0`, else `x`. -/
def wrapRows (h0 : S0.BroadcastsInDim SR ![]) (x : SR.Idx → BitVec 32) : SR.Idx → BitVec 32 :=
  select (cmpi .slt x (broadcastInDim SR ![] h0 (constantI S0 32 0#32)))
    (addi x (broadcastInDim SR ![] h0 (constantI S0 32 50000#32))) x

/-- Row numbers as a one-column array, the form the gather and the scatter read. -/
def asColumn (h1 : SR.BroadcastsInDim SI ![0]) (x : SR.Idx → BitVec 32) : SI.Idx → BitVec 32 :=
  broadcastInDim SI ![0] h1 x

/-- The zero array the per-destination sums start from. -/
def zeros (hz : S0.BroadcastsInDim SN ![]) : SN.Idx → EReal :=
  broadcastInDim SN ![] hz (constant (F := Ideal) S0 .f32 0x00000000#32)

/-- Layer `l`'s 128-row band starting at row `o` of a stacked weight array, as a matrix. -/
def band128 {S : Shape} (off : Fin S.rank → Nat) (hs : S.Slices off S1M) (hc : S1M.ShapeCasts SM) (W : S.Idx → EReal) :
    SM.Idx → EReal :=
  shapeCast SM (extractStridedSlice S1M off W hs) hc

/-- Layer `l`'s 16-row band starting at row `o`, as a matrix. -/
def band16 {S : Shape} (off : Fin S.rank → Nat) (hs : S.Slices off S1C) (hc : S1C.ShapeCasts SC) (W : S.Idx → EReal) :
    SC.Idx → EReal :=
  shapeCast SC (extractStridedSlice S1C off W hs) hc

/-- The gather's dimension numbers: row `idx r` of the operand is row `r` of the result. -/
def rowGather (wf : GatherDims.WF SN SI SE [1] [0] [] [0] [] 1 ![1, 128]) : GatherDims SN SI SE where
  offsetDims := [1]
  collapsedSliceDims := [0]
  operandBatchingDims := []
  startIndicesBatchingDims := []
  startIndexMap := [0]
  indexVectorDim := 1
  sliceSizes := ![1, 128]
  wf := wf

/-- The scatter's dimension numbers: row `r` of the updates is added into row `idx r` of the operand. -/
def rowScatter (wf : ScatterDims.WF SN SI SE [1] [0] [0] 1) : ScatterDims SN SI SE where
  updateWindowDims := [1]
  insertedWindowDims := [0]
  scatterDimsToOperandDims := [0]
  indexVectorDim := 1
  wf := wf

/-- The gather and the per-destination sum at the ideal instance, over those dimension numbers. -/
def hostGlue (wg : GatherDims.WF SN SI SE [1] [0] [] [0] [] 1 ![1, 128]) (ws : ScatterDims.WF SN SI SE [1] [0] [0] 1) : Glue where
  gath := fun x i => Host.gather (rowGather wg) x i
  scat := fun x i u => Host.scatterAdd (F := Ideal) (φ := .f32) (rowScatter ws) x i u

/-! ## The network as one function of the eight argument arrays -/

theorem joins_rows : Shape.Concatenates [SH, SH] SR 0 := by decide
theorem joins_feats : Shape.Concatenates [SFh, SFh] SF 0 := by decide
theorem scalar_to_rows : S0.BroadcastsInDim SR ![] := by decide
theorem rows_to_column : SR.BroadcastsInDim SI ![0] := by decide
theorem scalar_to_nodes : S0.BroadcastsInDim SN ![] := by decide
theorem band_is_matrix : S1M.ShapeCasts SM := by decide
theorem band16_is_matrix : S1C.ShapeCasts SC := by decide
theorem cut_w1_lo : ∀ l : Fin 3, SW1.Slices ![l.val, 0, 0] S1M := by decide
theorem cut_w1_mid : ∀ l : Fin 3, SW1.Slices ![l.val, 128, 0] S1M := by decide
theorem cut_w1_hi : ∀ l : Fin 3, SW1.Slices ![l.val, 256, 0] S1C := by decide
theorem cut_w2 : ∀ l : Fin 3, SW2.Slices ![l.val, 0, 0] S1M := by decide
theorem cut_wn_lo : ∀ l : Fin 3, SWn.Slices ![l.val, 0, 0] S1M := by decide
theorem cut_wn_hi : ∀ l : Fin 3, SWn.Slices ![l.val, 128, 0] S1M := by decide
theorem gather_wf : GatherDims.WF SN SI SE [1] [0] [] [0] [] 1 ![1, 128] := by decide
theorem scatter_wf : ScatterDims.WF SN SI SE [1] [0] [0] 1 := by decide

/-- Layer `l`'s seven weight matrices, cut from the four stacked weight arrays. -/
def weightsOf (a4 : SW1.Idx → EReal) (a5 : SW2.Idx → EReal) (a6 : SWn.Idx → EReal) (a7 : SW2.Idx → EReal) (l : Fin 3) : Weights where
  wa := band128 ![l.val, 0, 0] (cut_w1_lo l) band_is_matrix a4
  wb := band128 ![l.val, 128, 0] (cut_w1_mid l) band_is_matrix a4
  wc := band16 ![l.val, 256, 0] (cut_w1_hi l) band16_is_matrix a4
  w2 := band128 ![l.val, 0, 0] (cut_w2 l) band_is_matrix a5
  na := band128 ![l.val, 0, 0] (cut_wn_lo l) band_is_matrix a6
  nb := band128 ![l.val, 128, 0] (cut_wn_hi l) band_is_matrix a6
  n2 := band128 ![l.val, 0, 0] (cut_w2 l) band_is_matrix a7

/-- Source rows of the 400000 messages: the edges' sources, then their destinations (each edge sends both ways). -/
def srcRows (a2 a3 : SH.Idx → BitVec 32) : SR.Idx → BitVec 32 := joinRows joins_rows a2 a3
/-- Destination rows of the 400000 messages. -/
def dstRows (a2 a3 : SH.Idx → BitVec 32) : SR.Idx → BitVec 32 := joinRows joins_rows a3 a2

/-- The whole network as a function of the eight argument arrays (node features, edge features, edge sources,
    edge destinations, and the four stacked weight arrays). -/
def netOf (a0 : SN.Idx → EReal) (a1 : SFh.Idx → EReal) (a2 a3 : SH.Idx → BitVec 32) (a4 : SW1.Idx → EReal)
    (a5 : SW2.Idx → EReal) (a6 : SWn.Idx → EReal) (a7 : SW2.Idx → EReal) : SN.Idx → EReal :=
  net (hostGlue gather_wf scatter_wf) (zeros scalar_to_nodes)
    (asColumn rows_to_column (wrapRows scalar_to_rows (srcRows a2 a3)))
    (asColumn rows_to_column (wrapRows scalar_to_rows (dstRows a2 a3)))
    (asColumn rows_to_column (dstRows a2 a3))
    (joinFeats joins_feats a1 a1) (weightsOf a4 a5 a6 a7) a0

end Gnn

end
-- ==== Proof.KerKeep.lean ====
/-
  What the later segments never write.

  The first stretch of host operations builds, from the argument arrays, the 400000 source rows and destination
  rows of the messages (each edge taken in both directions) and the edge features twice over. No later host
  operation and no kernel region writes these three arrays or any argument array (a region that reads one through a
  window leaves it as it found it). So at every later segment boundary they hold what they held after the first
  stretch: this invariant, carried boundary by boundary.
-/
import proofs.«156241_j4647154614414_1_alg».proof.Proof.Gen.KernelIdeal.Frame
import proofs.«156241_j4647154614414_1_alg».proof.Proof.Network
import Idealize.ShloMosaic.Lib.StableHlo.Run

set_option maxRecDepth 16384

noncomputable section

namespace Cert.KernelIdeal.KerValue

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- The three derived arrays and the five argument arrays the later segments read, at their first-stretch contents. -/
structure Keep (W : Valuation τ sig (Elt Ideal)) : Prop where
  v0 : W (Proc.devRef .tc main_v0) = Gnn.srcRows (m ((c.tc : Thread nD τ).loc main_arg2)) (m ((c.tc : Thread nD τ).loc main_arg3))
  v1 : W (Proc.devRef .tc main_v1) = Gnn.dstRows (m ((c.tc : Thread nD τ).loc main_arg2)) (m ((c.tc : Thread nD τ).loc main_arg3))
  v2 : W (Proc.devRef .tc main_v2) = Gnn.joinFeats Gnn.joins_feats (m ((c.tc : Thread nD τ).loc main_arg1)) (m ((c.tc : Thread nD τ).loc main_arg1))
  a0 : W (Proc.devRef .tc main_arg0) = (m ((c.tc : Thread nD τ).loc main_arg0))
  a4 : W (Proc.devRef .tc main_arg4) = (m ((c.tc : Thread nD τ).loc main_arg4))
  a5 : W (Proc.devRef .tc main_arg5) = (m ((c.tc : Thread nD τ).loc main_arg5))
  a6 : W (Proc.devRef .tc main_arg6) = (m ((c.tc : Thread nD τ).loc main_arg6))
  a7 : W (Proc.devRef .tc main_arg7) = (m ((c.tc : Thread nD τ).loc main_arg7))

/-- After the first stretch: the rows and features as the concatenations build them, the arguments untouched. -/
theorem keep1 : Keep m c (W1 m ρ c) where
  v0 := by
    show StableHlo.after hostOps0 (W0 m ρ c) (Proc.devRef .tc main_v0) = _
    after_results_simp
    rfl
  v1 := by
    show StableHlo.after hostOps0 (W0 m ρ c) (Proc.devRef .tc main_v1) = _
    after_results_simp
    rfl
  v2 := by
    show StableHlo.after hostOps0 (W0 m ρ c) (Proc.devRef .tc main_v2) = _
    after_results_simp
    rfl
  a0 := by
    show StableHlo.after hostOps0 (W0 m ρ c) (Proc.devRef .tc main_arg0) = _
    after_results_simp
  a4 := by
    show StableHlo.after hostOps0 (W0 m ρ c) (Proc.devRef .tc main_arg4) = _
    after_results_simp
  a5 := by
    show StableHlo.after hostOps0 (W0 m ρ c) (Proc.devRef .tc main_arg5) = _
    after_results_simp
  a6 := by
    show StableHlo.after hostOps0 (W0 m ρ c) (Proc.devRef .tc main_arg6) = _
    after_results_simp
  a7 := by
    show StableHlo.after hostOps0 (W0 m ρ c) (Proc.devRef .tc main_arg7) = _
    after_results_simp

/-- Through region 0: none of these arrays is one of its outputs. -/
theorem keep2 : Keep m c (W2 m ρ c) where
  v0 := (W2_of_ne m ρ c main_v0 (by decide)).trans (keep1 m ρ c).v0
  v1 := (W2_of_ne m ρ c main_v1 (by decide)).trans (keep1 m ρ c).v1
  v2 := ((W2_arr m ρ c 2).trans (((dat0 (V1 m ρ) c).arrAt_in 2 rfl _).trans (A_eq0 (V1 m ρ) c 2))).trans (keep1 m ρ c).v2
  a0 := (W2_of_ne m ρ c main_arg0 (by decide)).trans (keep1 m ρ c).a0
  a4 := (W2_of_ne m ρ c main_arg4 (by decide)).trans (keep1 m ρ c).a4
  a5 := (W2_of_ne m ρ c main_arg5 (by decide)).trans (keep1 m ρ c).a5
  a6 := (W2_of_ne m ρ c main_arg6 (by decide)).trans (keep1 m ρ c).a6
  a7 := (W2_of_ne m ρ c main_arg7 (by decide)).trans (keep1 m ρ c).a7

/-- Through host stretch 1: none of its operations writes any of them. -/
theorem keep3 : Keep m c (W3 m ρ c) where
  v0 := (show StableHlo.after hostOps1 (W2 m ρ c) (Proc.devRef .tc main_v0) = W2 m ρ c (Proc.devRef .tc main_v0) by after_results_simp).trans (keep2 m ρ c).v0
  v1 := (show StableHlo.after hostOps1 (W2 m ρ c) (Proc.devRef .tc main_v1) = W2 m ρ c (Proc.devRef .tc main_v1) by after_results_simp).trans (keep2 m ρ c).v1
  v2 := (show StableHlo.after hostOps1 (W2 m ρ c) (Proc.devRef .tc main_v2) = W2 m ρ c (Proc.devRef .tc main_v2) by after_results_simp).trans (keep2 m ρ c).v2
  a0 := (show StableHlo.after hostOps1 (W2 m ρ c) (Proc.devRef .tc main_arg0) = W2 m ρ c (Proc.devRef .tc main_arg0) by after_results_simp).trans (keep2 m ρ c).a0
  a4 := (show StableHlo.after hostOps1 (W2 m ρ c) (Proc.devRef .tc main_arg4) = W2 m ρ c (Proc.devRef .tc main_arg4) by after_results_simp).trans (keep2 m ρ c).a4
  a5 := (show StableHlo.after hostOps1 (W2 m ρ c) (Proc.devRef .tc main_arg5) = W2 m ρ c (Proc.devRef .tc main_arg5) by after_results_simp).trans (keep2 m ρ c).a5
  a6 := (show StableHlo.after hostOps1 (W2 m ρ c) (Proc.devRef .tc main_arg6) = W2 m ρ c (Proc.devRef .tc main_arg6) by after_results_simp).trans (keep2 m ρ c).a6
  a7 := (show StableHlo.after hostOps1 (W2 m ρ c) (Proc.devRef .tc main_arg7) = W2 m ρ c (Proc.devRef .tc main_arg7) by after_results_simp).trans (keep2 m ρ c).a7

/-- Through region 1: none of these arrays is one of its outputs. -/
theorem keep4 : Keep m c (W4 m ρ c) where
  v0 := (W4_of_ne m ρ c main_v0 (by decide)).trans (keep3 m ρ c).v0
  v1 := (W4_of_ne m ρ c main_v1 (by decide)).trans (keep3 m ρ c).v1
  v2 := (W4_of_ne m ρ c main_v2 (by decide)).trans (keep3 m ρ c).v2
  a0 := ((W4_arr m ρ c 0).trans (((dat1 (V3 m ρ) c).arrAt_in 0 rfl _).trans (A_eq1 (V3 m ρ) c 0))).trans (keep3 m ρ c).a0
  a4 := (W4_of_ne m ρ c main_arg4 (by decide)).trans (keep3 m ρ c).a4
  a5 := (W4_of_ne m ρ c main_arg5 (by decide)).trans (keep3 m ρ c).a5
  a6 := (W4_of_ne m ρ c main_arg6 (by decide)).trans (keep3 m ρ c).a6
  a7 := (W4_of_ne m ρ c main_arg7 (by decide)).trans (keep3 m ρ c).a7

/-- Through host stretch 2: none of its operations writes any of them. -/
theorem keep5 : Keep m c (W5 m ρ c) where
  v0 := (show StableHlo.after hostOps2 (W4 m ρ c) (Proc.devRef .tc main_v0) = W4 m ρ c (Proc.devRef .tc main_v0) by after_results_simp).trans (keep4 m ρ c).v0
  v1 := (show StableHlo.after hostOps2 (W4 m ρ c) (Proc.devRef .tc main_v1) = W4 m ρ c (Proc.devRef .tc main_v1) by after_results_simp).trans (keep4 m ρ c).v1
  v2 := (show StableHlo.after hostOps2 (W4 m ρ c) (Proc.devRef .tc main_v2) = W4 m ρ c (Proc.devRef .tc main_v2) by after_results_simp).trans (keep4 m ρ c).v2
  a0 := (show StableHlo.after hostOps2 (W4 m ρ c) (Proc.devRef .tc main_arg0) = W4 m ρ c (Proc.devRef .tc main_arg0) by after_results_simp).trans (keep4 m ρ c).a0
  a4 := (show StableHlo.after hostOps2 (W4 m ρ c) (Proc.devRef .tc main_arg4) = W4 m ρ c (Proc.devRef .tc main_arg4) by after_results_simp).trans (keep4 m ρ c).a4
  a5 := (show StableHlo.after hostOps2 (W4 m ρ c) (Proc.devRef .tc main_arg5) = W4 m ρ c (Proc.devRef .tc main_arg5) by after_results_simp).trans (keep4 m ρ c).a5
  a6 := (show StableHlo.after hostOps2 (W4 m ρ c) (Proc.devRef .tc main_arg6) = W4 m ρ c (Proc.devRef .tc main_arg6) by after_results_simp).trans (keep4 m ρ c).a6
  a7 := (show StableHlo.after hostOps2 (W4 m ρ c) (Proc.devRef .tc main_arg7) = W4 m ρ c (Proc.devRef .tc main_arg7) by after_results_simp).trans (keep4 m ρ c).a7

/-- Through region 2: none of these arrays is one of its outputs. -/
theorem keep6 : Keep m c (W6 m ρ c) where
  v0 := (W6_of_ne m ρ c main_v0 (by decide)).trans (keep5 m ρ c).v0
  v1 := (W6_of_ne m ρ c main_v1 (by decide)).trans (keep5 m ρ c).v1
  v2 := ((W6_arr m ρ c 2).trans (((dat2 (V5 m ρ) c).arrAt_in 2 rfl _).trans (A_eq2 (V5 m ρ) c 2))).trans (keep5 m ρ c).v2
  a0 := (W6_of_ne m ρ c main_arg0 (by decide)).trans (keep5 m ρ c).a0
  a4 := (W6_of_ne m ρ c main_arg4 (by decide)).trans (keep5 m ρ c).a4
  a5 := (W6_of_ne m ρ c main_arg5 (by decide)).trans (keep5 m ρ c).a5
  a6 := (W6_of_ne m ρ c main_arg6 (by decide)).trans (keep5 m ρ c).a6
  a7 := (W6_of_ne m ρ c main_arg7 (by decide)).trans (keep5 m ρ c).a7

/-- Through host stretch 3: none of its operations writes any of them. -/
theorem keep7 : Keep m c (W7 m ρ c) where
  v0 := (show StableHlo.after hostOps3 (W6 m ρ c) (Proc.devRef .tc main_v0) = W6 m ρ c (Proc.devRef .tc main_v0) by after_results_simp).trans (keep6 m ρ c).v0
  v1 := (show StableHlo.after hostOps3 (W6 m ρ c) (Proc.devRef .tc main_v1) = W6 m ρ c (Proc.devRef .tc main_v1) by after_results_simp).trans (keep6 m ρ c).v1
  v2 := (show StableHlo.after hostOps3 (W6 m ρ c) (Proc.devRef .tc main_v2) = W6 m ρ c (Proc.devRef .tc main_v2) by after_results_simp).trans (keep6 m ρ c).v2
  a0 := (show StableHlo.after hostOps3 (W6 m ρ c) (Proc.devRef .tc main_arg0) = W6 m ρ c (Proc.devRef .tc main_arg0) by after_results_simp).trans (keep6 m ρ c).a0
  a4 := (show StableHlo.after hostOps3 (W6 m ρ c) (Proc.devRef .tc main_arg4) = W6 m ρ c (Proc.devRef .tc main_arg4) by after_results_simp).trans (keep6 m ρ c).a4
  a5 := (show StableHlo.after hostOps3 (W6 m ρ c) (Proc.devRef .tc main_arg5) = W6 m ρ c (Proc.devRef .tc main_arg5) by after_results_simp).trans (keep6 m ρ c).a5
  a6 := (show StableHlo.after hostOps3 (W6 m ρ c) (Proc.devRef .tc main_arg6) = W6 m ρ c (Proc.devRef .tc main_arg6) by after_results_simp).trans (keep6 m ρ c).a6
  a7 := (show StableHlo.after hostOps3 (W6 m ρ c) (Proc.devRef .tc main_arg7) = W6 m ρ c (Proc.devRef .tc main_arg7) by after_results_simp).trans (keep6 m ρ c).a7

/-- Through region 3: none of these arrays is one of its outputs. -/
theorem keep8 : Keep m c (W8 m ρ c) where
  v0 := (W8_of_ne m ρ c main_v0 (by decide)).trans (keep7 m ρ c).v0
  v1 := (W8_of_ne m ρ c main_v1 (by decide)).trans (keep7 m ρ c).v1
  v2 := (W8_of_ne m ρ c main_v2 (by decide)).trans (keep7 m ρ c).v2
  a0 := (W8_of_ne m ρ c main_arg0 (by decide)).trans (keep7 m ρ c).a0
  a4 := (W8_of_ne m ρ c main_arg4 (by decide)).trans (keep7 m ρ c).a4
  a5 := (W8_of_ne m ρ c main_arg5 (by decide)).trans (keep7 m ρ c).a5
  a6 := (W8_of_ne m ρ c main_arg6 (by decide)).trans (keep7 m ρ c).a6
  a7 := (W8_of_ne m ρ c main_arg7 (by decide)).trans (keep7 m ρ c).a7

/-- Through host stretch 4: none of its operations writes any of them. -/
theorem keep9 : Keep m c (W9 m ρ c) where
  v0 := (show StableHlo.after hostOps4 (W8 m ρ c) (Proc.devRef .tc main_v0) = W8 m ρ c (Proc.devRef .tc main_v0) by after_results_simp).trans (keep8 m ρ c).v0
  v1 := (show StableHlo.after hostOps4 (W8 m ρ c) (Proc.devRef .tc main_v1) = W8 m ρ c (Proc.devRef .tc main_v1) by after_results_simp).trans (keep8 m ρ c).v1
  v2 := (show StableHlo.after hostOps4 (W8 m ρ c) (Proc.devRef .tc main_v2) = W8 m ρ c (Proc.devRef .tc main_v2) by after_results_simp).trans (keep8 m ρ c).v2
  a0 := (show StableHlo.after hostOps4 (W8 m ρ c) (Proc.devRef .tc main_arg0) = W8 m ρ c (Proc.devRef .tc main_arg0) by after_results_simp).trans (keep8 m ρ c).a0
  a4 := (show StableHlo.after hostOps4 (W8 m ρ c) (Proc.devRef .tc main_arg4) = W8 m ρ c (Proc.devRef .tc main_arg4) by after_results_simp).trans (keep8 m ρ c).a4
  a5 := (show StableHlo.after hostOps4 (W8 m ρ c) (Proc.devRef .tc main_arg5) = W8 m ρ c (Proc.devRef .tc main_arg5) by after_results_simp).trans (keep8 m ρ c).a5
  a6 := (show StableHlo.after hostOps4 (W8 m ρ c) (Proc.devRef .tc main_arg6) = W8 m ρ c (Proc.devRef .tc main_arg6) by after_results_simp).trans (keep8 m ρ c).a6
  a7 := (show StableHlo.after hostOps4 (W8 m ρ c) (Proc.devRef .tc main_arg7) = W8 m ρ c (Proc.devRef .tc main_arg7) by after_results_simp).trans (keep8 m ρ c).a7

/-- Through region 4: none of these arrays is one of its outputs. -/
theorem keep10 : Keep m c (W10 m ρ c) where
  v0 := (W10_of_ne m ρ c main_v0 (by decide)).trans (keep9 m ρ c).v0
  v1 := (W10_of_ne m ρ c main_v1 (by decide)).trans (keep9 m ρ c).v1
  v2 := ((W10_arr m ρ c 2).trans (((dat4 (V9 m ρ) c).arrAt_in 2 rfl _).trans (A_eq4 (V9 m ρ) c 2))).trans (keep9 m ρ c).v2
  a0 := (W10_of_ne m ρ c main_arg0 (by decide)).trans (keep9 m ρ c).a0
  a4 := (W10_of_ne m ρ c main_arg4 (by decide)).trans (keep9 m ρ c).a4
  a5 := (W10_of_ne m ρ c main_arg5 (by decide)).trans (keep9 m ρ c).a5
  a6 := (W10_of_ne m ρ c main_arg6 (by decide)).trans (keep9 m ρ c).a6
  a7 := (W10_of_ne m ρ c main_arg7 (by decide)).trans (keep9 m ρ c).a7

/-- Through host stretch 5: none of its operations writes any of them. -/
theorem keep11 : Keep m c (W11 m ρ c) where
  v0 := (show StableHlo.after hostOps5 (W10 m ρ c) (Proc.devRef .tc main_v0) = W10 m ρ c (Proc.devRef .tc main_v0) by after_results_simp).trans (keep10 m ρ c).v0
  v1 := (show StableHlo.after hostOps5 (W10 m ρ c) (Proc.devRef .tc main_v1) = W10 m ρ c (Proc.devRef .tc main_v1) by after_results_simp).trans (keep10 m ρ c).v1
  v2 := (show StableHlo.after hostOps5 (W10 m ρ c) (Proc.devRef .tc main_v2) = W10 m ρ c (Proc.devRef .tc main_v2) by after_results_simp).trans (keep10 m ρ c).v2
  a0 := (show StableHlo.after hostOps5 (W10 m ρ c) (Proc.devRef .tc main_arg0) = W10 m ρ c (Proc.devRef .tc main_arg0) by after_results_simp).trans (keep10 m ρ c).a0
  a4 := (show StableHlo.after hostOps5 (W10 m ρ c) (Proc.devRef .tc main_arg4) = W10 m ρ c (Proc.devRef .tc main_arg4) by after_results_simp).trans (keep10 m ρ c).a4
  a5 := (show StableHlo.after hostOps5 (W10 m ρ c) (Proc.devRef .tc main_arg5) = W10 m ρ c (Proc.devRef .tc main_arg5) by after_results_simp).trans (keep10 m ρ c).a5
  a6 := (show StableHlo.after hostOps5 (W10 m ρ c) (Proc.devRef .tc main_arg6) = W10 m ρ c (Proc.devRef .tc main_arg6) by after_results_simp).trans (keep10 m ρ c).a6
  a7 := (show StableHlo.after hostOps5 (W10 m ρ c) (Proc.devRef .tc main_arg7) = W10 m ρ c (Proc.devRef .tc main_arg7) by after_results_simp).trans (keep10 m ρ c).a7

end Cert.KernelIdeal.KerValue

end
-- ==== Proof.KerLayer0.lean ====
/-
  The first layer, read off the first four segments.

  The first host stretch gathers the node features at the messages' source rows and destination rows and cuts
  the layer's four message weight matrices out of the stacked arrays; the first region is the message
  perceptron on those; the second stretch sums the messages per destination node into a zero array and cuts the
  three node weight matrices; the second region is the node perceptron on the node features and those sums.
  Together: the result of region 1 is `Gnn.layer` at layer 0 of the argument node features.
-/
import proofs.«156241_j4647154614414_1_alg».proof.Proof.KerKeep

set_option maxRecDepth 16384

noncomputable section

namespace Cert.KernelIdeal.KerValue

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- The gather and the per-destination sum both programs share. -/
abbrev G : Gnn.Glue := Gnn.hostGlue Gnn.gather_wf Gnn.scatter_wf
/-- The zero array the sums start from. -/
abbrev Z : Gnn.SN.Idx → EReal := Gnn.zeros Gnn.scalar_to_nodes
/-- The messages' source rows, wrapped, as a column. -/
def sW : Gnn.SI.Idx → BitVec 32 := Gnn.asColumn Gnn.rows_to_column (Gnn.wrapRows Gnn.scalar_to_rows (Gnn.srcRows (m ((c.tc : Thread nD τ).loc main_arg2)) (m ((c.tc : Thread nD τ).loc main_arg3))))
/-- The messages' destination rows, wrapped, as a column. -/
def dW : Gnn.SI.Idx → BitVec 32 := Gnn.asColumn Gnn.rows_to_column (Gnn.wrapRows Gnn.scalar_to_rows (Gnn.dstRows (m ((c.tc : Thread nD τ).loc main_arg2)) (m ((c.tc : Thread nD τ).loc main_arg3))))
/-- The messages' destination rows as the sum scatters by them. -/
def dR : Gnn.SI.Idx → BitVec 32 := Gnn.asColumn Gnn.rows_to_column (Gnn.dstRows (m ((c.tc : Thread nD τ).loc main_arg2)) (m ((c.tc : Thread nD τ).loc main_arg3)))
/-- The edge features, once per direction. -/
def EF : Gnn.SF.Idx → EReal := Gnn.joinFeats Gnn.joins_feats (m ((c.tc : Thread nD τ).loc main_arg1)) (m ((c.tc : Thread nD τ).loc main_arg1))
/-- The layers' weight matrices. -/
def Wt : Fin 3 → Gnn.Weights := Gnn.weightsOf (m ((c.tc : Thread nD τ).loc main_arg4)) (m ((c.tc : Thread nD τ).loc main_arg5)) (m ((c.tc : Thread nD τ).loc main_arg6)) (m ((c.tc : Thread nD τ).loc main_arg7))
/-- Layer `l` on node features `h`. -/
def lay (l : Fin 3) (h : Gnn.SN.Idx → EReal) : Gnn.SN.Idx → EReal :=
  Gnn.layer G Z (sW m c) (dW m c) (dR m c) (EF m c) (Wt m c l) h

/-- Region 0 as one function of the arrays it finds, for any entry contents: the message perceptron. -/
abbrev Reg0 : Prop := (∀ (V : (c : Dev nD) → (b : Ref sig .tc) → Buf (Elt Ideal) ((c : Thread nD τ).loc b)) (c : Dev nD),
      (dat0 (F := Ideal) V c).arrAt 7 cfg0.N = Gnn.edgeStage (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)))
/-- Region 1 as one function of the arrays it finds, for any entry contents: the node perceptron. -/
abbrev Reg1 : Prop := (∀ (V : (c : Dev nD) → (b : Ref sig .tc) → Buf (Elt Ideal) ((c : Thread nD τ).loc b)) (c : Dev nD),
      (dat1 (F := Ideal) V c).arrAt 5 cfg1.N = Gnn.nodeStage (V c (Pipeline.arrRef spec1 0)) (V c (Pipeline.arrRef spec1 1)) (V c (Pipeline.arrRef spec1 2)) (V c (Pipeline.arrRef spec1 3)) (V c (Pipeline.arrRef spec1 4)))
/-- Region 2 as one function of the arrays it finds, for any entry contents: the message perceptron. -/
abbrev Reg2 : Prop := (∀ (V : (c : Dev nD) → (b : Ref sig .tc) → Buf (Elt Ideal) ((c : Thread nD τ).loc b)) (c : Dev nD),
      (dat2 (F := Ideal) V c).arrAt 7 cfg2.N = Gnn.edgeStage (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)))
/-- Region 3 as one function of the arrays it finds, for any entry contents: the node perceptron. -/
abbrev Reg3 : Prop := (∀ (V : (c : Dev nD) → (b : Ref sig .tc) → Buf (Elt Ideal) ((c : Thread nD τ).loc b)) (c : Dev nD),
      (dat3 (F := Ideal) V c).arrAt 5 cfg3.N = Gnn.nodeStage (V c (Pipeline.arrRef spec3 0)) (V c (Pipeline.arrRef spec3 1)) (V c (Pipeline.arrRef spec3 2)) (V c (Pipeline.arrRef spec3 3)) (V c (Pipeline.arrRef spec3 4)))
/-- Region 4 as one function of the arrays it finds, for any entry contents: the message perceptron. -/
abbrev Reg4 : Prop := (∀ (V : (c : Dev nD) → (b : Ref sig .tc) → Buf (Elt Ideal) ((c : Thread nD τ).loc b)) (c : Dev nD),
      (dat4 (F := Ideal) V c).arrAt 7 cfg4.N = Gnn.edgeStage (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)))
/-- Region 5 as one function of the arrays it finds, for any entry contents: the node perceptron. -/
abbrev Reg5 : Prop := (∀ (V : (c : Dev nD) → (b : Ref sig .tc) → Buf (Elt Ideal) ((c : Thread nD τ).loc b)) (c : Dev nD),
      (dat5 (F := Ideal) V c).arrAt 5 cfg5.N = Gnn.nodeStage (V c (Pipeline.arrRef spec5 0)) (V c (Pipeline.arrRef spec5 1)) (V c (Pipeline.arrRef spec5 2)) (V c (Pipeline.arrRef spec5 3)) (V c (Pipeline.arrRef spec5 4)))

/-! ## After the first stretch -/

theorem e1_v9 : W1 m ρ c (Proc.devRef .tc main_v9) = G.gath (m ((c.tc : Thread nD τ).loc main_arg0)) (sW m c) := by
  show StableHlo.after hostOps0 (W0 m ρ c) (Proc.devRef .tc main_v9) = _
  after_results_simp
  rfl
theorem e1_v16 : W1 m ρ c (Proc.devRef .tc main_v16) = G.gath (m ((c.tc : Thread nD τ).loc main_arg0)) (dW m c) := by
  show StableHlo.after hostOps0 (W0 m ρ c) (Proc.devRef .tc main_v16) = _
  after_results_simp
  rfl
theorem e1_v18 : W1 m ρ c (Proc.devRef .tc main_v18) = (Wt m c 0).wa := by
  show StableHlo.after hostOps0 (W0 m ρ c) (Proc.devRef .tc main_v18) = _
  after_results_simp
  rfl
theorem e1_v20 : W1 m ρ c (Proc.devRef .tc main_v20) = (Wt m c 0).wb := by
  show StableHlo.after hostOps0 (W0 m ρ c) (Proc.devRef .tc main_v20) = _
  after_results_simp
  rfl
theorem e1_v22 : W1 m ρ c (Proc.devRef .tc main_v22) = (Wt m c 0).wc := by
  show StableHlo.after hostOps0 (W0 m ρ c) (Proc.devRef .tc main_v22) = _
  after_results_simp
  rfl
theorem e1_v24 : W1 m ρ c (Proc.devRef .tc main_v24) = (Wt m c 0).w2 := by
  show StableHlo.after hostOps0 (W0 m ρ c) (Proc.devRef .tc main_v24) = _
  after_results_simp
  rfl

/-! ## Region 0: the messages -/

/-- The first region leaves the message perceptron of the gathered rows in its output array. -/
theorem msg0 (hE0 : Reg0) : W2 m ρ c (Proc.devRef .tc main_v25)
    = Gnn.edgeStage (G.gath (m ((c.tc : Thread nD τ).loc main_arg0)) (sW m c)) (G.gath (m ((c.tc : Thread nD τ).loc main_arg0)) (dW m c)) (EF m c) (Wt m c 0).wa (Wt m c 0).wb (Wt m c 0).wc (Wt m c 0).w2 := by
  refine (W2_arr m ρ c 7).trans ((hE0 (V1 m ρ) c).trans ?_)
  show Gnn.edgeStage (W1 m ρ c (Proc.devRef .tc main_v9)) (W1 m ρ c (Proc.devRef .tc main_v16)) (W1 m ρ c (Proc.devRef .tc main_v2))
    (W1 m ρ c (Proc.devRef .tc main_v18)) (W1 m ρ c (Proc.devRef .tc main_v20)) (W1 m ρ c (Proc.devRef .tc main_v22)) (W1 m ρ c (Proc.devRef .tc main_v24)) = _
  rw [e1_v9 m ρ c, e1_v16 m ρ c, (keep1 m ρ c).v2, e1_v18 m ρ c, e1_v20 m ρ c, e1_v22 m ρ c, e1_v24 m ρ c]
  rfl

/-! ## After the second stretch -/

theorem e3_v28 (hE0 : Reg0) : W3 m ρ c (Proc.devRef .tc main_v28)
    = G.scat Z (dR m c) (Gnn.edgeStage (G.gath (m ((c.tc : Thread nD τ).loc main_arg0)) (sW m c)) (G.gath (m ((c.tc : Thread nD τ).loc main_arg0)) (dW m c)) (EF m c) (Wt m c 0).wa (Wt m c 0).wb (Wt m c 0).wc (Wt m c 0).w2) := by
  show StableHlo.after hostOps1 (W2 m ρ c) (Proc.devRef .tc main_v28) = _
  after_results_simp
  rw [msg0 m ρ c hE0, (keep2 m ρ c).v1]
  rfl
theorem e3_v30 : W3 m ρ c (Proc.devRef .tc main_v30) = (Wt m c 0).na := by
  show StableHlo.after hostOps1 (W2 m ρ c) (Proc.devRef .tc main_v30) = _
  after_results_simp
  rw [(keep2 m ρ c).a6]
  rfl
theorem e3_v32 : W3 m ρ c (Proc.devRef .tc main_v32) = (Wt m c 0).nb := by
  show StableHlo.after hostOps1 (W2 m ρ c) (Proc.devRef .tc main_v32) = _
  after_results_simp
  rw [(keep2 m ρ c).a6]
  rfl
theorem e3_v34 : W3 m ρ c (Proc.devRef .tc main_v34) = (Wt m c 0).n2 := by
  show StableHlo.after hostOps1 (W2 m ρ c) (Proc.devRef .tc main_v34) = _
  after_results_simp
  rw [(keep2 m ρ c).a7]
  rfl

/-! ## Region 1: the node update -/

/-- The second region leaves layer 0 of the argument node features in its output array. -/
theorem out0 (hE0 : Reg0) (hN0 : Reg1) : W4 m ρ c (Proc.devRef .tc main_v35) = lay m c 0 (m ((c.tc : Thread nD τ).loc main_arg0)) := by
  refine (W4_arr m ρ c 5).trans ((hN0 (V3 m ρ) c).trans ?_)
  show Gnn.nodeStage (W3 m ρ c (Proc.devRef .tc main_arg0)) (W3 m ρ c (Proc.devRef .tc main_v28)) (W3 m ρ c (Proc.devRef .tc main_v30))
    (W3 m ρ c (Proc.devRef .tc main_v32)) (W3 m ρ c (Proc.devRef .tc main_v34)) = _
  rw [(keep3 m ρ c).a0, e3_v28 m ρ c hE0, e3_v30 m ρ c, e3_v32 m ρ c, e3_v34 m ρ c]
  rfl

end Cert.KernelIdeal.KerValue

end
-- ==== Proof.KerLayer1.lean ====
/-
  The second layer, read off segments 4 to 7.

  The host stretch before the message region first adds the previous layer's result to the features that layer
  started from (the residual sum): these are this layer's node features `H1`. It then gathers them at the
  messages' source and destination rows and cuts this layer's message weights; the message region, the
  per-destination sum, the node weights and the node region follow as in the first layer. The layer's node
  features stay in their array through all four segments (no operation writes it; the node region reads it through
  a window and leaves it as found).
-/
import proofs.«156241_j4647154614414_1_alg».proof.Proof.KerLayer0

set_option maxRecDepth 16384

noncomputable section

namespace Cert.KernelIdeal.KerValue

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- This layer's node features: the previous layer's result plus the features it started from. -/
def H1 : Gnn.SN.Idx → EReal := addf (F := Ideal) (φ := .f32) (lay m c 0 (m ((c.tc : Thread nD τ).loc main_arg0))) (m ((c.tc : Thread nD τ).loc main_arg0))

/-! ## After host stretch 2 -/

theorem h1_5 (hE0 : Reg0) (hN0 : Reg1) : W5 m ρ c (Proc.devRef .tc main_v36) = H1 m c := by
  show StableHlo.after hostOps2 (W4 m ρ c) (Proc.devRef .tc main_v36) = _
  after_results_simp
  rw [out0 m ρ c hE0 hN0, (keep4 m ρ c).a0]
  rfl
theorem e5_src (hE0 : Reg0) (hN0 : Reg1) : W5 m ρ c (Proc.devRef .tc main_v43) = G.gath (H1 m c) (sW m c) := by
  show StableHlo.after hostOps2 (W4 m ρ c) (Proc.devRef .tc main_v43) = _
  after_results_simp
  rw [out0 m ρ c hE0 hN0, (keep4 m ρ c).a0, (keep4 m ρ c).v0]
  rfl
theorem e5_dst (hE0 : Reg0) (hN0 : Reg1) : W5 m ρ c (Proc.devRef .tc main_v50) = G.gath (H1 m c) (dW m c) := by
  show StableHlo.after hostOps2 (W4 m ρ c) (Proc.devRef .tc main_v50) = _
  after_results_simp
  rw [out0 m ρ c hE0 hN0, (keep4 m ρ c).a0, (keep4 m ρ c).v1]
  rfl
theorem e5_wa : W5 m ρ c (Proc.devRef .tc main_v52) = (Wt m c 1).wa := by
  show StableHlo.after hostOps2 (W4 m ρ c) (Proc.devRef .tc main_v52) = _
  after_results_simp
  rw [(keep4 m ρ c).a4]
  rfl
theorem e5_wb : W5 m ρ c (Proc.devRef .tc main_v54) = (Wt m c 1).wb := by
  show StableHlo.after hostOps2 (W4 m ρ c) (Proc.devRef .tc main_v54) = _
  after_results_simp
  rw [(keep4 m ρ c).a4]
  rfl
theorem e5_wc : W5 m ρ c (Proc.devRef .tc main_v56) = (Wt m c 1).wc := by
  show StableHlo.after hostOps2 (W4 m ρ c) (Proc.devRef .tc main_v56) = _
  after_results_simp
  rw [(keep4 m ρ c).a4]
  rfl
theorem e5_w2 : W5 m ρ c (Proc.devRef .tc main_v58) = (Wt m c 1).w2 := by
  show StableHlo.after hostOps2 (W4 m ρ c) (Proc.devRef .tc main_v58) = _
  after_results_simp
  rw [(keep4 m ρ c).a5]
  rfl

/-! ## Region 2: the messages -/

theorem msg1 (hE0 : Reg0) (hN0 : Reg1) (hE1 : Reg2) : W6 m ρ c (Proc.devRef .tc main_v59) = Gnn.edgeStage (G.gath (H1 m c) (sW m c)) (G.gath (H1 m c) (dW m c)) (EF m c) (Wt m c 1).wa (Wt m c 1).wb (Wt m c 1).wc (Wt m c 1).w2 := by
  refine (W6_arr m ρ c 7).trans ((hE1 (V5 m ρ) c).trans ?_)
  show Gnn.edgeStage (W5 m ρ c (Proc.devRef .tc main_v43)) (W5 m ρ c (Proc.devRef .tc main_v50)) (W5 m ρ c (Proc.devRef .tc main_v2))
    (W5 m ρ c (Proc.devRef .tc main_v52)) (W5 m ρ c (Proc.devRef .tc main_v54)) (W5 m ρ c (Proc.devRef .tc main_v56)) (W5 m ρ c (Proc.devRef .tc main_v58)) = _
  rw [e5_src m ρ c hE0 hN0, e5_dst m ρ c hE0 hN0, (keep5 m ρ c).v2, e5_wa m ρ c, e5_wb m ρ c, e5_wc m ρ c, e5_w2 m ρ c]
  rfl
theorem h1_6 (hE0 : Reg0) (hN0 : Reg1) : W6 m ρ c (Proc.devRef .tc main_v36) = H1 m c :=
  (W6_of_ne m ρ c main_v36 (by decide)).trans (h1_5 m ρ c hE0 hN0)

/-! ## After host stretch 3 -/

theorem e7_red (hE0 : Reg0) (hN0 : Reg1) (hE1 : Reg2) : W7 m ρ c (Proc.devRef .tc main_v62) = G.scat Z (dR m c) (Gnn.edgeStage (G.gath (H1 m c) (sW m c)) (G.gath (H1 m c) (dW m c)) (EF m c) (Wt m c 1).wa (Wt m c 1).wb (Wt m c 1).wc (Wt m c 1).w2) := by
  show StableHlo.after hostOps3 (W6 m ρ c) (Proc.devRef .tc main_v62) = _
  after_results_simp
  rw [msg1 m ρ c hE0 hN0 hE1, (keep6 m ρ c).v1]
  rfl
theorem e7_na : W7 m ρ c (Proc.devRef .tc main_v64) = (Wt m c 1).na := by
  show StableHlo.after hostOps3 (W6 m ρ c) (Proc.devRef .tc main_v64) = _
  after_results_simp
  rw [(keep6 m ρ c).a6]
  rfl
theorem e7_nb : W7 m ρ c (Proc.devRef .tc main_v66) = (Wt m c 1).nb := by
  show StableHlo.after hostOps3 (W6 m ρ c) (Proc.devRef .tc main_v66) = _
  after_results_simp
  rw [(keep6 m ρ c).a6]
  rfl
theorem e7_n2 : W7 m ρ c (Proc.devRef .tc main_v68) = (Wt m c 1).n2 := by
  show StableHlo.after hostOps3 (W6 m ρ c) (Proc.devRef .tc main_v68) = _
  after_results_simp
  rw [(keep6 m ρ c).a7]
  rfl
theorem h1_7 (hE0 : Reg0) (hN0 : Reg1) : W7 m ρ c (Proc.devRef .tc main_v36) = H1 m c :=
  (show StableHlo.after hostOps3 (W6 m ρ c) (Proc.devRef .tc main_v36) = W6 m ρ c (Proc.devRef .tc main_v36) by after_results_simp).trans (h1_6 m ρ c hE0 hN0)

/-! ## Region 3: the node update -/

/-- The node region leaves layer 1 of this layer's node features in its output array. -/
theorem out1 (hE0 : Reg0) (hN0 : Reg1) (hE1 : Reg2) (hN1 : Reg3) : W8 m ρ c (Proc.devRef .tc main_v69) = lay m c 1 (H1 m c) := by
  refine (W8_arr m ρ c 5).trans ((hN1 (V7 m ρ) c).trans ?_)
  show Gnn.nodeStage (W7 m ρ c (Proc.devRef .tc main_v36)) (W7 m ρ c (Proc.devRef .tc main_v62)) (W7 m ρ c (Proc.devRef .tc main_v64))
    (W7 m ρ c (Proc.devRef .tc main_v66)) (W7 m ρ c (Proc.devRef .tc main_v68)) = _
  rw [h1_7 m ρ c hE0 hN0, e7_red m ρ c hE0 hN0 hE1, e7_na m ρ c, e7_nb m ρ c, e7_n2 m ρ c]
  rfl
/-- The node region reads this layer's node features through a window and leaves them as it found them. -/
theorem h1_8 (hE0 : Reg0) (hN0 : Reg1) : W8 m ρ c (Proc.devRef .tc main_v36) = H1 m c :=
  ((W8_arr m ρ c 0).trans (((dat3 (V7 m ρ) c).arrAt_in 0 rfl _).trans (A_eq3 (V7 m ρ) c 0))).trans (h1_7 m ρ c hE0 hN0)

end Cert.KernelIdeal.KerValue

end
-- ==== Proof.KerLayer2.lean ====
/-
  The third layer, read off segments 8 to 11.

  The host stretch before the message region first adds the previous layer's result to the features that layer
  started from (the residual sum): these are this layer's node features `H2`. It then gathers them at the
  messages' source and destination rows and cuts this layer's message weights; the message region, the
  per-destination sum, the node weights and the node region follow as in the first layer. The layer's node
  features stay in their array through all four segments (no operation writes it; the node region reads it through
  a window and leaves it as found).
-/
import proofs.«156241_j4647154614414_1_alg».proof.Proof.KerLayer1

set_option maxRecDepth 16384

noncomputable section

namespace Cert.KernelIdeal.KerValue

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- This layer's node features: the previous layer's result plus the features it started from. -/
def H2 : Gnn.SN.Idx → EReal := addf (F := Ideal) (φ := .f32) (lay m c 1 (H1 m c)) (H1 m c)

/-! ## After host stretch 4 -/

theorem h2_9 (hE0 : Reg0) (hN0 : Reg1) (hE1 : Reg2) (hN1 : Reg3) : W9 m ρ c (Proc.devRef .tc main_v70) = H2 m c := by
  show StableHlo.after hostOps4 (W8 m ρ c) (Proc.devRef .tc main_v70) = _
  after_results_simp
  rw [out1 m ρ c hE0 hN0 hE1 hN1, h1_8 m ρ c hE0 hN0]
  rfl
theorem e9_src (hE0 : Reg0) (hN0 : Reg1) (hE1 : Reg2) (hN1 : Reg3) : W9 m ρ c (Proc.devRef .tc main_v77) = G.gath (H2 m c) (sW m c) := by
  show StableHlo.after hostOps4 (W8 m ρ c) (Proc.devRef .tc main_v77) = _
  after_results_simp
  rw [out1 m ρ c hE0 hN0 hE1 hN1, h1_8 m ρ c hE0 hN0, (keep8 m ρ c).v0]
  rfl
theorem e9_dst (hE0 : Reg0) (hN0 : Reg1) (hE1 : Reg2) (hN1 : Reg3) : W9 m ρ c (Proc.devRef .tc main_v84) = G.gath (H2 m c) (dW m c) := by
  show StableHlo.after hostOps4 (W8 m ρ c) (Proc.devRef .tc main_v84) = _
  after_results_simp
  rw [out1 m ρ c hE0 hN0 hE1 hN1, h1_8 m ρ c hE0 hN0, (keep8 m ρ c).v1]
  rfl
theorem e9_wa : W9 m ρ c (Proc.devRef .tc main_v86) = (Wt m c 2).wa := by
  show StableHlo.after hostOps4 (W8 m ρ c) (Proc.devRef .tc main_v86) = _
  after_results_simp
  rw [(keep8 m ρ c).a4]
  rfl
theorem e9_wb : W9 m ρ c (Proc.devRef .tc main_v88) = (Wt m c 2).wb := by
  show StableHlo.after hostOps4 (W8 m ρ c) (Proc.devRef .tc main_v88) = _
  after_results_simp
  rw [(keep8 m ρ c).a4]
  rfl
theorem e9_wc : W9 m ρ c (Proc.devRef .tc main_v90) = (Wt m c 2).wc := by
  show StableHlo.after hostOps4 (W8 m ρ c) (Proc.devRef .tc main_v90) = _
  after_results_simp
  rw [(keep8 m ρ c).a4]
  rfl
theorem e9_w2 : W9 m ρ c (Proc.devRef .tc main_v92) = (Wt m c 2).w2 := by
  show StableHlo.after hostOps4 (W8 m ρ c) (Proc.devRef .tc main_v92) = _
  after_results_simp
  rw [(keep8 m ρ c).a5]
  rfl

/-! ## Region 4: the messages -/

theorem msg2 (hE0 : Reg0) (hN0 : Reg1) (hE1 : Reg2) (hN1 : Reg3) (hE2 : Reg4) : W10 m ρ c (Proc.devRef .tc main_v93) = Gnn.edgeStage (G.gath (H2 m c) (sW m c)) (G.gath (H2 m c) (dW m c)) (EF m c) (Wt m c 2).wa (Wt m c 2).wb (Wt m c 2).wc (Wt m c 2).w2 := by
  refine (W10_arr m ρ c 7).trans ((hE2 (V9 m ρ) c).trans ?_)
  show Gnn.edgeStage (W9 m ρ c (Proc.devRef .tc main_v77)) (W9 m ρ c (Proc.devRef .tc main_v84)) (W9 m ρ c (Proc.devRef .tc main_v2))
    (W9 m ρ c (Proc.devRef .tc main_v86)) (W9 m ρ c (Proc.devRef .tc main_v88)) (W9 m ρ c (Proc.devRef .tc main_v90)) (W9 m ρ c (Proc.devRef .tc main_v92)) = _
  rw [e9_src m ρ c hE0 hN0 hE1 hN1, e9_dst m ρ c hE0 hN0 hE1 hN1, (keep9 m ρ c).v2, e9_wa m ρ c, e9_wb m ρ c, e9_wc m ρ c, e9_w2 m ρ c]
  rfl
theorem h2_10 (hE0 : Reg0) (hN0 : Reg1) (hE1 : Reg2) (hN1 : Reg3) : W10 m ρ c (Proc.devRef .tc main_v70) = H2 m c :=
  (W10_of_ne m ρ c main_v70 (by decide)).trans (h2_9 m ρ c hE0 hN0 hE1 hN1)

/-! ## After host stretch 5 -/

theorem e11_red (hE0 : Reg0) (hN0 : Reg1) (hE1 : Reg2) (hN1 : Reg3) (hE2 : Reg4) : W11 m ρ c (Proc.devRef .tc main_v96) = G.scat Z (dR m c) (Gnn.edgeStage (G.gath (H2 m c) (sW m c)) (G.gath (H2 m c) (dW m c)) (EF m c) (Wt m c 2).wa (Wt m c 2).wb (Wt m c 2).wc (Wt m c 2).w2) := by
  show StableHlo.after hostOps5 (W10 m ρ c) (Proc.devRef .tc main_v96) = _
  after_results_simp
  rw [msg2 m ρ c hE0 hN0 hE1 hN1 hE2, (keep10 m ρ c).v1]
  rfl
theorem e11_na : W11 m ρ c (Proc.devRef .tc main_v98) = (Wt m c 2).na := by
  show StableHlo.after hostOps5 (W10 m ρ c) (Proc.devRef .tc main_v98) = _
  after_results_simp
  rw [(keep10 m ρ c).a6]
  rfl
theorem e11_nb : W11 m ρ c (Proc.devRef .tc main_v100) = (Wt m c 2).nb := by
  show StableHlo.after hostOps5 (W10 m ρ c) (Proc.devRef .tc main_v100) = _
  after_results_simp
  rw [(keep10 m ρ c).a6]
  rfl
theorem e11_n2 : W11 m ρ c (Proc.devRef .tc main_v102) = (Wt m c 2).n2 := by
  show StableHlo.after hostOps5 (W10 m ρ c) (Proc.devRef .tc main_v102) = _
  after_results_simp
  rw [(keep10 m ρ c).a7]
  rfl
theorem h2_11 (hE0 : Reg0) (hN0 : Reg1) (hE1 : Reg2) (hN1 : Reg3) : W11 m ρ c (Proc.devRef .tc main_v70) = H2 m c :=
  (show StableHlo.after hostOps5 (W10 m ρ c) (Proc.devRef .tc main_v70) = W10 m ρ c (Proc.devRef .tc main_v70) by after_results_simp).trans (h2_10 m ρ c hE0 hN0 hE1 hN1)

/-! ## Region 5: the node update -/

/-- The node region leaves layer 2 of this layer's node features in its output array. -/
theorem out2 (hE0 : Reg0) (hN0 : Reg1) (hE1 : Reg2) (hN1 : Reg3) (hE2 : Reg4) (hN2 : Reg5) : W12 m ρ c (Proc.devRef .tc main_v103) = lay m c 2 (H2 m c) := by
  refine (W12_arr m ρ c 5).trans ((hN2 (V11 m ρ) c).trans ?_)
  show Gnn.nodeStage (W11 m ρ c (Proc.devRef .tc main_v70)) (W11 m ρ c (Proc.devRef .tc main_v96)) (W11 m ρ c (Proc.devRef .tc main_v98))
    (W11 m ρ c (Proc.devRef .tc main_v100)) (W11 m ρ c (Proc.devRef .tc main_v102)) = _
  rw [h2_11 m ρ c hE0 hN0 hE1 hN1, e11_red m ρ c hE0 hN0 hE1 hN1 hE2, e11_na m ρ c, e11_nb m ρ c, e11_n2 m ρ c]
  rfl
/-- The node region reads this layer's node features through a window and leaves them as it found them. -/
theorem h2_12 (hE0 : Reg0) (hN0 : Reg1) (hE1 : Reg2) (hN1 : Reg3) : W12 m ρ c (Proc.devRef .tc main_v70) = H2 m c :=
  ((W12_arr m ρ c 0).trans (((dat5 (V11 m ρ) c).arrAt_in 0 rfl _).trans (A_eq5 (V11 m ρ) c 0))).trans (h2_11 m ρ c hE0 hN0 hE1 hN1)

end Cert.KernelIdeal.KerValue

end
-- ==== Proof.KerRun.lean ====
/-
  The idealized kernel program's run with its result named.

  Every weakly fair execution of the program terminates without a fault; the argument arrays end as launched; and
  the result array ends at the contents the last segment boundary records for it — the last region's write-backs
  folded into the array as that region found it. What those contents are, as a function of the arguments, is read in
  the modules that follow the twelve segments one by one.
-/
import proofs.«156241_j4647154614414_1_alg».proof.Proof.Gen.KernelIdeal.Frame

set_option maxRecDepth 16384

noncomputable section

namespace Cert.KernelIdeal.KerValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the last boundary's contents, the eight arguments as launched. -/
theorem run_named : θ_run defs (onTc (τ := τ) (main (F := F))) ⟨m, fun _ => 0, ρ⟩ (fun r => ∀ c : Dev nD,
      r.2.mem ((c.tc : Thread nD τ).loc main_v103) = W12 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v103 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.KerValue

end
-- ==== Proof.KerNet.lean ====
/-
  The idealized kernel program computes the network.

  Chaining the three layers: the last region's output array — the program's result — holds `Gnn.netOf` of the
  eight argument arrays. The residual sums are the host's elementwise additions, which at the ideal instance
  are the pointwise sums the network's definition writes.
-/
import proofs.«156241_j4647154614414_1_alg».proof.Proof.KerLayer2
import proofs.«156241_j4647154614414_1_alg».proof.Proof.KerRun

set_option maxRecDepth 16384

noncomputable section

namespace Cert.KernelIdeal.KerValue

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

variable (m : (ℓ : Loc nD τ sig) → Buf (Elt Ideal) ℓ) (ρ : Dev nD → PrngReg) (c : Dev nD)

/-- The result array at the last segment boundary is the network of the arguments. -/
theorem result (hE0 : Reg0) (hN0 : Reg1) (hE1 : Reg2) (hN1 : Reg3) (hE2 : Reg4) (hN2 : Reg5) : W12 m ρ c (Proc.devRef .tc main_v103) = Gnn.netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (out2 m ρ c hE0 hN0 hE1 hN1 hE2 hN2).trans rfl

/-- Every weakly fair execution of the idealized kernel program terminates without a fault, with the result array at
    the network of the argument arrays and the arguments as launched. -/
theorem run (hE0 : Reg0) (hN0 : Reg1) (hE1 : Reg2) (hN1 : Reg3) (hE2 : Reg4) (hN2 : Reg5) :
    θ_run (defs (F := Ideal)) (onTc (τ := τ) (main (F := Ideal))) ⟨m, fun _ => 0, ρ⟩ (fun r => ∀ c : Dev nD,
      r.2.mem ((c.tc : Thread nD τ).loc main_v103) = Gnn.netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (result m ρ c hE0 hN0 hE1 hN1 hE2 hN2), (h c).2⟩)
    (run_named (F := Ideal) m ρ)

end Cert.KernelIdeal.KerValue

end
-- ==== Proof.KerPayload.lean ====
/-
  The arithmetic of the two kernel bodies, index by index, at the ideal values.

  Each body is three (or two) matrix products into zero accumulators, summed, the leaky rectifier, and one more
  matrix product; the roundings to bf16 on the way into each product and the same-shape casts are the identity
  at the ideal values. So the message body on a block of rows is `Gnn.edgeStage` of that block and the node body
  is `Gnn.nodeStage` of it. Also here: each perceptron reads its row-wise operands only on the row it computes, so
  the perceptron of a block of rows is that block of rows of the perceptron.
-/
import proofs.«156241_j4647154614414_1_alg».proof.Proof.Gen.KernelIdeal.Skeleton
import proofs.«156241_j4647154614414_1_alg».proof.Proof.Network
import Idealize.ShloMosaic.Lib.ValueIdx
import Idealize.ShloMosaic.Lib.StackMember
import Idealize.ShloMosaic.Lib.Pipeline.Value

noncomputable section

open scoped BigOperators
open Idealize.ShloMosaic Idealize.ShloMosaic.ValueIdx

namespace Cert.KernelIdeal.KerValue

open Cert.KernelIdeal Cert.KernelIdeal.Gen

/-- The dimension numbers of the 128-column products are the plain product's. -/
theorem dot128_plain : dot_S10000x128_S128x128_S10000x128_1_0_0_1_n_n = DotDims.plain 10000 128 128 := rfl

/-- The dimension numbers of the 16-column product are the plain product's. -/
theorem dot16_plain : dot_S10000x16_S16x128_S10000x128_1_0_0_1_n_n = DotDims.plain 10000 16 128 := rfl

/-- A plain product of two operands rounded to bf16, into the zero accumulator, at entry `(r, j)`: the sum over the
    contracted coordinate of the products of the entries (the rounding is the identity at the ideal values). -/
theorem product_apply {R K N : Nat} (d : DotDims ⟨2, ![R, K]⟩ ⟨2, ![K, N]⟩ ⟨2, ![R, N]⟩) (hd : d = DotDims.plain R K N)
    (A : FVec Ideal ⟨2, ![R, K]⟩ .f32) (B : FVec Ideal ⟨2, ![K, N]⟩ .f32) (hb : FTy.bits .bf16 < FTy.bits .f32)
    (r : Fin R) (j : Fin N) :
    matmul d none (truncf .bf16 A hb) (truncf .bf16 B hb) (constant (F := Ideal) ⟨2, ![R, N]⟩ .f32 0x00000000#32) (ix2 r j)
      = ∑ q : Fin K, A (ix2 r q) * B (ix2 q j) := by
  subst hd
  rw [matmul_zero_eq_dotGeneral, StackMember.dotGeneral_plain_apply]
  rfl

/-- The leaky rectifier as the bodies spell it on a whole block, at an index. -/
theorem rectifier_apply {s : Shape} (v : FVec Ideal s .f32) (i : s.Idx) :
    select (cmpf .oge v (broadcast s (Scalar.ofBits (F := Ideal) .f32 0x00000000#32))) v
        (mulf (broadcast s (Scalar.ofBits (F := Ideal) .f32 0x3C23D70A#32)) v) i = Gnn.lrelu (v i) := rfl

/-! ## The bodies' arithmetic -/

/-- The message body of layer 1 on a block of 10000 rows is the message perceptron of that block. -/
theorem edge_payload0 (x0 x1 : Vec Ideal S10000x128 .f32) (x2 : Vec Ideal S10000x16 .f32) (x3 x4 : Vec Ideal S128x128 .f32)
    (x5 : Vec Ideal S16x128 .f32) (x6 : Vec Ideal S128x128 .f32) :
    Gen.k0_pay1 (F := Ideal) x0 x1 x2 x3 x4 x5 x6 = Gnn.edgeStage (R := 10000) x0 x1 x2 x3 x4 x5 x6 := by
  funext i
  obtain ⟨r, j, rfl⟩ : ∃ (r : Fin 10000) (j : Fin 128), i = ix2 r j := ⟨i 0, i 1, eq_ix2 i⟩
  unfold Gen.k0_pay1
  simp only [shapeCast_self]
  refine (product_apply _ dot128_plain _ _ _ r j).trans ?_
  unfold Gnn.edgeStage
  refine Finset.sum_congr rfl fun k _ => congrArg (· * x6 (ix2 k j)) ?_
  refine (rectifier_apply _ (ix2 r k)).trans (congrArg Gnn.lrelu ?_)
  show (_ + _) + _ = _
  rw [product_apply _ dot128_plain x0 x3 _ r k, product_apply _ dot128_plain x1 x4 _ r k,
    product_apply _ dot16_plain x2 x5 _ r k]

/-- The node body of layer 1 on a block of 10000 rows is the node perceptron of that block. -/
theorem node_payload1 (x0 x1 : Vec Ideal S10000x128 .f32) (x2 x3 x4 : Vec Ideal S128x128 .f32) :
    Gen.k1_pay1 (F := Ideal) x0 x1 x2 x3 x4 = Gnn.nodeStage (R := 10000) x0 x1 x2 x3 x4 := by
  funext i
  obtain ⟨r, j, rfl⟩ : ∃ (r : Fin 10000) (j : Fin 128), i = ix2 r j := ⟨i 0, i 1, eq_ix2 i⟩
  unfold Gen.k1_pay1
  simp only [shapeCast_self]
  refine (product_apply _ dot128_plain _ _ _ r j).trans ?_
  unfold Gnn.nodeStage
  refine Finset.sum_congr rfl fun k _ => congrArg (· * x4 (ix2 k j)) ?_
  refine (rectifier_apply _ (ix2 r k)).trans (congrArg Gnn.lrelu ?_)
  show _ + _ = _
  rw [product_apply _ dot128_plain x0 x2 _ r k, product_apply _ dot128_plain x1 x3 _ r k]

/-- The message body of layer 2 on a block of 10000 rows is the message perceptron of that block. -/
theorem edge_payload2 (x0 x1 : Vec Ideal S10000x128 .f32) (x2 : Vec Ideal S10000x16 .f32) (x3 x4 : Vec Ideal S128x128 .f32)
    (x5 : Vec Ideal S16x128 .f32) (x6 : Vec Ideal S128x128 .f32) :
    Gen.k2_pay1 (F := Ideal) x0 x1 x2 x3 x4 x5 x6 = Gnn.edgeStage (R := 10000) x0 x1 x2 x3 x4 x5 x6 := by
  funext i
  obtain ⟨r, j, rfl⟩ : ∃ (r : Fin 10000) (j : Fin 128), i = ix2 r j := ⟨i 0, i 1, eq_ix2 i⟩
  unfold Gen.k2_pay1
  simp only [shapeCast_self]
  refine (product_apply _ dot128_plain _ _ _ r j).trans ?_
  unfold Gnn.edgeStage
  refine Finset.sum_congr rfl fun k _ => congrArg (· * x6 (ix2 k j)) ?_
  refine (rectifier_apply _ (ix2 r k)).trans (congrArg Gnn.lrelu ?_)
  show (_ + _) + _ = _
  rw [product_apply _ dot128_plain x0 x3 _ r k, product_apply _ dot128_plain x1 x4 _ r k,
    product_apply _ dot16_plain x2 x5 _ r k]

/-- The node body of layer 2 on a block of 10000 rows is the node perceptron of that block. -/
theorem node_payload3 (x0 x1 : Vec Ideal S10000x128 .f32) (x2 x3 x4 : Vec Ideal S128x128 .f32) :
    Gen.k3_pay1 (F := Ideal) x0 x1 x2 x3 x4 = Gnn.nodeStage (R := 10000) x0 x1 x2 x3 x4 := by
  funext i
  obtain ⟨r, j, rfl⟩ : ∃ (r : Fin 10000) (j : Fin 128), i = ix2 r j := ⟨i 0, i 1, eq_ix2 i⟩
  unfold Gen.k3_pay1
  simp only [shapeCast_self]
  refine (product_apply _ dot128_plain _ _ _ r j).trans ?_
  unfold Gnn.nodeStage
  refine Finset.sum_congr rfl fun k _ => congrArg (· * x4 (ix2 k j)) ?_
  refine (rectifier_apply _ (ix2 r k)).trans (congrArg Gnn.lrelu ?_)
  show _ + _ = _
  rw [product_apply _ dot128_plain x0 x2 _ r k, product_apply _ dot128_plain x1 x3 _ r k]

/-- The message body of layer 3 on a block of 10000 rows is the message perceptron of that block. -/
theorem edge_payload4 (x0 x1 : Vec Ideal S10000x128 .f32) (x2 : Vec Ideal S10000x16 .f32) (x3 x4 : Vec Ideal S128x128 .f32)
    (x5 : Vec Ideal S16x128 .f32) (x6 : Vec Ideal S128x128 .f32) :
    Gen.k4_pay1 (F := Ideal) x0 x1 x2 x3 x4 x5 x6 = Gnn.edgeStage (R := 10000) x0 x1 x2 x3 x4 x5 x6 := by
  funext i
  obtain ⟨r, j, rfl⟩ : ∃ (r : Fin 10000) (j : Fin 128), i = ix2 r j := ⟨i 0, i 1, eq_ix2 i⟩
  unfold Gen.k4_pay1
  simp only [shapeCast_self]
  refine (product_apply _ dot128_plain _ _ _ r j).trans ?_
  unfold Gnn.edgeStage
  refine Finset.sum_congr rfl fun k _ => congrArg (· * x6 (ix2 k j)) ?_
  refine (rectifier_apply _ (ix2 r k)).trans (congrArg Gnn.lrelu ?_)
  show (_ + _) + _ = _
  rw [product_apply _ dot128_plain x0 x3 _ r k, product_apply _ dot128_plain x1 x4 _ r k,
    product_apply _ dot16_plain x2 x5 _ r k]

/-- The node body of layer 3 on a block of 10000 rows is the node perceptron of that block. -/
theorem node_payload5 (x0 x1 : Vec Ideal S10000x128 .f32) (x2 x3 x4 : Vec Ideal S128x128 .f32) :
    Gen.k5_pay1 (F := Ideal) x0 x1 x2 x3 x4 = Gnn.nodeStage (R := 10000) x0 x1 x2 x3 x4 := by
  funext i
  obtain ⟨r, j, rfl⟩ : ∃ (r : Fin 10000) (j : Fin 128), i = ix2 r j := ⟨i 0, i 1, eq_ix2 i⟩
  unfold Gen.k5_pay1
  simp only [shapeCast_self]
  refine (product_apply _ dot128_plain _ _ _ r j).trans ?_
  unfold Gnn.nodeStage
  refine Finset.sum_congr rfl fun k _ => congrArg (· * x4 (ix2 k j)) ?_
  refine (rectifier_apply _ (ix2 r k)).trans (congrArg Gnn.lrelu ?_)
  show _ + _ = _
  rw [product_apply _ dot128_plain x0 x2 _ r k, product_apply _ dot128_plain x1 x3 _ r k]

/-! ## A block of rows of the perceptrons -/

/-- The message perceptron reads its three row-wise operands only on the row it computes: if row `r` of each
    operand's block is row `p` of the operand, and the blocks of the weights are the weights, then entry `(r, j)` of
    the perceptron of the blocks is entry `(p, j)` of the perceptron of the operands. -/
theorem edgeStage_rows {R B : Nat} (hs hd : (⟨2, ![R, 128]⟩ : Shape).Idx → EReal) (ef : (⟨2, ![R, 16]⟩ : Shape).Idx → EReal)
    (wa wb : Gnn.SM.Idx → EReal) (wc : Gnn.SC.Idx → EReal) (w2 : Gnn.SM.Idx → EReal)
    (bs bd : (⟨2, ![B, 128]⟩ : Shape).Idx → EReal) (bf : (⟨2, ![B, 16]⟩ : Shape).Idx → EReal)
    (ba bb : Gnn.SM.Idx → EReal) (bc : Gnn.SC.Idx → EReal) (b2 : Gnn.SM.Idx → EReal)
    (p : Fin R) (r : Fin B) (j : Fin 128)
    (h_s : ∀ q : Fin 128, bs (ix2 r q) = hs (ix2 p q)) (h_d : ∀ q : Fin 128, bd (ix2 r q) = hd (ix2 p q))
    (h_f : ∀ q : Fin 16, bf (ix2 r q) = ef (ix2 p q))
    (h_a : ∀ q k : Fin 128, ba (ix2 q k) = wa (ix2 q k)) (h_b : ∀ q k : Fin 128, bb (ix2 q k) = wb (ix2 q k))
    (h_c : ∀ (q : Fin 16) (k : Fin 128), bc (ix2 q k) = wc (ix2 q k)) (h_2 : ∀ q k : Fin 128, b2 (ix2 q k) = w2 (ix2 q k)) :
    Gnn.edgeStage bs bd bf ba bb bc b2 (ix2 r j) = Gnn.edgeStage hs hd ef wa wb wc w2 (ix2 p j) := by
  show (∑ k : Fin 128, Gnn.lrelu ((∑ q : Fin 128, bs (ix2 r q) * ba (ix2 q k)) + (∑ q : Fin 128, bd (ix2 r q) * bb (ix2 q k))
      + ∑ q : Fin 16, bf (ix2 r q) * bc (ix2 q k)) * b2 (ix2 k j))
    = ∑ k : Fin 128, Gnn.lrelu ((∑ q : Fin 128, hs (ix2 p q) * wa (ix2 q k)) + (∑ q : Fin 128, hd (ix2 p q) * wb (ix2 q k))
      + ∑ q : Fin 16, ef (ix2 p q) * wc (ix2 q k)) * w2 (ix2 k j)
  simp only [h_s, h_d, h_f, h_a, h_b, h_c, h_2]

/-- The same for the node perceptron and its two row-wise operands. -/
theorem nodeStage_rows {R B : Nat} (h red : (⟨2, ![R, 128]⟩ : Shape).Idx → EReal) (na nb n2 : Gnn.SM.Idx → EReal)
    (bh bred : (⟨2, ![B, 128]⟩ : Shape).Idx → EReal) (ba bb b2 : Gnn.SM.Idx → EReal)
    (p : Fin R) (r : Fin B) (j : Fin 128)
    (h_h : ∀ q : Fin 128, bh (ix2 r q) = h (ix2 p q)) (h_r : ∀ q : Fin 128, bred (ix2 r q) = red (ix2 p q))
    (h_a : ∀ q k : Fin 128, ba (ix2 q k) = na (ix2 q k)) (h_b : ∀ q k : Fin 128, bb (ix2 q k) = nb (ix2 q k))
    (h_2 : ∀ q k : Fin 128, b2 (ix2 q k) = n2 (ix2 q k)) :
    Gnn.nodeStage bh bred ba bb b2 (ix2 r j) = Gnn.nodeStage h red na nb n2 (ix2 p j) := by
  show (∑ k : Fin 128, Gnn.lrelu ((∑ q : Fin 128, bh (ix2 r q) * ba (ix2 q k)) + ∑ q : Fin 128, bred (ix2 r q) * bb (ix2 q k))
      * b2 (ix2 k j))
    = ∑ k : Fin 128, Gnn.lrelu ((∑ q : Fin 128, h (ix2 p q) * na (ix2 q k)) + ∑ q : Fin 128, red (ix2 p q) * nb (ix2 q k))
      * n2 (ix2 k j)
  simp only [h_h, h_r, h_a, h_b, h_2]

/-- The zero offsets of a whole-buffer access, as the constant function. -/
theorem zero_offsets : (![0, 0] : Fin 2 → Nat) = fun _ => 0 := funext fun a => by fin_cases a <;> rfl

end Cert.KernelIdeal.KerValue

end
-- ==== Proof.KerRegion0.lean ====
/-
  Region 0 of the kernel program (the message kernel of layer 1) as one function of the arrays it finds: its result array ends holding the message perceptron `Gnn.edgeStage` of the seven operand arrays.

  Every point of the grid computes one block of 10000 rows: it reads rows `10000 t … 10000 t + 9999` of each row-wise
  operand and the whole of each weight matrix, and writes the body's result to the same rows of the result. The body on
  a block of rows is the perceptron of that block, the perceptron reads its row-wise operands only on the row it
  computes, and the blocks tile the rows (row `r` lies in block `r / 10000`): so the result array ends holding the
  perceptron of the whole operands, whatever the arrays held when the region was entered.
-/
import proofs.«156241_j4647154614414_1_alg».proof.Proof.Gen.KernelIdeal.Frame
import proofs.«156241_j4647154614414_1_alg».proof.Proof.KerPayload
import Idealize.ShloMosaic.Lib.Pipeline.Value
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.KerValue

open Cert.KernelIdeal Cert.KernelIdeal.Gen

variable (V : (c : Dev nD) → (b : Ref sig .tc) → Buf (Elt Ideal) ((c : Thread nD τ).loc b))

/-- The printed index maps over the grid: a row-wise window's block at point `t` is block `t` along the rows and the
    only block along the columns; a weight window's block is always the whole matrix. -/
theorem blocks0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0 :=
  (by decide +kernel : ∀ t : Fin grid0.N, _)

/-- Row `r` of window 0's block at point `t` is row `10000 t + r` of its array. -/
theorem rows0_0 (c : Dev nD) (t : Fin cfg0.N) (r : Fin 10000) (p : Fin 400000) (hp : p.val = t.val * 10000 + r.val) (q : Fin 128) :
    Gen.iblk0 V c 0 t (ix2 r q) = V c (Pipeline.arrRef spec0 0) (ix2 p q) := by
  obtain ⟨e0, e1, -, -, -, -, -, -, -, -, -, -, -, -, -, -⟩ := blocks0 t
  show V c (Pipeline.arrRef spec0 0) (((cfg0.win 0).blk t).view.emb (ix2 r q)) = V c (Pipeline.arrRef spec0 0) (ix2 p q)
  refine congrArg (V c (Pipeline.arrRef spec0 0)) ?_
  funext a; apply Fin.ext
  match a with
  | ⟨0, _⟩ => show win0_0.index t (0 : Fin 2) * 10000 + 1 * r.val = p.val; omega
  | ⟨1, _⟩ => show win0_0.index t (1 : Fin 2) * 128 + 1 * q.val = q.val; omega

/-- Row `r` of window 1's block at point `t` is row `10000 t + r` of its array. -/
theorem rows0_1 (c : Dev nD) (t : Fin cfg0.N) (r : Fin 10000) (p : Fin 400000) (hp : p.val = t.val * 10000 + r.val) (q : Fin 128) :
    Gen.iblk0 V c 1 t (ix2 r q) = V c (Pipeline.arrRef spec0 1) (ix2 p q) := by
  obtain ⟨-, -, e2, e3, -, -, -, -, -, -, -, -, -, -, -, -⟩ := blocks0 t
  show V c (Pipeline.arrRef spec0 1) (((cfg0.win 1).blk t).view.emb (ix2 r q)) = V c (Pipeline.arrRef spec0 1) (ix2 p q)
  refine congrArg (V c (Pipeline.arrRef spec0 1)) ?_
  funext a; apply Fin.ext
  match a with
  | ⟨0, _⟩ => show win0_1.index t (0 : Fin 2) * 10000 + 1 * r.val = p.val; omega
  | ⟨1, _⟩ => show win0_1.index t (1 : Fin 2) * 128 + 1 * q.val = q.val; omega

/-- Row `r` of window 2's block at point `t` is row `10000 t + r` of its array. -/
theorem rows0_2 (c : Dev nD) (t : Fin cfg0.N) (r : Fin 10000) (p : Fin 400000) (hp : p.val = t.val * 10000 + r.val) (q : Fin 16) :
    Gen.iblk0 V c 2 t (ix2 r q) = V c (Pipeline.arrRef spec0 2) (ix2 p q) := by
  obtain ⟨-, -, -, -, e4, e5, -, -, -, -, -, -, -, -, -, -⟩ := blocks0 t
  show V c (Pipeline.arrRef spec0 2) (((cfg0.win 2).blk t).view.emb (ix2 r q)) = V c (Pipeline.arrRef spec0 2) (ix2 p q)
  refine congrArg (V c (Pipeline.arrRef spec0 2)) ?_
  funext a; apply Fin.ext
  match a with
  | ⟨0, _⟩ => show win0_2.index t (0 : Fin 2) * 10000 + 1 * r.val = p.val; omega
  | ⟨1, _⟩ => show win0_2.index t (1 : Fin 2) * 16 + 1 * q.val = q.val; omega

/-- Window 3's block at every point is its whole matrix. -/
theorem whole0_3 (c : Dev nD) (t : Fin cfg0.N) (q : Fin 128) (k : Fin 128) :
    Gen.iblk0 V c 3 t (ix2 q k) = V c (Pipeline.arrRef spec0 3) (ix2 q k) := by
  obtain ⟨-, -, -, -, -, -, e6, e7, -, -, -, -, -, -, -, -⟩ := blocks0 t
  show V c (Pipeline.arrRef spec0 3) (((cfg0.win 3).blk t).view.emb (ix2 q k)) = V c (Pipeline.arrRef spec0 3) (ix2 q k)
  refine congrArg (V c (Pipeline.arrRef spec0 3)) ?_
  funext a; apply Fin.ext
  match a with
  | ⟨0, _⟩ => show win0_3.index t (0 : Fin 2) * 128 + 1 * q.val = q.val; omega
  | ⟨1, _⟩ => show win0_3.index t (1 : Fin 2) * 128 + 1 * k.val = k.val; omega

/-- Window 4's block at every point is its whole matrix. -/
theorem whole0_4 (c : Dev nD) (t : Fin cfg0.N) (q : Fin 128) (k : Fin 128) :
    Gen.iblk0 V c 4 t (ix2 q k) = V c (Pipeline.arrRef spec0 4) (ix2 q k) := by
  obtain ⟨-, -, -, -, -, -, -, -, e8, e9, -, -, -, -, -, -⟩ := blocks0 t
  show V c (Pipeline.arrRef spec0 4) (((cfg0.win 4).blk t).view.emb (ix2 q k)) = V c (Pipeline.arrRef spec0 4) (ix2 q k)
  refine congrArg (V c (Pipeline.arrRef spec0 4)) ?_
  funext a; apply Fin.ext
  match a with
  | ⟨0, _⟩ => show win0_4.index t (0 : Fin 2) * 128 + 1 * q.val = q.val; omega
  | ⟨1, _⟩ => show win0_4.index t (1 : Fin 2) * 128 + 1 * k.val = k.val; omega

/-- Window 5's block at every point is its whole matrix. -/
theorem whole0_5 (c : Dev nD) (t : Fin cfg0.N) (q : Fin 16) (k : Fin 128) :
    Gen.iblk0 V c 5 t (ix2 q k) = V c (Pipeline.arrRef spec0 5) (ix2 q k) := by
  obtain ⟨-, -, -, -, -, -, -, -, -, -, e10, e11, -, -, -, -⟩ := blocks0 t
  show V c (Pipeline.arrRef spec0 5) (((cfg0.win 5).blk t).view.emb (ix2 q k)) = V c (Pipeline.arrRef spec0 5) (ix2 q k)
  refine congrArg (V c (Pipeline.arrRef spec0 5)) ?_
  funext a; apply Fin.ext
  match a with
  | ⟨0, _⟩ => show win0_5.index t (0 : Fin 2) * 16 + 1 * q.val = q.val; omega
  | ⟨1, _⟩ => show win0_5.index t (1 : Fin 2) * 128 + 1 * k.val = k.val; omega

/-- Window 6's block at every point is its whole matrix. -/
theorem whole0_6 (c : Dev nD) (t : Fin cfg0.N) (q : Fin 128) (k : Fin 128) :
    Gen.iblk0 V c 6 t (ix2 q k) = V c (Pipeline.arrRef spec0 6) (ix2 q k) := by
  obtain ⟨-, -, -, -, -, -, -, -, -, -, -, -, e12, e13, -, -⟩ := blocks0 t
  show V c (Pipeline.arrRef spec0 6) (((cfg0.win 6).blk t).view.emb (ix2 q k)) = V c (Pipeline.arrRef spec0 6) (ix2 q k)
  refine congrArg (V c (Pipeline.arrRef spec0 6)) ?_
  funext a; apply Fin.ext
  match a with
  | ⟨0, _⟩ => show win0_6.index t (0 : Fin 2) * 128 + 1 * q.val = q.val; omega
  | ⟨1, _⟩ => show win0_6.index t (1 : Fin 2) * 128 + 1 * k.val = k.val; omega

set_option maxHeartbeats 1000000 in
/-- What point `t` writes back is block `t` of the perceptron of the operand arrays as the region finds them. -/
theorem written0 (c : Dev nD) (t : Fin cfg0.N) :
    (Gen.dat0 (F := Ideal) V c).flushed 7 t = ((cfg0.win 7).blk t).view.read (Elt Ideal)
      (Gnn.edgeStage (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 7).cut (grid0.coords t) ((Gen.dat0 V c).after 7 t) = _
  rw [Gen.after0_7]
  unfold Gen.out0_7
  rw [View.canon_unit_zero zero_offsets]
  simp only [View.ld_unit_zero (S := S10000x128) zero_offsets, View.ld_unit_zero (S := S10000x16) zero_offsets, View.ld_unit_zero (S := S128x128) zero_offsets, View.ld_unit_zero (S := S16x128) zero_offsets]
  have hN : cfg0.N = 40 := N_0
  obtain ⟨-, -, -, -, -, -, -, -, -, -, -, -, -, -, e14, e15⟩ := blocks0 t
  funext j
  show Gen.k0_pay1 (Gen.iblk0 V c 0 t) (Gen.iblk0 V c 1 t) (Gen.iblk0 V c 2 t) (Gen.iblk0 V c 3 t) (Gen.iblk0 V c 4 t) (Gen.iblk0 V c 5 t) (Gen.iblk0 V c 6 t) j
    = Gnn.edgeStage (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (((cfg0.win 7).blk t).view.emb j)
  obtain ⟨r, jj, rfl⟩ : ∃ (r : Fin 10000) (jj : Fin 128), j = ix2 r jj := ⟨j 0, j 1, eq_ix2 j⟩
  obtain ⟨p, hp⟩ : ∃ p : Fin 400000, p.val = t.val * 10000 + r.val :=
    ⟨⟨t.val * 10000 + r.val, by have := t.isLt; have := r.isLt; omega⟩, rfl⟩
  have hemb : ((cfg0.win 7).blk t).view.emb (ix2 r jj) = ix2 p jj := by
    funext a; apply Fin.ext
    match a with
    | ⟨0, _⟩ => show win0_7.index t (0 : Fin 2) * 10000 + 1 * r.val = p.val; omega
    | ⟨1, _⟩ => show win0_7.index t (1 : Fin 2) * 128 + 1 * jj.val = jj.val; omega
  rw [hemb]
  refine (congrFun (edge_payload0 (Gen.iblk0 V c 0 t) (Gen.iblk0 V c 1 t) (Gen.iblk0 V c 2 t) (Gen.iblk0 V c 3 t) (Gen.iblk0 V c 4 t) (Gen.iblk0 V c 5 t) (Gen.iblk0 V c 6 t)) (ix2 r jj)).trans ?_
  exact edgeStage_rows (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (Gen.iblk0 V c 0 t) (Gen.iblk0 V c 1 t) (Gen.iblk0 V c 2 t) (Gen.iblk0 V c 3 t) (Gen.iblk0 V c 4 t) (Gen.iblk0 V c 5 t) (Gen.iblk0 V c 6 t) p r jj
    (rows0_0 V c t r p hp) (rows0_1 V c t r p hp) (rows0_2 V c t r p hp) (whole0_3 V c t) (whole0_4 V c t) (whole0_5 V c t) (whole0_6 V c t)

/-- An index of the result array is in point `t`'s block iff each coordinate is in the block's range on its axis. -/
theorem mem_block0 (t : Fin cfg0.N) (i : S400000x128.Idx) :
    i ∈ ((cfg0.win 7).blk t).view.set ↔ ∀ a : Fin 2, win0_7.index t a * S10000x128.size a ≤ (i a).val
      ∧ (i a).val < win0_7.index t a * S10000x128.size a + S10000x128.size a := by
  show i ∈ ((View.whole main_v25).slice (win0_7.rect t)).set ↔ _
  rw [View.set_slice_whole, Rect.mem_set_unit]
  exact Iff.rfl

/-- The blocks tile the result array: row `r` is in the block of point `r / 10000`, which is written back. -/
theorem tiles0 (i : S400000x128.Idx) :
    ∃ t : Fin cfg0.N, (cfg0.win 7).flush t = true ∧ i ∈ ((cfg0.win 7).blk t).view.set := by
  have hN : cfg0.N = 40 := N_0
  have h0 : (i 0).val < 400000 := (i 0).isLt
  have h1 : (i 1).val < 128 := (i 1).isLt
  obtain ⟨t, ht⟩ : ∃ t : Fin cfg0.N, t.val = (i 0).val / 10000 := ⟨⟨(i 0).val / 10000, by rw [hN]; omega⟩, rfl⟩
  obtain ⟨-, -, -, -, -, -, -, -, -, -, -, -, -, -, e14, e15⟩ := blocks0 t
  refine ⟨t, flush0_7 t, ?_⟩
  rw [mem_block0]
  intro a
  match a with
  | ⟨0, _⟩ =>
    show win0_7.index t (0 : Fin 2) * 10000 ≤ (i 0).val ∧ (i 0).val < win0_7.index t (0 : Fin 2) * 10000 + 10000
    omega
  | ⟨1, _⟩ =>
    show win0_7.index t (1 : Fin 2) * 128 ≤ (i 1).val ∧ (i 1).val < win0_7.index t (1 : Fin 2) * 128 + 128
    omega

/-- Region 0: the result array after the region is the message perceptron of the operand arrays as the region finds them. -/
theorem region0 (c : Dev nD) : (Gen.dat0 (F := Ideal) V c).arrAt 7 cfg0.N
      = Gnn.edgeStage (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (Gen.dat0 (F := Ideal) V c).arrAt_eq_of_cover 7 _ (fun t _ => written0 V c t) tiles0

end Cert.KernelIdeal.KerValue

end
-- ==== Proof.KerRegion1.lean ====
/-
  Region 1 of the kernel's program: the node perceptron, block by block, is the node perceptron of the whole arrays.

  The region walks five blocks of 10000 rows. At block t it reads rows 10000 t … 10000 t + 9999 of the node features
  and of the summed messages, the three 128 × 128 weight matrices whole, and writes the node perceptron of those rows
  to the same rows of the output. The perceptron's row r depends only on row r of its two row-wise operands, so the
  value written at row 10000 t + r is the whole arrays' perceptron at that row; the five blocks cover all 50000 rows
  (row p lies in block p / 10000).
-/
import proofs.«156241_j4647154614414_1_alg».proof.Proof.Gen.KernelIdeal.Frame
import proofs.«156241_j4647154614414_1_alg».proof.Proof.KerPayload
import Idealize.ShloMosaic.Lib.Pipeline.Value

set_option maxRecDepth 16384

noncomputable section

open scoped BigOperators
open Idealize.ShloMosaic Idealize.ShloMosaic.ValueIdx Idealize.ShloMosaic.TcCoe Idealize.SL.Sem
open Idealize.ShloMosaic.Pipeline (Dat Cfg Window)

namespace Cert.KernelIdeal.KerValue

open Cert.KernelIdeal Cert.KernelIdeal.Gen

variable (V : (c : Dev nD) → (b : Ref sig .tc) → Buf (Elt Ideal) ((c : Thread nD τ).loc b))

/-- The printed index maps, decided over the five blocks: the two row-wise inputs move with the output's block, the
    three weight windows stay at the origin, and the output's block number is at most 4. -/
theorem node_idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 4 ∧ win1_5.index t (1 : Fin 2) = 0 :=
  (by decide +kernel : ∀ t : Fin grid1.N, _)

/-- Every one of the five row blocks is some point's. -/
theorem node_onto1 : ∀ q0 : Fin 5, ∃ t : Fin cfg1.N, win1_5.index t = ![q0.val, 0] :=
  (by decide +kernel : ∀ q0 : Fin 5, ∃ t : Fin grid1.N, win1_5.index t = ![q0.val, 0])

/-! ## The blocks the body reads, entry by entry -/

/-- Row r of the node-feature block at point t is row (block number × 10000 + r) of the node features. -/
theorem blk1_0 (c : Dev nD) (t : Fin cfg1.N) (r : Fin 10000) (q : Fin 128) (p : Fin 50000)
    (hp : p.val = win1_5.index t (0 : Fin 2) * 10000 + r.val) :
    iblk1 V c 0 t (ix2 r q) = V c (Pipeline.arrRef spec1 0) (ix2 p q) := by
  obtain ⟨e00, e01, -⟩ := node_idx1 t
  show V c (Pipeline.arrRef spec1 0) (((cfg1.win 0).blk t).view.emb (ix2 r q)) = V c (Pipeline.arrRef spec1 0) (ix2 p q)
  refine congrArg _ (funext fun a => Fin.ext ?_)
  match a with
  | ⟨0, _⟩ => show win1_0.index t (0 : Fin 2) * 10000 + 1 * r.val = p.val; omega
  | ⟨1, _⟩ => show win1_0.index t (1 : Fin 2) * 128 + 1 * q.val = q.val; omega

/-- The same for the summed-messages block. -/
theorem blk1_1 (c : Dev nD) (t : Fin cfg1.N) (r : Fin 10000) (q : Fin 128) (p : Fin 50000)
    (hp : p.val = win1_5.index t (0 : Fin 2) * 10000 + r.val) :
    iblk1 V c 1 t (ix2 r q) = V c (Pipeline.arrRef spec1 1) (ix2 p q) := by
  obtain ⟨-, -, e10, e11, -⟩ := node_idx1 t
  show V c (Pipeline.arrRef spec1 1) (((cfg1.win 1).blk t).view.emb (ix2 r q)) = V c (Pipeline.arrRef spec1 1) (ix2 p q)
  refine congrArg _ (funext fun a => Fin.ext ?_)
  match a with
  | ⟨0, _⟩ => show win1_1.index t (0 : Fin 2) * 10000 + 1 * r.val = p.val; omega
  | ⟨1, _⟩ => show win1_1.index t (1 : Fin 2) * 128 + 1 * q.val = q.val; omega

/-- A weight window's block is the whole weight matrix. -/
theorem blk1_2 (c : Dev nD) (t : Fin cfg1.N) (q k : Fin 128) :
    iblk1 V c 2 t (ix2 q k) = V c (Pipeline.arrRef spec1 2) (ix2 q k) := by
  obtain ⟨-, -, -, -, e20, e21, -⟩ := node_idx1 t
  show V c (Pipeline.arrRef spec1 2) (((cfg1.win 2).blk t).view.emb (ix2 q k)) = V c (Pipeline.arrRef spec1 2) (ix2 q k)
  refine congrArg _ (funext fun a => Fin.ext ?_)
  match a with
  | ⟨0, _⟩ => show win1_2.index t (0 : Fin 2) * 128 + 1 * q.val = q.val; omega
  | ⟨1, _⟩ => show win1_2.index t (1 : Fin 2) * 128 + 1 * k.val = k.val; omega

theorem blk1_3 (c : Dev nD) (t : Fin cfg1.N) (q k : Fin 128) :
    iblk1 V c 3 t (ix2 q k) = V c (Pipeline.arrRef spec1 3) (ix2 q k) := by
  obtain ⟨-, -, -, -, -, -, e30, e31, -⟩ := node_idx1 t
  show V c (Pipeline.arrRef spec1 3) (((cfg1.win 3).blk t).view.emb (ix2 q k)) = V c (Pipeline.arrRef spec1 3) (ix2 q k)
  refine congrArg _ (funext fun a => Fin.ext ?_)
  match a with
  | ⟨0, _⟩ => show win1_3.index t (0 : Fin 2) * 128 + 1 * q.val = q.val; omega
  | ⟨1, _⟩ => show win1_3.index t (1 : Fin 2) * 128 + 1 * k.val = k.val; omega

theorem blk1_4 (c : Dev nD) (t : Fin cfg1.N) (q k : Fin 128) :
    iblk1 V c 4 t (ix2 q k) = V c (Pipeline.arrRef spec1 4) (ix2 q k) := by
  obtain ⟨-, -, -, -, -, -, -, -, e40, e41, -⟩ := node_idx1 t
  show V c (Pipeline.arrRef spec1 4) (((cfg1.win 4).blk t).view.emb (ix2 q k)) = V c (Pipeline.arrRef spec1 4) (ix2 q k)
  refine congrArg _ (funext fun a => Fin.ext ?_)
  match a with
  | ⟨0, _⟩ => show win1_4.index t (0 : Fin 2) * 128 + 1 * q.val = q.val; omega
  | ⟨1, _⟩ => show win1_4.index t (1 : Fin 2) * 128 + 1 * k.val = k.val; omega

/-! ## From the blocks to the array -/

set_option maxHeartbeats 1000000 in
/-- What block t writes back is block t of the whole arrays' node perceptron. -/
theorem flushed1_eq (c : Dev nD) (t : Fin cfg1.N) :
    (dat1 (F := Ideal) V c).flushed 5 t = ((cfg1.win 5).blk t).view.read (Elt Ideal)
      (Gnn.nodeStage (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets]
  simp only [View.ld_unit_zero (S := S10000x128) zero_offsets, View.ld_unit_zero (S := S128x128) zero_offsets]
  rw [node_payload1]
  obtain ⟨-, -, -, -, -, -, -, -, -, -, e5le, e51⟩ := node_idx1 t
  funext j
  show Gnn.nodeStage (R := 10000) (iblk1 V c 0 t) (iblk1 V c 1 t) (iblk1 V c 2 t) (iblk1 V c 3 t) (iblk1 V c 4 t) j
    = Gnn.nodeStage (R := 50000) (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb j)
  obtain ⟨r, k, rfl⟩ : ∃ (r : Fin 10000) (k : Fin 128), j = ix2 r k := ⟨j 0, j 1, @eq_ix2 10000 128 j⟩
  have hr : r.val < 10000 := r.isLt
  have hp : win1_5.index t (0 : Fin 2) * 10000 + r.val < 50000 := by omega
  have hemb : ((cfg1.win 5).blk t).view.emb (ix2 r k)
      = ix2 (⟨win1_5.index t (0 : Fin 2) * 10000 + r.val, hp⟩ : Fin 50000) k := by
    funext a; apply Fin.ext
    match a with
    | ⟨0, _⟩ => show win1_5.index t (0 : Fin 2) * 10000 + 1 * r.val = win1_5.index t (0 : Fin 2) * 10000 + r.val; omega
    | ⟨1, _⟩ => show win1_5.index t (1 : Fin 2) * 128 + 1 * k.val = k.val; omega
  rw [hemb]
  exact nodeStage_rows (R := 50000) (B := 10000)
    (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t)
    ⟨win1_5.index t (0 : Fin 2) * 10000 + r.val, hp⟩ r k
    (fun q => blk1_0 V c t r q _ rfl) (fun q => blk1_1 V c t r q _ rfl)
    (fun q k' => blk1_2 V c t q k') (fun q k' => blk1_3 V c t q k') (fun q k' => blk1_4 V c t q k')

/-- A row of the output array lies in block t exactly when each coordinate is in the block's range. -/
theorem mem_blk1 (t : Fin cfg1.N) (i : S50000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v35).slice (win1_5.rect t)).set ↔ _
  rw [View.set_slice_whole, Rect.mem_set_unit]
  exact Iff.rfl

/-- Every entry of the output array is in some block: row p in block p / 10000. -/
theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := node_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 128 ≤ (i 1).val ∧ (i 1).val < win1_5.index t (1 : Fin 2) * 128 + 128
    omega

/-- The output array after the region is the node perceptron of the arrays the region finds. -/
theorem region1 (c : Dev nD) : (Gen.dat1 (F := Ideal) V c).arrAt 5 cfg1.N
    = Gnn.nodeStage (V c (Pipeline.arrRef spec1 0)) (V c (Pipeline.arrRef spec1 1)) (V c (Pipeline.arrRef spec1 2))
        (V c (Pipeline.arrRef spec1 3)) (V c (Pipeline.arrRef spec1 4)) :=
  (dat1 (F := Ideal) V c).arrAt_eq_of_cover 5 _ (fun t _ => flushed1_eq V c t) covered1

end Cert.KernelIdeal.KerValue

end
-- ==== Proof.KerRegion2.lean ====
/-
  Region 2 of the kernel program (the message kernel of layer 2) as one function of the arrays it finds: its result array ends holding the message perceptron `Gnn.edgeStage` of the seven operand arrays.

  Every point of the grid computes one block of 10000 rows: it reads rows `10000 t … 10000 t + 9999` of each row-wise
  operand and the whole of each weight matrix, and writes the body's result to the same rows of the result. The body on
  a block of rows is the perceptron of that block, the perceptron reads its row-wise operands only on the row it
  computes, and the blocks tile the rows (row `r` lies in block `r / 10000`): so the result array ends holding the
  perceptron of the whole operands, whatever the arrays held when the region was entered.
-/
import proofs.«156241_j4647154614414_1_alg».proof.Proof.Gen.KernelIdeal.Frame
import proofs.«156241_j4647154614414_1_alg».proof.Proof.KerPayload
import Idealize.ShloMosaic.Lib.Pipeline.Value
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.KerValue

open Cert.KernelIdeal Cert.KernelIdeal.Gen

variable (V : (c : Dev nD) → (b : Ref sig .tc) → Buf (Elt Ideal) ((c : Thread nD τ).loc b))

/-- The printed index maps over the grid: a row-wise window's block at point `t` is block `t` along the rows and the
    only block along the columns; a weight window's block is always the whole matrix. -/
theorem blocks2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- Row `r` of window 0's block at point `t` is row `10000 t + r` of its array. -/
theorem rows2_0 (c : Dev nD) (t : Fin cfg2.N) (r : Fin 10000) (p : Fin 400000) (hp : p.val = t.val * 10000 + r.val) (q : Fin 128) :
    Gen.iblk2 V c 0 t (ix2 r q) = V c (Pipeline.arrRef spec2 0) (ix2 p q) := by
  obtain ⟨e0, e1, -, -, -, -, -, -, -, -, -, -, -, -, -, -⟩ := blocks2 t
  show V c (Pipeline.arrRef spec2 0) (((cfg2.win 0).blk t).view.emb (ix2 r q)) = V c (Pipeline.arrRef spec2 0) (ix2 p q)
  refine congrArg (V c (Pipeline.arrRef spec2 0)) ?_
  funext a; apply Fin.ext
  match a with
  | ⟨0, _⟩ => show win2_0.index t (0 : Fin 2) * 10000 + 1 * r.val = p.val; omega
  | ⟨1, _⟩ => show win2_0.index t (1 : Fin 2) * 128 + 1 * q.val = q.val; omega

/-- Row `r` of window 1's block at point `t` is row `10000 t + r` of its array. -/
theorem rows2_1 (c : Dev nD) (t : Fin cfg2.N) (r : Fin 10000) (p : Fin 400000) (hp : p.val = t.val * 10000 + r.val) (q : Fin 128) :
    Gen.iblk2 V c 1 t (ix2 r q) = V c (Pipeline.arrRef spec2 1) (ix2 p q) := by
  obtain ⟨-, -, e2, e3, -, -, -, -, -, -, -, -, -, -, -, -⟩ := blocks2 t
  show V c (Pipeline.arrRef spec2 1) (((cfg2.win 1).blk t).view.emb (ix2 r q)) = V c (Pipeline.arrRef spec2 1) (ix2 p q)
  refine congrArg (V c (Pipeline.arrRef spec2 1)) ?_
  funext a; apply Fin.ext
  match a with
  | ⟨0, _⟩ => show win2_1.index t (0 : Fin 2) * 10000 + 1 * r.val = p.val; omega
  | ⟨1, _⟩ => show win2_1.index t (1 : Fin 2) * 128 + 1 * q.val = q.val; omega

/-- Row `r` of window 2's block at point `t` is row `10000 t + r` of its array. -/
theorem rows2_2 (c : Dev nD) (t : Fin cfg2.N) (r : Fin 10000) (p : Fin 400000) (hp : p.val = t.val * 10000 + r.val) (q : Fin 16) :
    Gen.iblk2 V c 2 t (ix2 r q) = V c (Pipeline.arrRef spec2 2) (ix2 p q) := by
  obtain ⟨-, -, -, -, e4, e5, -, -, -, -, -, -, -, -, -, -⟩ := blocks2 t
  show V c (Pipeline.arrRef spec2 2) (((cfg2.win 2).blk t).view.emb (ix2 r q)) = V c (Pipeline.arrRef spec2 2) (ix2 p q)
  refine congrArg (V c (Pipeline.arrRef spec2 2)) ?_
  funext a; apply Fin.ext
  match a with
  | ⟨0, _⟩ => show win2_2.index t (0 : Fin 2) * 10000 + 1 * r.val = p.val; omega
  | ⟨1, _⟩ => show win2_2.index t (1 : Fin 2) * 16 + 1 * q.val = q.val; omega

/-- Window 3's block at every point is its whole matrix. -/
theorem whole2_3 (c : Dev nD) (t : Fin cfg2.N) (q : Fin 128) (k : Fin 128) :
    Gen.iblk2 V c 3 t (ix2 q k) = V c (Pipeline.arrRef spec2 3) (ix2 q k) := by
  obtain ⟨-, -, -, -, -, -, e6, e7, -, -, -, -, -, -, -, -⟩ := blocks2 t
  show V c (Pipeline.arrRef spec2 3) (((cfg2.win 3).blk t).view.emb (ix2 q k)) = V c (Pipeline.arrRef spec2 3) (ix2 q k)
  refine congrArg (V c (Pipeline.arrRef spec2 3)) ?_
  funext a; apply Fin.ext
  match a with
  | ⟨0, _⟩ => show win2_3.index t (0 : Fin 2) * 128 + 1 * q.val = q.val; omega
  | ⟨1, _⟩ => show win2_3.index t (1 : Fin 2) * 128 + 1 * k.val = k.val; omega

/-- Window 4's block at every point is its whole matrix. -/
theorem whole2_4 (c : Dev nD) (t : Fin cfg2.N) (q : Fin 128) (k : Fin 128) :
    Gen.iblk2 V c 4 t (ix2 q k) = V c (Pipeline.arrRef spec2 4) (ix2 q k) := by
  obtain ⟨-, -, -, -, -, -, -, -, e8, e9, -, -, -, -, -, -⟩ := blocks2 t
  show V c (Pipeline.arrRef spec2 4) (((cfg2.win 4).blk t).view.emb (ix2 q k)) = V c (Pipeline.arrRef spec2 4) (ix2 q k)
  refine congrArg (V c (Pipeline.arrRef spec2 4)) ?_
  funext a; apply Fin.ext
  match a with
  | ⟨0, _⟩ => show win2_4.index t (0 : Fin 2) * 128 + 1 * q.val = q.val; omega
  | ⟨1, _⟩ => show win2_4.index t (1 : Fin 2) * 128 + 1 * k.val = k.val; omega

/-- Window 5's block at every point is its whole matrix. -/
theorem whole2_5 (c : Dev nD) (t : Fin cfg2.N) (q : Fin 16) (k : Fin 128) :
    Gen.iblk2 V c 5 t (ix2 q k) = V c (Pipeline.arrRef spec2 5) (ix2 q k) := by
  obtain ⟨-, -, -, -, -, -, -, -, -, -, e10, e11, -, -, -, -⟩ := blocks2 t
  show V c (Pipeline.arrRef spec2 5) (((cfg2.win 5).blk t).view.emb (ix2 q k)) = V c (Pipeline.arrRef spec2 5) (ix2 q k)
  refine congrArg (V c (Pipeline.arrRef spec2 5)) ?_
  funext a; apply Fin.ext
  match a with
  | ⟨0, _⟩ => show win2_5.index t (0 : Fin 2) * 16 + 1 * q.val = q.val; omega
  | ⟨1, _⟩ => show win2_5.index t (1 : Fin 2) * 128 + 1 * k.val = k.val; omega

/-- Window 6's block at every point is its whole matrix. -/
theorem whole2_6 (c : Dev nD) (t : Fin cfg2.N) (q : Fin 128) (k : Fin 128) :
    Gen.iblk2 V c 6 t (ix2 q k) = V c (Pipeline.arrRef spec2 6) (ix2 q k) := by
  obtain ⟨-, -, -, -, -, -, -, -, -, -, -, -, e12, e13, -, -⟩ := blocks2 t
  show V c (Pipeline.arrRef spec2 6) (((cfg2.win 6).blk t).view.emb (ix2 q k)) = V c (Pipeline.arrRef spec2 6) (ix2 q k)
  refine congrArg (V c (Pipeline.arrRef spec2 6)) ?_
  funext a; apply Fin.ext
  match a with
  | ⟨0, _⟩ => show win2_6.index t (0 : Fin 2) * 128 + 1 * q.val = q.val; omega
  | ⟨1, _⟩ => show win2_6.index t (1 : Fin 2) * 128 + 1 * k.val = k.val; omega

set_option maxHeartbeats 1000000 in
/-- What point `t` writes back is block `t` of the perceptron of the operand arrays as the region finds them. -/
theorem written2 (c : Dev nD) (t : Fin cfg2.N) :
    (Gen.dat2 (F := Ideal) V c).flushed 7 t = ((cfg2.win 7).blk t).view.read (Elt Ideal)
      (Gnn.edgeStage (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((Gen.dat2 V c).after 7 t) = _
  rw [Gen.after2_7]
  unfold Gen.out2_7
  rw [View.canon_unit_zero zero_offsets]
  simp only [View.ld_unit_zero (S := S10000x128) zero_offsets, View.ld_unit_zero (S := S10000x16) zero_offsets, View.ld_unit_zero (S := S128x128) zero_offsets, View.ld_unit_zero (S := S16x128) zero_offsets]
  have hN : cfg2.N = 40 := N_2
  obtain ⟨-, -, -, -, -, -, -, -, -, -, -, -, -, -, e14, e15⟩ := blocks2 t
  funext j
  show Gen.k2_pay1 (Gen.iblk2 V c 0 t) (Gen.iblk2 V c 1 t) (Gen.iblk2 V c 2 t) (Gen.iblk2 V c 3 t) (Gen.iblk2 V c 4 t) (Gen.iblk2 V c 5 t) (Gen.iblk2 V c 6 t) j
    = Gnn.edgeStage (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (((cfg2.win 7).blk t).view.emb j)
  obtain ⟨r, jj, rfl⟩ : ∃ (r : Fin 10000) (jj : Fin 128), j = ix2 r jj := ⟨j 0, j 1, eq_ix2 j⟩
  obtain ⟨p, hp⟩ : ∃ p : Fin 400000, p.val = t.val * 10000 + r.val :=
    ⟨⟨t.val * 10000 + r.val, by have := t.isLt; have := r.isLt; omega⟩, rfl⟩
  have hemb : ((cfg2.win 7).blk t).view.emb (ix2 r jj) = ix2 p jj := by
    funext a; apply Fin.ext
    match a with
    | ⟨0, _⟩ => show win2_7.index t (0 : Fin 2) * 10000 + 1 * r.val = p.val; omega
    | ⟨1, _⟩ => show win2_7.index t (1 : Fin 2) * 128 + 1 * jj.val = jj.val; omega
  rw [hemb]
  refine (congrFun (edge_payload2 (Gen.iblk2 V c 0 t) (Gen.iblk2 V c 1 t) (Gen.iblk2 V c 2 t) (Gen.iblk2 V c 3 t) (Gen.iblk2 V c 4 t) (Gen.iblk2 V c 5 t) (Gen.iblk2 V c 6 t)) (ix2 r jj)).trans ?_
  exact edgeStage_rows (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (Gen.iblk2 V c 0 t) (Gen.iblk2 V c 1 t) (Gen.iblk2 V c 2 t) (Gen.iblk2 V c 3 t) (Gen.iblk2 V c 4 t) (Gen.iblk2 V c 5 t) (Gen.iblk2 V c 6 t) p r jj
    (rows2_0 V c t r p hp) (rows2_1 V c t r p hp) (rows2_2 V c t r p hp) (whole2_3 V c t) (whole2_4 V c t) (whole2_5 V c t) (whole2_6 V c t)

/-- An index of the result array is in point `t`'s block iff each coordinate is in the block's range on its axis. -/
theorem mem_block2 (t : Fin cfg2.N) (i : S400000x128.Idx) :
    i ∈ ((cfg2.win 7).blk t).view.set ↔ ∀ a : Fin 2, win2_7.index t a * S10000x128.size a ≤ (i a).val
      ∧ (i a).val < win2_7.index t a * S10000x128.size a + S10000x128.size a := by
  show i ∈ ((View.whole main_v59).slice (win2_7.rect t)).set ↔ _
  rw [View.set_slice_whole, Rect.mem_set_unit]
  exact Iff.rfl

/-- The blocks tile the result array: row `r` is in the block of point `r / 10000`, which is written back. -/
theorem tiles2 (i : S400000x128.Idx) :
    ∃ t : Fin cfg2.N, (cfg2.win 7).flush t = true ∧ i ∈ ((cfg2.win 7).blk t).view.set := by
  have hN : cfg2.N = 40 := N_2
  have h0 : (i 0).val < 400000 := (i 0).isLt
  have h1 : (i 1).val < 128 := (i 1).isLt
  obtain ⟨t, ht⟩ : ∃ t : Fin cfg2.N, t.val = (i 0).val / 10000 := ⟨⟨(i 0).val / 10000, by rw [hN]; omega⟩, rfl⟩
  obtain ⟨-, -, -, -, -, -, -, -, -, -, -, -, -, -, e14, e15⟩ := blocks2 t
  refine ⟨t, flush2_7 t, ?_⟩
  rw [mem_block2]
  intro a
  match a with
  | ⟨0, _⟩ =>
    show win2_7.index t (0 : Fin 2) * 10000 ≤ (i 0).val ∧ (i 0).val < win2_7.index t (0 : Fin 2) * 10000 + 10000
    omega
  | ⟨1, _⟩ =>
    show win2_7.index t (1 : Fin 2) * 128 ≤ (i 1).val ∧ (i 1).val < win2_7.index t (1 : Fin 2) * 128 + 128
    omega

/-- Region 2: the result array after the region is the message perceptron of the operand arrays as the region finds them. -/
theorem region2 (c : Dev nD) : (Gen.dat2 (F := Ideal) V c).arrAt 7 cfg2.N
      = Gnn.edgeStage (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (Gen.dat2 (F := Ideal) V c).arrAt_eq_of_cover 7 _ (fun t _ => written2 V c t) tiles2

end Cert.KernelIdeal.KerValue

end
-- ==== Proof.KerRegion3.lean ====
/-
  Region 3 of the kernel's program: the node perceptron, block by block, is the node perceptron of the whole arrays.

  The region walks five blocks of 10000 rows. At block t it reads rows 10000 t … 10000 t + 9999 of the node features
  and of the summed messages, the three 128 × 128 weight matrices whole, and writes the node perceptron of those rows
  to the same rows of the output. The perceptron's row r depends only on row r of its two row-wise operands, so the
  value written at row 10000 t + r is the whole arrays' perceptron at that row; the five blocks cover all 50000 rows
  (row p lies in block p / 10000).
-/
import proofs.«156241_j4647154614414_1_alg».proof.Proof.Gen.KernelIdeal.Frame
import proofs.«156241_j4647154614414_1_alg».proof.Proof.KerPayload
import Idealize.ShloMosaic.Lib.Pipeline.Value

set_option maxRecDepth 16384

noncomputable section

open scoped BigOperators
open Idealize.ShloMosaic Idealize.ShloMosaic.ValueIdx Idealize.ShloMosaic.TcCoe Idealize.SL.Sem
open Idealize.ShloMosaic.Pipeline (Dat Cfg Window)

namespace Cert.KernelIdeal.KerValue

open Cert.KernelIdeal Cert.KernelIdeal.Gen

variable (V : (c : Dev nD) → (b : Ref sig .tc) → Buf (Elt Ideal) ((c : Thread nD τ).loc b))

/-- The printed index maps, decided over the five blocks: the two row-wise inputs move with the output's block, the
    three weight windows stay at the origin, and the output's block number is at most 4. -/
theorem node_idx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 4 ∧ win3_5.index t (1 : Fin 2) = 0 :=
  (by decide +kernel : ∀ t : Fin grid3.N, _)

/-- Every one of the five row blocks is some point's. -/
theorem node_onto3 : ∀ q0 : Fin 5, ∃ t : Fin cfg3.N, win3_5.index t = ![q0.val, 0] :=
  (by decide +kernel : ∀ q0 : Fin 5, ∃ t : Fin grid3.N, win3_5.index t = ![q0.val, 0])

/-! ## The blocks the body reads, entry by entry -/

/-- Row r of the node-feature block at point t is row (block number × 10000 + r) of the node features. -/
theorem blk3_0 (c : Dev nD) (t : Fin cfg3.N) (r : Fin 10000) (q : Fin 128) (p : Fin 50000)
    (hp : p.val = win3_5.index t (0 : Fin 2) * 10000 + r.val) :
    iblk3 V c 0 t (ix2 r q) = V c (Pipeline.arrRef spec3 0) (ix2 p q) := by
  obtain ⟨e00, e01, -⟩ := node_idx3 t
  show V c (Pipeline.arrRef spec3 0) (((cfg3.win 0).blk t).view.emb (ix2 r q)) = V c (Pipeline.arrRef spec3 0) (ix2 p q)
  refine congrArg _ (funext fun a => Fin.ext ?_)
  match a with
  | ⟨0, _⟩ => show win3_0.index t (0 : Fin 2) * 10000 + 1 * r.val = p.val; omega
  | ⟨1, _⟩ => show win3_0.index t (1 : Fin 2) * 128 + 1 * q.val = q.val; omega

/-- The same for the summed-messages block. -/
theorem blk3_1 (c : Dev nD) (t : Fin cfg3.N) (r : Fin 10000) (q : Fin 128) (p : Fin 50000)
    (hp : p.val = win3_5.index t (0 : Fin 2) * 10000 + r.val) :
    iblk3 V c 1 t (ix2 r q) = V c (Pipeline.arrRef spec3 1) (ix2 p q) := by
  obtain ⟨-, -, e10, e11, -⟩ := node_idx3 t
  show V c (Pipeline.arrRef spec3 1) (((cfg3.win 1).blk t).view.emb (ix2 r q)) = V c (Pipeline.arrRef spec3 1) (ix2 p q)
  refine congrArg _ (funext fun a => Fin.ext ?_)
  match a with
  | ⟨0, _⟩ => show win3_1.index t (0 : Fin 2) * 10000 + 1 * r.val = p.val; omega
  | ⟨1, _⟩ => show win3_1.index t (1 : Fin 2) * 128 + 1 * q.val = q.val; omega

/-- A weight window's block is the whole weight matrix. -/
theorem blk3_2 (c : Dev nD) (t : Fin cfg3.N) (q k : Fin 128) :
    iblk3 V c 2 t (ix2 q k) = V c (Pipeline.arrRef spec3 2) (ix2 q k) := by
  obtain ⟨-, -, -, -, e20, e21, -⟩ := node_idx3 t
  show V c (Pipeline.arrRef spec3 2) (((cfg3.win 2).blk t).view.emb (ix2 q k)) = V c (Pipeline.arrRef spec3 2) (ix2 q k)
  refine congrArg _ (funext fun a => Fin.ext ?_)
  match a with
  | ⟨0, _⟩ => show win3_2.index t (0 : Fin 2) * 128 + 1 * q.val = q.val; omega
  | ⟨1, _⟩ => show win3_2.index t (1 : Fin 2) * 128 + 1 * k.val = k.val; omega

theorem blk3_3 (c : Dev nD) (t : Fin cfg3.N) (q k : Fin 128) :
    iblk3 V c 3 t (ix2 q k) = V c (Pipeline.arrRef spec3 3) (ix2 q k) := by
  obtain ⟨-, -, -, -, -, -, e30, e31, -⟩ := node_idx3 t
  show V c (Pipeline.arrRef spec3 3) (((cfg3.win 3).blk t).view.emb (ix2 q k)) = V c (Pipeline.arrRef spec3 3) (ix2 q k)
  refine congrArg _ (funext fun a => Fin.ext ?_)
  match a with
  | ⟨0, _⟩ => show win3_3.index t (0 : Fin 2) * 128 + 1 * q.val = q.val; omega
  | ⟨1, _⟩ => show win3_3.index t (1 : Fin 2) * 128 + 1 * k.val = k.val; omega

theorem blk3_4 (c : Dev nD) (t : Fin cfg3.N) (q k : Fin 128) :
    iblk3 V c 4 t (ix2 q k) = V c (Pipeline.arrRef spec3 4) (ix2 q k) := by
  obtain ⟨-, -, -, -, -, -, -, -, e40, e41, -⟩ := node_idx3 t
  show V c (Pipeline.arrRef spec3 4) (((cfg3.win 4).blk t).view.emb (ix2 q k)) = V c (Pipeline.arrRef spec3 4) (ix2 q k)
  refine congrArg _ (funext fun a => Fin.ext ?_)
  match a with
  | ⟨0, _⟩ => show win3_4.index t (0 : Fin 2) * 128 + 1 * q.val = q.val; omega
  | ⟨1, _⟩ => show win3_4.index t (1 : Fin 2) * 128 + 1 * k.val = k.val; omega

/-! ## From the blocks to the array -/

set_option maxHeartbeats 1000000 in
/-- What block t writes back is block t of the whole arrays' node perceptron. -/
theorem flushed3_eq (c : Dev nD) (t : Fin cfg3.N) :
    (dat3 (F := Ideal) V c).flushed 5 t = ((cfg3.win 5).blk t).view.read (Elt Ideal)
      (Gnn.nodeStage (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero zero_offsets]
  simp only [View.ld_unit_zero (S := S10000x128) zero_offsets, View.ld_unit_zero (S := S128x128) zero_offsets]
  rw [node_payload3]
  obtain ⟨-, -, -, -, -, -, -, -, -, -, e5le, e51⟩ := node_idx3 t
  funext j
  show Gnn.nodeStage (R := 10000) (iblk3 V c 0 t) (iblk3 V c 1 t) (iblk3 V c 2 t) (iblk3 V c 3 t) (iblk3 V c 4 t) j
    = Gnn.nodeStage (R := 50000) (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb j)
  obtain ⟨r, k, rfl⟩ : ∃ (r : Fin 10000) (k : Fin 128), j = ix2 r k := ⟨j 0, j 1, @eq_ix2 10000 128 j⟩
  have hr : r.val < 10000 := r.isLt
  have hp : win3_5.index t (0 : Fin 2) * 10000 + r.val < 50000 := by omega
  have hemb : ((cfg3.win 5).blk t).view.emb (ix2 r k)
      = ix2 (⟨win3_5.index t (0 : Fin 2) * 10000 + r.val, hp⟩ : Fin 50000) k := by
    funext a; apply Fin.ext
    match a with
    | ⟨0, _⟩ => show win3_5.index t (0 : Fin 2) * 10000 + 1 * r.val = win3_5.index t (0 : Fin 2) * 10000 + r.val; omega
    | ⟨1, _⟩ => show win3_5.index t (1 : Fin 2) * 128 + 1 * k.val = k.val; omega
  rw [hemb]
  exact nodeStage_rows (R := 50000) (B := 10000)
    (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 1 t) (iblk3 V c 2 t) (iblk3 V c 3 t) (iblk3 V c 4 t)
    ⟨win3_5.index t (0 : Fin 2) * 10000 + r.val, hp⟩ r k
    (fun q => blk3_0 V c t r q _ rfl) (fun q => blk3_1 V c t r q _ rfl)
    (fun q k' => blk3_2 V c t q k') (fun q k' => blk3_3 V c t q k') (fun q k' => blk3_4 V c t q k')

/-- A row of the output array lies in block t exactly when each coordinate is in the block's range. -/
theorem mem_blk3 (t : Fin cfg3.N) (i : S50000x128.Idx) :
    i ∈ ((cfg3.win 5).blk t).view.set ↔ ∀ a : Fin 2, win3_5.index t a * S10000x128.size a ≤ (i a).val
      ∧ (i a).val < win3_5.index t a * S10000x128.size a + S10000x128.size a := by
  show i ∈ ((View.whole main_v69).slice (win3_5.rect t)).set ↔ _
  rw [View.set_slice_whole, Rect.mem_set_unit]
  exact Iff.rfl

/-- Every entry of the output array is in some block: row p in block p / 10000. -/
theorem covered3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := node_onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3]
  intro a
  match a with
  | ⟨0, _⟩ =>
    show win3_5.index t (0 : Fin 2) * 10000 ≤ (i 0).val ∧ (i 0).val < win3_5.index t (0 : Fin 2) * 10000 + 10000
    omega
  | ⟨1, _⟩ =>
    show win3_5.index t (1 : Fin 2) * 128 ≤ (i 1).val ∧ (i 1).val < win3_5.index t (1 : Fin 2) * 128 + 128
    omega

/-- The output array after the region is the node perceptron of the arrays the region finds. -/
theorem region3 (c : Dev nD) : (Gen.dat3 (F := Ideal) V c).arrAt 5 cfg3.N
    = Gnn.nodeStage (V c (Pipeline.arrRef spec3 0)) (V c (Pipeline.arrRef spec3 1)) (V c (Pipeline.arrRef spec3 2))
        (V c (Pipeline.arrRef spec3 3)) (V c (Pipeline.arrRef spec3 4)) :=
  (dat3 (F := Ideal) V c).arrAt_eq_of_cover 5 _ (fun t _ => flushed3_eq V c t) covered3

end Cert.KernelIdeal.KerValue

end
-- ==== Proof.KerRegion4.lean ====
/-
  Region 4 of the kernel program (the message kernel of layer 3) as one function of the arrays it finds: its result array ends holding the message perceptron `Gnn.edgeStage` of the seven operand arrays.

  Every point of the grid computes one block of 10000 rows: it reads rows `10000 t … 10000 t + 9999` of each row-wise
  operand and the whole of each weight matrix, and writes the body's result to the same rows of the result. The body on
  a block of rows is the perceptron of that block, the perceptron reads its row-wise operands only on the row it
  computes, and the blocks tile the rows (row `r` lies in block `r / 10000`): so the result array ends holding the
  perceptron of the whole operands, whatever the arrays held when the region was entered.
-/
import proofs.«156241_j4647154614414_1_alg».proof.Proof.Gen.KernelIdeal.Frame
import proofs.«156241_j4647154614414_1_alg».proof.Proof.KerPayload
import Idealize.ShloMosaic.Lib.Pipeline.Value
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.KernelIdeal.KerValue

open Cert.KernelIdeal Cert.KernelIdeal.Gen

variable (V : (c : Dev nD) → (b : Ref sig .tc) → Buf (Elt Ideal) ((c : Thread nD τ).loc b))

/-- The printed index maps over the grid: a row-wise window's block at point `t` is block `t` along the rows and the
    only block along the columns; a weight window's block is always the whole matrix. -/
theorem blocks4 : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = t.val
    ∧ win4_7.index t (1 : Fin 2) = 0 :=
  (by decide +kernel : ∀ t : Fin grid4.N, _)

/-- Row `r` of window 0's block at point `t` is row `10000 t + r` of its array. -/
theorem rows4_0 (c : Dev nD) (t : Fin cfg4.N) (r : Fin 10000) (p : Fin 400000) (hp : p.val = t.val * 10000 + r.val) (q : Fin 128) :
    Gen.iblk4 V c 0 t (ix2 r q) = V c (Pipeline.arrRef spec4 0) (ix2 p q) := by
  obtain ⟨e0, e1, -, -, -, -, -, -, -, -, -, -, -, -, -, -⟩ := blocks4 t
  show V c (Pipeline.arrRef spec4 0) (((cfg4.win 0).blk t).view.emb (ix2 r q)) = V c (Pipeline.arrRef spec4 0) (ix2 p q)
  refine congrArg (V c (Pipeline.arrRef spec4 0)) ?_
  funext a; apply Fin.ext
  match a with
  | ⟨0, _⟩ => show win4_0.index t (0 : Fin 2) * 10000 + 1 * r.val = p.val; omega
  | ⟨1, _⟩ => show win4_0.index t (1 : Fin 2) * 128 + 1 * q.val = q.val; omega

/-- Row `r` of window 1's block at point `t` is row `10000 t + r` of its array. -/
theorem rows4_1 (c : Dev nD) (t : Fin cfg4.N) (r : Fin 10000) (p : Fin 400000) (hp : p.val = t.val * 10000 + r.val) (q : Fin 128) :
    Gen.iblk4 V c 1 t (ix2 r q) = V c (Pipeline.arrRef spec4 1) (ix2 p q) := by
  obtain ⟨-, -, e2, e3, -, -, -, -, -, -, -, -, -, -, -, -⟩ := blocks4 t
  show V c (Pipeline.arrRef spec4 1) (((cfg4.win 1).blk t).view.emb (ix2 r q)) = V c (Pipeline.arrRef spec4 1) (ix2 p q)
  refine congrArg (V c (Pipeline.arrRef spec4 1)) ?_
  funext a; apply Fin.ext
  match a with
  | ⟨0, _⟩ => show win4_1.index t (0 : Fin 2) * 10000 + 1 * r.val = p.val; omega
  | ⟨1, _⟩ => show win4_1.index t (1 : Fin 2) * 128 + 1 * q.val = q.val; omega

/-- Row `r` of window 2's block at point `t` is row `10000 t + r` of its array. -/
theorem rows4_2 (c : Dev nD) (t : Fin cfg4.N) (r : Fin 10000) (p : Fin 400000) (hp : p.val = t.val * 10000 + r.val) (q : Fin 16) :
    Gen.iblk4 V c 2 t (ix2 r q) = V c (Pipeline.arrRef spec4 2) (ix2 p q) := by
  obtain ⟨-, -, -, -, e4, e5, -, -, -, -, -, -, -, -, -, -⟩ := blocks4 t
  show V c (Pipeline.arrRef spec4 2) (((cfg4.win 2).blk t).view.emb (ix2 r q)) = V c (Pipeline.arrRef spec4 2) (ix2 p q)
  refine congrArg (V c (Pipeline.arrRef spec4 2)) ?_
  funext a; apply Fin.ext
  match a with
  | ⟨0, _⟩ => show win4_2.index t (0 : Fin 2) * 10000 + 1 * r.val = p.val; omega
  | ⟨1, _⟩ => show win4_2.index t (1 : Fin 2) * 16 + 1 * q.val = q.val; omega

/-- Window 3's block at every point is its whole matrix. -/
theorem whole4_3 (c : Dev nD) (t : Fin cfg4.N) (q : Fin 128) (k : Fin 128) :
    Gen.iblk4 V c 3 t (ix2 q k) = V c (Pipeline.arrRef spec4 3) (ix2 q k) := by
  obtain ⟨-, -, -, -, -, -, e6, e7, -, -, -, -, -, -, -, -⟩ := blocks4 t
  show V c (Pipeline.arrRef spec4 3) (((cfg4.win 3).blk t).view.emb (ix2 q k)) = V c (Pipeline.arrRef spec4 3) (ix2 q k)
  refine congrArg (V c (Pipeline.arrRef spec4 3)) ?_
  funext a; apply Fin.ext
  match a with
  | ⟨0, _⟩ => show win4_3.index t (0 : Fin 2) * 128 + 1 * q.val = q.val; omega
  | ⟨1, _⟩ => show win4_3.index t (1 : Fin 2) * 128 + 1 * k.val = k.val; omega

/-- Window 4's block at every point is its whole matrix. -/
theorem whole4_4 (c : Dev nD) (t : Fin cfg4.N) (q : Fin 128) (k : Fin 128) :
    Gen.iblk4 V c 4 t (ix2 q k) = V c (Pipeline.arrRef spec4 4) (ix2 q k) := by
  obtain ⟨-, -, -, -, -, -, -, -, e8, e9, -, -, -, -, -, -⟩ := blocks4 t
  show V c (Pipeline.arrRef spec4 4) (((cfg4.win 4).blk t).view.emb (ix2 q k)) = V c (Pipeline.arrRef spec4 4) (ix2 q k)
  refine congrArg (V c (Pipeline.arrRef spec4 4)) ?_
  funext a; apply Fin.ext
  match a with
  | ⟨0, _⟩ => show win4_4.index t (0 : Fin 2) * 128 + 1 * q.val = q.val; omega
  | ⟨1, _⟩ => show win4_4.index t (1 : Fin 2) * 128 + 1 * k.val = k.val; omega

/-- Window 5's block at every point is its whole matrix. -/
theorem whole4_5 (c : Dev nD) (t : Fin cfg4.N) (q : Fin 16) (k : Fin 128) :
    Gen.iblk4 V c 5 t (ix2 q k) = V c (Pipeline.arrRef spec4 5) (ix2 q k) := by
  obtain ⟨-, -, -, -, -, -, -, -, -, -, e10, e11, -, -, -, -⟩ := blocks4 t
  show V c (Pipeline.arrRef spec4 5) (((cfg4.win 5).blk t).view.emb (ix2 q k)) = V c (Pipeline.arrRef spec4 5) (ix2 q k)
  refine congrArg (V c (Pipeline.arrRef spec4 5)) ?_
  funext a; apply Fin.ext
  match a with
  | ⟨0, _⟩ => show win4_5.index t (0 : Fin 2) * 16 + 1 * q.val = q.val; omega
  | ⟨1, _⟩ => show win4_5.index t (1 : Fin 2) * 128 + 1 * k.val = k.val; omega

/-- Window 6's block at every point is its whole matrix. -/
theorem whole4_6 (c : Dev nD) (t : Fin cfg4.N) (q : Fin 128) (k : Fin 128) :
    Gen.iblk4 V c 6 t (ix2 q k) = V c (Pipeline.arrRef spec4 6) (ix2 q k) := by
  obtain ⟨-, -, -, -, -, -, -, -, -, -, -, -, e12, e13, -, -⟩ := blocks4 t
  show V c (Pipeline.arrRef spec4 6) (((cfg4.win 6).blk t).view.emb (ix2 q k)) = V c (Pipeline.arrRef spec4 6) (ix2 q k)
  refine congrArg (V c (Pipeline.arrRef spec4 6)) ?_
  funext a; apply Fin.ext
  match a with
  | ⟨0, _⟩ => show win4_6.index t (0 : Fin 2) * 128 + 1 * q.val = q.val; omega
  | ⟨1, _⟩ => show win4_6.index t (1 : Fin 2) * 128 + 1 * k.val = k.val; omega

set_option maxHeartbeats 1000000 in
/-- What point `t` writes back is block `t` of the perceptron of the operand arrays as the region finds them. -/
theorem written4 (c : Dev nD) (t : Fin cfg4.N) :
    (Gen.dat4 (F := Ideal) V c).flushed 7 t = ((cfg4.win 7).blk t).view.read (Elt Ideal)
      (Gnn.edgeStage (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((Gen.dat4 V c).after 7 t) = _
  rw [Gen.after4_7]
  unfold Gen.out4_7
  rw [View.canon_unit_zero zero_offsets]
  simp only [View.ld_unit_zero (S := S10000x128) zero_offsets, View.ld_unit_zero (S := S10000x16) zero_offsets, View.ld_unit_zero (S := S128x128) zero_offsets, View.ld_unit_zero (S := S16x128) zero_offsets]
  have hN : cfg4.N = 40 := N_4
  obtain ⟨-, -, -, -, -, -, -, -, -, -, -, -, -, -, e14, e15⟩ := blocks4 t
  funext j
  show Gen.k4_pay1 (Gen.iblk4 V c 0 t) (Gen.iblk4 V c 1 t) (Gen.iblk4 V c 2 t) (Gen.iblk4 V c 3 t) (Gen.iblk4 V c 4 t) (Gen.iblk4 V c 5 t) (Gen.iblk4 V c 6 t) j
    = Gnn.edgeStage (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (((cfg4.win 7).blk t).view.emb j)
  obtain ⟨r, jj, rfl⟩ : ∃ (r : Fin 10000) (jj : Fin 128), j = ix2 r jj := ⟨j 0, j 1, eq_ix2 j⟩
  obtain ⟨p, hp⟩ : ∃ p : Fin 400000, p.val = t.val * 10000 + r.val :=
    ⟨⟨t.val * 10000 + r.val, by have := t.isLt; have := r.isLt; omega⟩, rfl⟩
  have hemb : ((cfg4.win 7).blk t).view.emb (ix2 r jj) = ix2 p jj := by
    funext a; apply Fin.ext
    match a with
    | ⟨0, _⟩ => show win4_7.index t (0 : Fin 2) * 10000 + 1 * r.val = p.val; omega
    | ⟨1, _⟩ => show win4_7.index t (1 : Fin 2) * 128 + 1 * jj.val = jj.val; omega
  rw [hemb]
  refine (congrFun (edge_payload4 (Gen.iblk4 V c 0 t) (Gen.iblk4 V c 1 t) (Gen.iblk4 V c 2 t) (Gen.iblk4 V c 3 t) (Gen.iblk4 V c 4 t) (Gen.iblk4 V c 5 t) (Gen.iblk4 V c 6 t)) (ix2 r jj)).trans ?_
  exact edgeStage_rows (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (Gen.iblk4 V c 0 t) (Gen.iblk4 V c 1 t) (Gen.iblk4 V c 2 t) (Gen.iblk4 V c 3 t) (Gen.iblk4 V c 4 t) (Gen.iblk4 V c 5 t) (Gen.iblk4 V c 6 t) p r jj
    (rows4_0 V c t r p hp) (rows4_1 V c t r p hp) (rows4_2 V c t r p hp) (whole4_3 V c t) (whole4_4 V c t) (whole4_5 V c t) (whole4_6 V c t)

/-- An index of the result array is in point `t`'s block iff each coordinate is in the block's range on its axis. -/
theorem mem_block4 (t : Fin cfg4.N) (i : S400000x128.Idx) :
    i ∈ ((cfg4.win 7).blk t).view.set ↔ ∀ a : Fin 2, win4_7.index t a * S10000x128.size a ≤ (i a).val
      ∧ (i a).val < win4_7.index t a * S10000x128.size a + S10000x128.size a := by
  show i ∈ ((View.whole main_v93).slice (win4_7.rect t)).set ↔ _
  rw [View.set_slice_whole, Rect.mem_set_unit]
  exact Iff.rfl

/-- The blocks tile the result array: row `r` is in the block of point `r / 10000`, which is written back. -/
theorem tiles4 (i : S400000x128.Idx) :
    ∃ t : Fin cfg4.N, (cfg4.win 7).flush t = true ∧ i ∈ ((cfg4.win 7).blk t).view.set := by
  have hN : cfg4.N = 40 := N_4
  have h0 : (i 0).val < 400000 := (i 0).isLt
  have h1 : (i 1).val < 128 := (i 1).isLt
  obtain ⟨t, ht⟩ : ∃ t : Fin cfg4.N, t.val = (i 0).val / 10000 := ⟨⟨(i 0).val / 10000, by rw [hN]; omega⟩, rfl⟩
  obtain ⟨-, -, -, -, -, -, -, -, -, -, -, -, -, -, e14, e15⟩ := blocks4 t
  refine ⟨t, flush4_7 t, ?_⟩
  rw [mem_block4]
  intro a
  match a with
  | ⟨0, _⟩ =>
    show win4_7.index t (0 : Fin 2) * 10000 ≤ (i 0).val ∧ (i 0).val < win4_7.index t (0 : Fin 2) * 10000 + 10000
    omega
  | ⟨1, _⟩ =>
    show win4_7.index t (1 : Fin 2) * 128 ≤ (i 1).val ∧ (i 1).val < win4_7.index t (1 : Fin 2) * 128 + 128
    omega

/-- Region 4: the result array after the region is the message perceptron of the operand arrays as the region finds them. -/
theorem region4 (c : Dev nD) : (Gen.dat4 (F := Ideal) V c).arrAt 7 cfg4.N
      = Gnn.edgeStage (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (Gen.dat4 (F := Ideal) V c).arrAt_eq_of_cover 7 _ (fun t _ => written4 V c t) tiles4

end Cert.KernelIdeal.KerValue

end
-- ==== Proof.KerRegion5.lean ====
/-
  Region 5 of the kernel's program: the node perceptron, block by block, is the node perceptron of the whole arrays.

  The region walks five blocks of 10000 rows. At block t it reads rows 10000 t … 10000 t + 9999 of the node features
  and of the summed messages, the three 128 × 128 weight matrices whole, and writes the node perceptron of those rows
  to the same rows of the output. The perceptron's row r depends only on row r of its two row-wise operands, so the
  value written at row 10000 t + r is the whole arrays' perceptron at that row; the five blocks cover all 50000 rows
  (row p lies in block p / 10000).
-/
import proofs.«156241_j4647154614414_1_alg».proof.Proof.Gen.KernelIdeal.Frame
import proofs.«156241_j4647154614414_1_alg».proof.Proof.KerPayload
import Idealize.ShloMosaic.Lib.Pipeline.Value

set_option maxRecDepth 16384

noncomputable section

open scoped BigOperators
open Idealize.ShloMosaic Idealize.ShloMosaic.ValueIdx Idealize.ShloMosaic.TcCoe Idealize.SL.Sem
open Idealize.ShloMosaic.Pipeline (Dat Cfg Window)

namespace Cert.KernelIdeal.KerValue

open Cert.KernelIdeal Cert.KernelIdeal.Gen

variable (V : (c : Dev nD) → (b : Ref sig .tc) → Buf (Elt Ideal) ((c : Thread nD τ).loc b))

/-- The printed index maps, decided over the five blocks: the two row-wise inputs move with the output's block, the
    three weight windows stay at the origin, and the output's block number is at most 4. -/
theorem node_idx5 : ∀ t : Fin cfg5.N,
    win5_0.index t (0 : Fin 2) = win5_5.index t (0 : Fin 2) ∧ win5_0.index t (1 : Fin 2) = 0
    ∧ win5_1.index t (0 : Fin 2) = win5_5.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 4 ∧ win5_5.index t (1 : Fin 2) = 0 :=
  (by decide +kernel : ∀ t : Fin grid5.N, _)

/-- Every one of the five row blocks is some point's. -/
theorem node_onto5 : ∀ q0 : Fin 5, ∃ t : Fin cfg5.N, win5_5.index t = ![q0.val, 0] :=
  (by decide +kernel : ∀ q0 : Fin 5, ∃ t : Fin grid5.N, win5_5.index t = ![q0.val, 0])

/-! ## The blocks the body reads, entry by entry -/

/-- Row r of the node-feature block at point t is row (block number × 10000 + r) of the node features. -/
theorem blk5_0 (c : Dev nD) (t : Fin cfg5.N) (r : Fin 10000) (q : Fin 128) (p : Fin 50000)
    (hp : p.val = win5_5.index t (0 : Fin 2) * 10000 + r.val) :
    iblk5 V c 0 t (ix2 r q) = V c (Pipeline.arrRef spec5 0) (ix2 p q) := by
  obtain ⟨e00, e01, -⟩ := node_idx5 t
  show V c (Pipeline.arrRef spec5 0) (((cfg5.win 0).blk t).view.emb (ix2 r q)) = V c (Pipeline.arrRef spec5 0) (ix2 p q)
  refine congrArg _ (funext fun a => Fin.ext ?_)
  match a with
  | ⟨0, _⟩ => show win5_0.index t (0 : Fin 2) * 10000 + 1 * r.val = p.val; omega
  | ⟨1, _⟩ => show win5_0.index t (1 : Fin 2) * 128 + 1 * q.val = q.val; omega

/-- The same for the summed-messages block. -/
theorem blk5_1 (c : Dev nD) (t : Fin cfg5.N) (r : Fin 10000) (q : Fin 128) (p : Fin 50000)
    (hp : p.val = win5_5.index t (0 : Fin 2) * 10000 + r.val) :
    iblk5 V c 1 t (ix2 r q) = V c (Pipeline.arrRef spec5 1) (ix2 p q) := by
  obtain ⟨-, -, e10, e11, -⟩ := node_idx5 t
  show V c (Pipeline.arrRef spec5 1) (((cfg5.win 1).blk t).view.emb (ix2 r q)) = V c (Pipeline.arrRef spec5 1) (ix2 p q)
  refine congrArg _ (funext fun a => Fin.ext ?_)
  match a with
  | ⟨0, _⟩ => show win5_1.index t (0 : Fin 2) * 10000 + 1 * r.val = p.val; omega
  | ⟨1, _⟩ => show win5_1.index t (1 : Fin 2) * 128 + 1 * q.val = q.val; omega

/-- A weight window's block is the whole weight matrix. -/
theorem blk5_2 (c : Dev nD) (t : Fin cfg5.N) (q k : Fin 128) :
    iblk5 V c 2 t (ix2 q k) = V c (Pipeline.arrRef spec5 2) (ix2 q k) := by
  obtain ⟨-, -, -, -, e20, e21, -⟩ := node_idx5 t
  show V c (Pipeline.arrRef spec5 2) (((cfg5.win 2).blk t).view.emb (ix2 q k)) = V c (Pipeline.arrRef spec5 2) (ix2 q k)
  refine congrArg _ (funext fun a => Fin.ext ?_)
  match a with
  | ⟨0, _⟩ => show win5_2.index t (0 : Fin 2) * 128 + 1 * q.val = q.val; omega
  | ⟨1, _⟩ => show win5_2.index t (1 : Fin 2) * 128 + 1 * k.val = k.val; omega

theorem blk5_3 (c : Dev nD) (t : Fin cfg5.N) (q k : Fin 128) :
    iblk5 V c 3 t (ix2 q k) = V c (Pipeline.arrRef spec5 3) (ix2 q k) := by
  obtain ⟨-, -, -, -, -, -, e30, e31, -⟩ := node_idx5 t
  show V c (Pipeline.arrRef spec5 3) (((cfg5.win 3).blk t).view.emb (ix2 q k)) = V c (Pipeline.arrRef spec5 3) (ix2 q k)
  refine congrArg _ (funext fun a => Fin.ext ?_)
  match a with
  | ⟨0, _⟩ => show win5_3.index t (0 : Fin 2) * 128 + 1 * q.val = q.val; omega
  | ⟨1, _⟩ => show win5_3.index t (1 : Fin 2) * 128 + 1 * k.val = k.val; omega

theorem blk5_4 (c : Dev nD) (t : Fin cfg5.N) (q k : Fin 128) :
    iblk5 V c 4 t (ix2 q k) = V c (Pipeline.arrRef spec5 4) (ix2 q k) := by
  obtain ⟨-, -, -, -, -, -, -, -, e40, e41, -⟩ := node_idx5 t
  show V c (Pipeline.arrRef spec5 4) (((cfg5.win 4).blk t).view.emb (ix2 q k)) = V c (Pipeline.arrRef spec5 4) (ix2 q k)
  refine congrArg _ (funext fun a => Fin.ext ?_)
  match a with
  | ⟨0, _⟩ => show win5_4.index t (0 : Fin 2) * 128 + 1 * q.val = q.val; omega
  | ⟨1, _⟩ => show win5_4.index t (1 : Fin 2) * 128 + 1 * k.val = k.val; omega

/-! ## From the blocks to the array -/

set_option maxHeartbeats 1000000 in
/-- What block t writes back is block t of the whole arrays' node perceptron. -/
theorem flushed5_eq (c : Dev nD) (t : Fin cfg5.N) :
    (dat5 (F := Ideal) V c).flushed 5 t = ((cfg5.win 5).blk t).view.read (Elt Ideal)
      (Gnn.nodeStage (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero zero_offsets]
  simp only [View.ld_unit_zero (S := S10000x128) zero_offsets, View.ld_unit_zero (S := S128x128) zero_offsets]
  rw [node_payload5]
  obtain ⟨-, -, -, -, -, -, -, -, -, -, e5le, e51⟩ := node_idx5 t
  funext j
  show Gnn.nodeStage (R := 10000) (iblk5 V c 0 t) (iblk5 V c 1 t) (iblk5 V c 2 t) (iblk5 V c 3 t) (iblk5 V c 4 t) j
    = Gnn.nodeStage (R := 50000) (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb j)
  obtain ⟨r, k, rfl⟩ : ∃ (r : Fin 10000) (k : Fin 128), j = ix2 r k := ⟨j 0, j 1, @eq_ix2 10000 128 j⟩
  have hr : r.val < 10000 := r.isLt
  have hp : win5_5.index t (0 : Fin 2) * 10000 + r.val < 50000 := by omega
  have hemb : ((cfg5.win 5).blk t).view.emb (ix2 r k)
      = ix2 (⟨win5_5.index t (0 : Fin 2) * 10000 + r.val, hp⟩ : Fin 50000) k := by
    funext a; apply Fin.ext
    match a with
    | ⟨0, _⟩ => show win5_5.index t (0 : Fin 2) * 10000 + 1 * r.val = win5_5.index t (0 : Fin 2) * 10000 + r.val; omega
    | ⟨1, _⟩ => show win5_5.index t (1 : Fin 2) * 128 + 1 * k.val = k.val; omega
  rw [hemb]
  exact nodeStage_rows (R := 50000) (B := 10000)
    (V c (Pipeline.arrRef spec5 0)) (V c (Pipeline.arrRef spec5 1)) (V c (Pipeline.arrRef spec5 2))
    (V c (Pipeline.arrRef spec5 3)) (V c (Pipeline.arrRef spec5 4))
    (iblk5 V c 0 t) (iblk5 V c 1 t) (iblk5 V c 2 t) (iblk5 V c 3 t) (iblk5 V c 4 t)
    ⟨win5_5.index t (0 : Fin 2) * 10000 + r.val, hp⟩ r k
    (fun q => blk5_0 V c t r q _ rfl) (fun q => blk5_1 V c t r q _ rfl)
    (fun q k' => blk5_2 V c t q k') (fun q k' => blk5_3 V c t q k') (fun q k' => blk5_4 V c t q k')

/-- A row of the output array lies in block t exactly when each coordinate is in the block's range. -/
theorem mem_blk5 (t : Fin cfg5.N) (i : S50000x128.Idx) :
    i ∈ ((cfg5.win 5).blk t).view.set ↔ ∀ a : Fin 2, win5_5.index t a * S10000x128.size a ≤ (i a).val
      ∧ (i a).val < win5_5.index t a * S10000x128.size a + S10000x128.size a := by
  show i ∈ ((View.whole main_v103).slice (win5_5.rect t)).set ↔ _
  rw [View.set_slice_whole, Rect.mem_set_unit]
  exact Iff.rfl

/-- Every entry of the output array is in some block: row p in block p / 10000. -/
theorem covered5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  obtain ⟨t, ht⟩ := node_onto5 ⟨(i 0).val / 10000, by omega⟩
  have q0 : win5_5.index t (0 : Fin 2) = (i 0).val / 10000 := congrFun ht 0
  have q1 : win5_5.index t (1 : Fin 2) = 0 := congrFun ht 1
  refine ⟨t, flush5_5 t, ?_⟩
  rw [mem_blk5]
  intro a
  match a with
  | ⟨0, _⟩ =>
    show win5_5.index t (0 : Fin 2) * 10000 ≤ (i 0).val ∧ (i 0).val < win5_5.index t (0 : Fin 2) * 10000 + 10000
    omega
  | ⟨1, _⟩ =>
    show win5_5.index t (1 : Fin 2) * 128 ≤ (i 1).val ∧ (i 1).val < win5_5.index t (1 : Fin 2) * 128 + 128
    omega

/-- The output array after the region is the node perceptron of the arrays the region finds. -/
theorem region5 (c : Dev nD) : (Gen.dat5 (F := Ideal) V c).arrAt 5 cfg5.N
    = Gnn.nodeStage (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5 _ (fun t _ => flushed5_eq V c t) covered5

end Cert.KernelIdeal.KerValue

end
-- ==== Proof.RefDefs.lean ====
/-
  The reference's three layers as pure functions of arrays: the literal composition of its host operations, in the
  order and spelling the program prints them, nothing simplified. One layer gathers the source and destination rows
  of every message, joins them with the edge features, multiplies by the 272-row weight matrix, applies the leaky
  rectifier, multiplies by the second weight matrix, sums the messages per destination row into a zero array, joins
  the node features with those sums, and applies the node perceptron in the same way. The network is three layers
  with the residual sum after the first two.
-/
import proofs.«156241_j4647154614414_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The leaky rectifier's operations on a 400000-row array: compare with the zero array, multiply by the slope
    array, select. -/
def lrelu400 (x : (⟨S400000x128, .f32⟩ : BufTy).Contents (Elt F)) : (⟨S400000x128, .f32⟩ : BufTy).Contents (Elt F) :=
  select (cmpf .oge x (broadcastInDim S400000x128 ![] bcast_S_S400000x128 (constant (F := F) S_ .f32 0x00000000#32)))
    x (mulf (broadcastInDim S400000x128 ![] bcast_S_S400000x128 (constant (F := F) S_ .f32 0x3C23D70A#32)) x)

/-- The same on a 50000-row array. -/
def lrelu50 (x : (⟨S50000x128, .f32⟩ : BufTy).Contents (Elt F)) : (⟨S50000x128, .f32⟩ : BufTy).Contents (Elt F) :=
  select (cmpf .oge x (broadcastInDim S50000x128 ![] bcast_S_S50000x128 (constant (F := F) S_ .f32 0x00000000#32)))
    x (mulf (broadcastInDim S50000x128 ![] bcast_S_S50000x128 (constant (F := F) S_ .f32 0x3C23D70A#32)) x)

/-- The message stage: the three inputs joined along the feature axis, times the 272-row matrix, rectified, times
    the second matrix. -/
def refMsg (hs hd : (⟨S400000x128, .f32⟩ : BufTy).Contents (Elt F)) (ef : (⟨S400000x16, .f32⟩ : BufTy).Contents (Elt F))
    (w1 : (⟨S272x128, .f32⟩ : BufTy).Contents (Elt F)) (w2 : (⟨S128x128, .f32⟩ : BufTy).Contents (Elt F)) :
    (⟨S400000x128, .f32⟩ : BufTy).Contents (Elt F) :=
  Host.dotGeneral dot_S400000x128_S128x128_S400000x128_1_0_0_1_n_n none
    (lrelu400 (Host.dotGeneral dot_S400000x272_S272x128_S400000x128_1_0_0_1_n_n none
      (concatenate S400000x272 1 [⟨S400000x128, hs⟩, ⟨S400000x128, hd⟩, ⟨S400000x16, ef⟩]
        concatenates_S400000x128_S400000x128_S400000x16_S400000x272_d1) w1)) w2

/-- The node stage: node features joined with the summed messages, times the 256-row matrix, rectified, times the
    second matrix. -/
def refNode (h red : (⟨S50000x128, .f32⟩ : BufTy).Contents (Elt F))
    (n1 : (⟨S256x128, .f32⟩ : BufTy).Contents (Elt F)) (n2 : (⟨S128x128, .f32⟩ : BufTy).Contents (Elt F)) :
    (⟨S50000x128, .f32⟩ : BufTy).Contents (Elt F) :=
  Host.dotGeneral dot_S50000x128_S128x128_S50000x128_1_0_0_1_n_n none
    (lrelu50 (Host.dotGeneral dot_S50000x256_S256x128_S50000x128_1_0_0_1_n_n none
      (concatenate S50000x256 1 [⟨S50000x128, h⟩, ⟨S50000x128, red⟩]
        concatenates_S50000x128_S50000x128_S50000x256_d1) n1)) n2

/-- Row numbers wrapped (a negative one counts from the end) and set as a column. -/
def wrapCol (x : (⟨S400000, .i32⟩ : BufTy).Contents (Elt F)) : (⟨S400000x1, .i32⟩ : BufTy).Contents (Elt F) :=
  broadcastInDim S400000x1 ![0] bcast_S400000_S400000x1_0
    (select (cmpi .slt x (broadcastInDim S400000 ![] bcast_S_S400000 (constantI S_ 32 0#32)))
      (addi x (broadcastInDim S400000 ![] bcast_S_S400000 (constantI S_ 32 50000#32))) x)

/-- One layer on node features `h`: `s`, `d` the messages' source and destination rows, `ef` their edge
    features, `w1 w2 n1 n2` the layer's four weight matrices. -/
def refLayer (s d : (⟨S400000, .i32⟩ : BufTy).Contents (Elt F)) (ef : (⟨S400000x16, .f32⟩ : BufTy).Contents (Elt F))
    (w1 : (⟨S272x128, .f32⟩ : BufTy).Contents (Elt F)) (w2 : (⟨S128x128, .f32⟩ : BufTy).Contents (Elt F))
    (n1 : (⟨S256x128, .f32⟩ : BufTy).Contents (Elt F)) (n2 : (⟨S128x128, .f32⟩ : BufTy).Contents (Elt F))
    (h : (⟨S50000x128, .f32⟩ : BufTy).Contents (Elt F)) : (⟨S50000x128, .f32⟩ : BufTy).Contents (Elt F) :=
  refNode h
    (Host.scatterAdd scatter_S50000x128_S400000x1_S400000x128_1_0_0_1
      (broadcastInDim S50000x128 ![] bcast_S_S50000x128 (constant (F := F) S_ .f32 0x00000000#32))
      (broadcastInDim S400000x1 ![0] bcast_S400000_S400000x1_0 d)
      (refMsg (Host.gather gather_S50000x128_S400000x1_S400000x128_1_0_n_n_0_1_1128 h (wrapCol (F := F) s))
        (Host.gather gather_S50000x128_S400000x1_S400000x128_1_0_n_n_0_1_1128 h (wrapCol (F := F) d)) ef w1 w2))
    n1 n2

theorem slice_w1 : ∀ l : Fin 3, S3x272x128.Slices ![l.val, 0, 0] S1x272x128 := by decide
theorem slice_w2 : ∀ l : Fin 3, S3x128x128.Slices ![l.val, 0, 0] S1x128x128 := by decide
theorem slice_n1 : ∀ l : Fin 3, S3x256x128.Slices ![l.val, 0, 0] S1x256x128 := by decide

/-- Layer `l`'s 272-row matrix: its slice of the stacked array, the unit axis dropped. -/
def w1At (a4 : (⟨S3x272x128, .f32⟩ : BufTy).Contents (Elt F)) (l : Fin 3) : (⟨S272x128, .f32⟩ : BufTy).Contents (Elt F) :=
  shapeCast S272x128 (extractStridedSlice S1x272x128 ![l.val, 0, 0] a4 (slice_w1 l)) shapeCasts_S1x272x128_S272x128
/-- Layer `l`'s 128-row matrix of a stacked array of such. -/
def w2At (a5 : (⟨S3x128x128, .f32⟩ : BufTy).Contents (Elt F)) (l : Fin 3) : (⟨S128x128, .f32⟩ : BufTy).Contents (Elt F) :=
  shapeCast S128x128 (extractStridedSlice S1x128x128 ![l.val, 0, 0] a5 (slice_w2 l)) shapeCasts_S1x128x128_S128x128
/-- Layer `l`'s 256-row matrix. -/
def n1At (a6 : (⟨S3x256x128, .f32⟩ : BufTy).Contents (Elt F)) (l : Fin 3) : (⟨S256x128, .f32⟩ : BufTy).Contents (Elt F) :=
  shapeCast S256x128 (extractStridedSlice S1x256x128 ![l.val, 0, 0] a6 (slice_n1 l)) shapeCasts_S1x256x128_S256x128

/-- Layer `l` over the joined rows and features and the four stacked weight arrays. -/
def refStep (s d : (⟨S400000, .i32⟩ : BufTy).Contents (Elt F)) (ef : (⟨S400000x16, .f32⟩ : BufTy).Contents (Elt F))
    (a4 : (⟨S3x272x128, .f32⟩ : BufTy).Contents (Elt F)) (a5 : (⟨S3x128x128, .f32⟩ : BufTy).Contents (Elt F))
    (a6 : (⟨S3x256x128, .f32⟩ : BufTy).Contents (Elt F)) (a7 : (⟨S3x128x128, .f32⟩ : BufTy).Contents (Elt F)) (l : Fin 3)
    (h : (⟨S50000x128, .f32⟩ : BufTy).Contents (Elt F)) : (⟨S50000x128, .f32⟩ : BufTy).Contents (Elt F) :=
  refLayer s d ef (w1At a4 l) (w2At a5 l) (n1At a6 l) (w2At a7 l) h

/-- The joined source rows, destination rows and edge features. -/
def refSrc (a2 a3 : (⟨S200000, .i32⟩ : BufTy).Contents (Elt F)) : (⟨S400000, .i32⟩ : BufTy).Contents (Elt F) :=
  concatenate S400000 0 [⟨S200000, a2⟩, ⟨S200000, a3⟩] concatenates_S200000_S200000_S400000_d0
def refFeat (a1 : (⟨S200000x16, .f32⟩ : BufTy).Contents (Elt F)) : (⟨S400000x16, .f32⟩ : BufTy).Contents (Elt F) :=
  concatenate S400000x16 0 [⟨S200000x16, a1⟩, ⟨S200000x16, a1⟩] concatenates_S200000x16_S200000x16_S400000x16_d0

/-- The whole reference: three layers, the residual sum after the first two. -/
def refNet (a0 : (⟨S50000x128, .f32⟩ : BufTy).Contents (Elt F)) (a1 : (⟨S200000x16, .f32⟩ : BufTy).Contents (Elt F))
    (a2 a3 : (⟨S200000, .i32⟩ : BufTy).Contents (Elt F))
    (a4 : (⟨S3x272x128, .f32⟩ : BufTy).Contents (Elt F)) (a5 : (⟨S3x128x128, .f32⟩ : BufTy).Contents (Elt F))
    (a6 : (⟨S3x256x128, .f32⟩ : BufTy).Contents (Elt F)) (a7 : (⟨S3x128x128, .f32⟩ : BufTy).Contents (Elt F)) :
    (⟨S50000x128, .f32⟩ : BufTy).Contents (Elt F) :=
  refStep (refSrc a2 a3) (refSrc a3 a2) (refFeat a1) a4 a5 a6 a7 2
    (addf (refStep (refSrc a2 a3) (refSrc a3 a2) (refFeat a1) a4 a5 a6 a7 1
        (addf (refStep (refSrc a2 a3) (refSrc a3 a2) (refFeat a1) a4 a5 a6 a7 0 a0) a0))
      (addf (refStep (refSrc a2 a3) (refSrc a3 a2) (refFeat a1) a4 a5 a6 a7 0 a0) a0))

end Cert.ReferenceIdeal.RefRun

end
-- ==== Proof.RefOps.lean ====
/-
  The reference's host program as lists of its operations, in order: the three joins of the edge lists and the edge
  features, then one list per layer (the callee's operations of the two rectifiers inline at their call sites, over
  each call's own buffers). Each list comes with the buffers it writes, so that a buffer outside them is known to
  keep its contents through the list.
-/
import proofs.«156241_j4647154614414_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The three joins: message sources, message destinations, edge features twice. -/
abbrev opsPre : List (HloOp τ sig (Elt F)) :=
  [ binary main_arg2 main_arg3 main_v0 ((fun a b => concatenate S400000 0 [⟨S200000, a⟩, ⟨S200000, b⟩] concatenates_S200000_S200000_S400000_d0) : (⟨S200000, .i32⟩ : BufTy).Contents (Elt F) → (⟨S200000, .i32⟩ : BufTy).Contents (Elt F) → (⟨S400000, .i32⟩ : BufTy).Contents (Elt F)),
    binary main_arg3 main_arg2 main_v1 ((fun a b => concatenate S400000 0 [⟨S200000, a⟩, ⟨S200000, b⟩] concatenates_S200000_S200000_S400000_d0) : (⟨S200000, .i32⟩ : BufTy).Contents (Elt F) → (⟨S200000, .i32⟩ : BufTy).Contents (Elt F) → (⟨S400000, .i32⟩ : BufTy).Contents (Elt F)),
    binary main_arg1 main_arg1 main_v2 ((fun a b => concatenate S400000x16 0 [⟨S200000x16, a⟩, ⟨S200000x16, b⟩] concatenates_S200000x16_S200000x16_S400000x16_d0) : (⟨S200000x16, .f32⟩ : BufTy).Contents (Elt F) → (⟨S200000x16, .f32⟩ : BufTy).Contents (Elt F) → (⟨S400000x16, .f32⟩ : BufTy).Contents (Elt F)) ]

/-- The first layer's 51 operations, ending in the residual sum. -/
abbrev ops0 : List (HloOp τ sig (Elt F)) :=
  [ nullary main_c (constantI S_ 32 0#32),
    unary main_c main_v3 (broadcastInDim S400000 ![] bcast_S_S400000 : (⟨S_, .i32⟩ : BufTy).Contents (Elt F) → (⟨S400000, .i32⟩ : BufTy).Contents (Elt F)),
    binary main_v0 main_v3 main_v4 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v5 (broadcastInDim S400000 ![] bcast_S_S400000 : (⟨S_, .i32⟩ : BufTy).Contents (Elt F) → (⟨S400000, .i32⟩ : BufTy).Contents (Elt F)),
    binary main_v0 main_v5 main_v6 (addi : (⟨S400000, .i32⟩ : BufTy).Contents (Elt F) → (⟨S400000, .i32⟩ : BufTy).Contents (Elt F) → (⟨S400000, .i32⟩ : BufTy).Contents (Elt F)),
    ternary main_v4 main_v6 main_v0 main_v7 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v7 main_v8 (broadcastInDim S400000x1 ![0] bcast_S400000_S400000x1_0 : (⟨S400000, .i32⟩ : BufTy).Contents (Elt F) → (⟨S400000x1, .i32⟩ : BufTy).Contents (Elt F)),
    binary main_arg0 main_v8 main_v9 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_1 (constantI S_ 32 0#32),
    unary main_c_1 main_v10 (broadcastInDim S400000 ![] bcast_S_S400000 : (⟨S_, .i32⟩ : BufTy).Contents (Elt F) → (⟨S400000, .i32⟩ : BufTy).Contents (Elt F)),
    binary main_v1 main_v10 main_v11 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v12 (broadcastInDim S400000 ![] bcast_S_S400000 : (⟨S_, .i32⟩ : BufTy).Contents (Elt F) → (⟨S400000, .i32⟩ : BufTy).Contents (Elt F)),
    binary main_v1 main_v12 main_v13 (addi : (⟨S400000, .i32⟩ : BufTy).Contents (Elt F) → (⟨S400000, .i32⟩ : BufTy).Contents (Elt F) → (⟨S400000, .i32⟩ : BufTy).Contents (Elt F)),
    ternary main_v11 main_v13 main_v1 main_v14 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v14 main_v15 (broadcastInDim S400000x1 ![0] bcast_S400000_S400000x1_0 : (⟨S400000, .i32⟩ : BufTy).Contents (Elt F) → (⟨S400000x1, .i32⟩ : BufTy).Contents (Elt F)),
    binary main_arg0 main_v15 main_v16 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nary ![main_v9, main_v16, main_v2] main_v17 (fun u => concatenate S400000x272 1 [⟨S400000x128, u 0⟩, ⟨S400000x128, u 1⟩, ⟨S400000x16, u 2⟩] concatenates_S400000x128_S400000x128_S400000x16_S400000x272_d1),
    unary main_arg4 main_v18 ((extractStridedSlice S1x272x128 ![0, 0, 0] · slices_S3x272x128_S1x272x128_0_0_0) : (⟨S3x272x128, .f32⟩ : BufTy).Contents (Elt F) → (⟨S1x272x128, .f32⟩ : BufTy).Contents (Elt F)),
    reshape main_v18 main_v19 rfl shapeCasts_S1x272x128_S272x128,
    binary main_v17 main_v19 main_v20 ((fun l r => Host.dotGeneral dot_S400000x272_S272x128_S400000x128_1_0_0_1_n_n none l r) : (⟨S400000x272, .f32⟩ : BufTy).Contents (Elt F) → (⟨S272x128, .f32⟩ : BufTy).Contents (Elt F) → (⟨S400000x128, .f32⟩ : BufTy).Contents (Elt F)),
    TRef.nullary main_call0.cst (constant S_ .f32 0x00000000#32),
    TRef.unary main_call0.cst main_call0.v0 (broadcastInDim S400000x128 ![] bcast_S_S400000x128),
    TRef.binary (.of main_v20) main_call0.v0 main_call0.v1 (cmpf .oge),
    TRef.nullary main_call0.cst_0 (constant S_ .f32 0x3C23D70A#32),
    TRef.unary main_call0.cst_0 main_call0.v2 (broadcastInDim S400000x128 ![] bcast_S_S400000x128),
    TRef.binary main_call0.v2 (.of main_v20) main_call0.v3 mulf,
    TRef.ternary main_call0.v1 (.of main_v20) main_call0.v3 main_call0.call0.v0 select,
    unary main_arg5 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v22 main_v23 rfl shapeCasts_S1x128x128_S128x128,
    binary main_v21 main_v23 main_v24 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    nullary main_cst (constant S_ .f32 0x00000000#32),
    unary main_cst main_v25 (broadcastInDim S50000x128 ![] bcast_S_S50000x128 : (⟨S_, .f32⟩ : BufTy).Contents (Elt F) → (⟨S50000x128, .f32⟩ : BufTy).Contents (Elt F)),
    unary main_v1 main_v26 (broadcastInDim S400000x1 ![0] bcast_S400000_S400000x1_0 : (⟨S400000, .i32⟩ : BufTy).Contents (Elt F) → (⟨S400000x1, .i32⟩ : BufTy).Contents (Elt F)),
    ternary main_v25 main_v26 main_v24 main_v27 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    binary main_arg0 main_v27 main_v28 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg6 main_v29 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v29 main_v30 rfl shapeCasts_S1x256x128_S256x128,
    binary main_v28 main_v30 main_v31 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v31) main_call1.v0 main_call1.v1 (cmpf .oge),
    TRef.nullary main_call1.cst_0 (constant S_ .f32 0x3C23D70A#32),
    TRef.unary main_call1.cst_0 main_call1.v2 (broadcastInDim S50000x128 ![] bcast_S_S50000x128),
    TRef.binary main_call1.v2 (.of main_v31) main_call1.v3 mulf,
    TRef.ternary main_call1.v1 (.of main_v31) main_call1.v3 main_call1.call0.v0 select,
    unary main_arg7 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v33 main_v34 rfl shapeCasts_S1x128x128_S128x128,
    binary main_v32 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v35 main_arg0 main_v36 (addf : (⟨S50000x128, .f32⟩ : BufTy).Contents (Elt F) → (⟨S50000x128, .f32⟩ : BufTy).Contents (Elt F) → (⟨S50000x128, .f32⟩ : BufTy).Contents (Elt F)) ]

/-- The second layer's 51 operations, ending in the residual sum. -/
abbrev ops1 : List (HloOp τ sig (Elt F)) :=
  [ nullary main_c_3 (constantI S_ 32 0#32),
    unary main_c_3 main_v37 (broadcastInDim S400000 ![] bcast_S_S400000 : (⟨S_, .i32⟩ : BufTy).Contents (Elt F) → (⟨S400000, .i32⟩ : BufTy).Contents (Elt F)),
    binary main_v0 main_v37 main_v38 (cmpi .slt : (⟨S400000, .i32⟩ : BufTy).Contents (Elt F) → (⟨S400000, .i32⟩ : BufTy).Contents (Elt F) → (⟨S400000, .i1⟩ : BufTy).Contents (Elt F)),
    nullary main_c_4 (constantI S_ 32 50000#32),
    unary main_c_4 main_v39 (broadcastInDim S400000 ![] bcast_S_S400000 : (⟨S_, .i32⟩ : BufTy).Contents (Elt F) → (⟨S400000, .i32⟩ : BufTy).Contents (Elt F)),
    binary main_v0 main_v39 main_v40 (addi : (⟨S400000, .i32⟩ : BufTy).Contents (Elt F) → (⟨S400000, .i32⟩ : BufTy).Contents (Elt F) → (⟨S400000, .i32⟩ : BufTy).Contents (Elt F)),
    ternary main_v38 main_v40 main_v0 main_v41 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v41 main_v42 (broadcastInDim S400000x1 ![0] bcast_S400000_S400000x1_0 : (⟨S400000, .i32⟩ : BufTy).Contents (Elt F) → (⟨S400000x1, .i32⟩ : BufTy).Contents (Elt F)),
    binary main_v36 main_v42 main_v43 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_5 (constantI S_ 32 0#32),
    unary main_c_5 main_v44 (broadcastInDim S400000 ![] bcast_S_S400000 : (⟨S_, .i32⟩ : BufTy).Contents (Elt F) → (⟨S400000, .i32⟩ : BufTy).Contents (Elt F)),
    binary main_v1 main_v44 main_v45 (cmpi .slt : (⟨S400000, .i32⟩ : BufTy).Contents (Elt F) → (⟨S400000, .i32⟩ : BufTy).Contents (Elt F) → (⟨S400000, .i1⟩ : BufTy).Contents (Elt F)),
    nullary main_c_6 (constantI S_ 32 50000#32),
    unary main_c_6 main_v46 (broadcastInDim S400000 ![] bcast_S_S400000 : (⟨S_, .i32⟩ : BufTy).Contents (Elt F) → (⟨S400000, .i32⟩ : BufTy).Contents (Elt F)),
    binary main_v1 main_v46 main_v47 (addi : (⟨S400000, .i32⟩ : BufTy).Contents (Elt F) → (⟨S400000, .i32⟩ : BufTy).Contents (Elt F) → (⟨S400000, .i32⟩ : BufTy).Contents (Elt F)),
    ternary main_v45 main_v47 main_v1 main_v48 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v48 main_v49 (broadcastInDim S400000x1 ![0] bcast_S400000_S400000x1_0 : (⟨S400000, .i32⟩ : BufTy).Contents (Elt F) → (⟨S400000x1, .i32⟩ : BufTy).Contents (Elt F)),
    binary main_v36 main_v49 main_v50 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nary ![main_v43, main_v50, main_v2] main_v51 (fun u => concatenate S400000x272 1 [⟨S400000x128, u 0⟩, ⟨S400000x128, u 1⟩, ⟨S400000x16, u 2⟩] concatenates_S400000x128_S400000x128_S400000x16_S400000x272_d1),
    unary main_arg4 main_v52 ((extractStridedSlice S1x272x128 ![1, 0, 0] · slices_S3x272x128_S1x272x128_1_0_0) : (⟨S3x272x128, .f32⟩ : BufTy).Contents (Elt F) → (⟨S1x272x128, .f32⟩ : BufTy).Contents (Elt F)),
    reshape main_v52 main_v53 rfl shapeCasts_S1x272x128_S272x128,
    binary main_v51 main_v53 main_v54 ((fun l r => Host.dotGeneral dot_S400000x272_S272x128_S400000x128_1_0_0_1_n_n none l r) : (⟨S400000x272, .f32⟩ : BufTy).Contents (Elt F) → (⟨S272x128, .f32⟩ : BufTy).Contents (Elt F) → (⟨S400000x128, .f32⟩ : BufTy).Contents (Elt F)),
    TRef.nullary main_call2.cst (constant S_ .f32 0x00000000#32),
    TRef.unary main_call2.cst main_call2.v0 (broadcastInDim S400000x128 ![] bcast_S_S400000x128),
    TRef.binary (.of main_v54) main_call2.v0 main_call2.v1 (cmpf .oge),
    TRef.nullary main_call2.cst_0 (constant S_ .f32 0x3C23D70A#32),
    TRef.unary main_call2.cst_0 main_call2.v2 (broadcastInDim S400000x128 ![] bcast_S_S400000x128),
    TRef.binary main_call2.v2 (.of main_v54) main_call2.v3 mulf,
    TRef.ternary main_call2.v1 (.of main_v54) main_call2.v3 main_call2.call0.v0 select,
    unary main_arg5 main_v56 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v56 main_v57 rfl shapeCasts_S1x128x128_S128x128,
    binary main_v55 main_v57 main_v58 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    nullary main_cst_7 (constant S_ .f32 0x00000000#32),
    unary main_cst_7 main_v59 (broadcastInDim S50000x128 ![] bcast_S_S50000x128 : (⟨S_, .f32⟩ : BufTy).Contents (Elt F) → (⟨S50000x128, .f32⟩ : BufTy).Contents (Elt F)),
    unary main_v1 main_v60 (broadcastInDim S400000x1 ![0] bcast_S400000_S400000x1_0 : (⟨S400000, .i32⟩ : BufTy).Contents (Elt F) → (⟨S400000x1, .i32⟩ : BufTy).Contents (Elt F)),
    ternary main_v59 main_v60 main_v58 main_v61 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    binary main_v36 main_v61 main_v62 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg6 main_v63 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v63 main_v64 rfl shapeCasts_S1x256x128_S256x128,
    binary main_v62 main_v64 main_v65 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v65) main_call3.v0 main_call3.v1 (cmpf .oge),
    TRef.nullary main_call3.cst_0 (constant S_ .f32 0x3C23D70A#32),
    TRef.unary main_call3.cst_0 main_call3.v2 (broadcastInDim S50000x128 ![] bcast_S_S50000x128),
    TRef.binary main_call3.v2 (.of main_v65) main_call3.v3 mulf,
    TRef.ternary main_call3.v1 (.of main_v65) main_call3.v3 main_call3.call0.v0 select,
    unary main_arg7 main_v67 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v67 main_v68 rfl shapeCasts_S1x128x128_S128x128,
    binary main_v66 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v69 main_v36 main_v70 (addf : (⟨S50000x128, .f32⟩ : BufTy).Contents (Elt F) → (⟨S50000x128, .f32⟩ : BufTy).Contents (Elt F) → (⟨S50000x128, .f32⟩ : BufTy).Contents (Elt F)) ]

/-- The third layer's 51 operations (the program's value is the last product; a residual sum follows it, unread). -/
abbrev ops2 : List (HloOp τ sig (Elt F)) :=
  [ nullary main_c_8 (constantI S_ 32 0#32),
    unary main_c_8 main_v71 (broadcastInDim S400000 ![] bcast_S_S400000 : (⟨S_, .i32⟩ : BufTy).Contents (Elt F) → (⟨S400000, .i32⟩ : BufTy).Contents (Elt F)),
    binary main_v0 main_v71 main_v72 (cmpi .slt : (⟨S400000, .i32⟩ : BufTy).Contents (Elt F) → (⟨S400000, .i32⟩ : BufTy).Contents (Elt F) → (⟨S400000, .i1⟩ : BufTy).Contents (Elt F)),
    nullary main_c_9 (constantI S_ 32 50000#32),
    unary main_c_9 main_v73 (broadcastInDim S400000 ![] bcast_S_S400000 : (⟨S_, .i32⟩ : BufTy).Contents (Elt F) → (⟨S400000, .i32⟩ : BufTy).Contents (Elt F)),
    binary main_v0 main_v73 main_v74 (addi : (⟨S400000, .i32⟩ : BufTy).Contents (Elt F) → (⟨S400000, .i32⟩ : BufTy).Contents (Elt F) → (⟨S400000, .i32⟩ : BufTy).Contents (Elt F)),
    ternary main_v72 main_v74 main_v0 main_v75 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v75 main_v76 (broadcastInDim S400000x1 ![0] bcast_S400000_S400000x1_0 : (⟨S400000, .i32⟩ : BufTy).Contents (Elt F) → (⟨S400000x1, .i32⟩ : BufTy).Contents (Elt F)),
    binary main_v70 main_v76 main_v77 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nullary main_c_10 (constantI S_ 32 0#32),
    unary main_c_10 main_v78 (broadcastInDim S400000 ![] bcast_S_S400000 : (⟨S_, .i32⟩ : BufTy).Contents (Elt F) → (⟨S400000, .i32⟩ : BufTy).Contents (Elt F)),
    binary main_v1 main_v78 main_v79 (cmpi .slt : (⟨S400000, .i32⟩ : BufTy).Contents (Elt F) → (⟨S400000, .i32⟩ : BufTy).Contents (Elt F) → (⟨S400000, .i1⟩ : BufTy).Contents (Elt F)),
    nullary main_c_11 (constantI S_ 32 50000#32),
    unary main_c_11 main_v80 (broadcastInDim S400000 ![] bcast_S_S400000 : (⟨S_, .i32⟩ : BufTy).Contents (Elt F) → (⟨S400000, .i32⟩ : BufTy).Contents (Elt F)),
    binary main_v1 main_v80 main_v81 (addi : (⟨S400000, .i32⟩ : BufTy).Contents (Elt F) → (⟨S400000, .i32⟩ : BufTy).Contents (Elt F) → (⟨S400000, .i32⟩ : BufTy).Contents (Elt F)),
    ternary main_v79 main_v81 main_v1 main_v82 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v82 main_v83 (broadcastInDim S400000x1 ![0] bcast_S400000_S400000x1_0 : (⟨S400000, .i32⟩ : BufTy).Contents (Elt F) → (⟨S400000x1, .i32⟩ : BufTy).Contents (Elt F)),
    binary main_v70 main_v83 main_v84 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    nary ![main_v77, main_v84, main_v2] main_v85 (fun u => concatenate S400000x272 1 [⟨S400000x128, u 0⟩, ⟨S400000x128, u 1⟩, ⟨S400000x16, u 2⟩] concatenates_S400000x128_S400000x128_S400000x16_S400000x272_d1),
    unary main_arg4 main_v86 ((extractStridedSlice S1x272x128 ![2, 0, 0] · slices_S3x272x128_S1x272x128_2_0_0) : (⟨S3x272x128, .f32⟩ : BufTy).Contents (Elt F) → (⟨S1x272x128, .f32⟩ : BufTy).Contents (Elt F)),
    reshape main_v86 main_v87 rfl shapeCasts_S1x272x128_S272x128,
    binary main_v85 main_v87 main_v88 ((fun l r => Host.dotGeneral dot_S400000x272_S272x128_S400000x128_1_0_0_1_n_n none l r) : (⟨S400000x272, .f32⟩ : BufTy).Contents (Elt F) → (⟨S272x128, .f32⟩ : BufTy).Contents (Elt F) → (⟨S400000x128, .f32⟩ : BufTy).Contents (Elt F)),
    TRef.nullary main_call4.cst (constant S_ .f32 0x00000000#32),
    TRef.unary main_call4.cst main_call4.v0 (broadcastInDim S400000x128 ![] bcast_S_S400000x128),
    TRef.binary (.of main_v88) main_call4.v0 main_call4.v1 (cmpf .oge),
    TRef.nullary main_call4.cst_0 (constant S_ .f32 0x3C23D70A#32),
    TRef.unary main_call4.cst_0 main_call4.v2 (broadcastInDim S400000x128 ![] bcast_S_S400000x128),
    TRef.binary main_call4.v2 (.of main_v88) main_call4.v3 mulf,
    TRef.ternary main_call4.v1 (.of main_v88) main_call4.v3 main_call4.call0.v0 select,
    unary main_arg5 main_v90 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v90 main_v91 rfl shapeCasts_S1x128x128_S128x128,
    binary main_v89 main_v91 main_v92 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    nullary main_cst_12 (constant S_ .f32 0x00000000#32),
    unary main_cst_12 main_v93 (broadcastInDim S50000x128 ![] bcast_S_S50000x128 : (⟨S_, .f32⟩ : BufTy).Contents (Elt F) → (⟨S50000x128, .f32⟩ : BufTy).Contents (Elt F)),
    unary main_v1 main_v94 (broadcastInDim S400000x1 ![0] bcast_S400000_S400000x1_0 : (⟨S400000, .i32⟩ : BufTy).Contents (Elt F) → (⟨S400000x1, .i32⟩ : BufTy).Contents (Elt F)),
    ternary main_v93 main_v94 main_v92 main_v95 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    binary main_v70 main_v95 main_v96 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg6 main_v97 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v97 main_v98 rfl shapeCasts_S1x256x128_S256x128,
    binary main_v96 main_v98 main_v99 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v99) main_call5.v0 main_call5.v1 (cmpf .oge),
    TRef.nullary main_call5.cst_0 (constant S_ .f32 0x3C23D70A#32),
    TRef.unary main_call5.cst_0 main_call5.v2 (broadcastInDim S50000x128 ![] bcast_S_S50000x128),
    TRef.binary main_call5.v2 (.of main_v99) main_call5.v3 mulf,
    TRef.ternary main_call5.v1 (.of main_v99) main_call5.v3 main_call5.call0.v0 select,
    unary main_arg7 main_v101 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v101 main_v102 rfl shapeCasts_S1x128x128_S128x128,
    binary main_v100 main_v102 main_v103 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v103 main_v70 main_v104 (addf : (⟨S50000x128, .f32⟩ : BufTy).Contents (Elt F) → (⟨S50000x128, .f32⟩ : BufTy).Contents (Elt F) → (⟨S50000x128, .f32⟩ : BufTy).Contents (Elt F)) ]

/-- The whole program. -/
abbrev ops : List (HloOp τ sig (Elt F)) := opsPre ++ ops0 ++ ops1 ++ ops2

/-- The buffers `opsPre` writes, in order. -/
abbrev opsPre_W : List (Ref sig .tc) := [main_v0, main_v1, main_v2]
set_option maxRecDepth 8192 in
theorem opsPre_writes : (opsPre : List (HloOp τ sig (Elt F))).Forall fun op => op.writes ⊆ (opsPre_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer `opsPre` does not write keeps its contents through it. -/
theorem opsPre_keep (V : Valuation τ sig (Elt F)) (r : Ref sig .tc) (h : r ∉ opsPre_W) :
    after opsPre V (Proc.devRef .tc r) = V (Proc.devRef .tc r) :=
  after_of_writes_sub opsPre V opsPre_writes h
set_option maxRecDepth 8192 in
theorem opsPre_sub : (opsPre : List (HloOp τ sig (Elt F))).Forall fun op => op.bufs ⊆ tcRefs τ sig :=
  ⟨binary_bufs_sub .., binary_bufs_sub .., binary_bufs_sub ..⟩

/-- The buffers `ops0` writes, in order. -/
abbrev ops0_W : List (Ref sig .tc) := [main_c, main_v3, main_v4, main_c_0, main_v5, main_v6, main_v7, main_v8, main_v9, main_c_1, main_v10, main_v11, main_c_2, main_v12, main_v13, main_v14, main_v15, main_v16, main_v17, main_v18, main_v19, main_v20, main_call0_cst, main_call0_v0, main_call0_v1, main_call0_cst_0, main_call0_v2, main_call0_v3, main_v21, main_v22, main_v23, main_v24, main_cst, main_v25, main_v26, main_v27, main_v28, main_v29, main_v30, main_v31, main_call1_cst, main_call1_v0, main_call1_v1, main_call1_cst_0, main_call1_v2, main_call1_v3, main_v32, main_v33, main_v34, main_v35, main_v36]
set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer `ops0` does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h
set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., nullary_bufs_sub .., unary_bufs_sub .., unary_bufs_sub .., ternary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., binary_bufs_sub ..⟩

/-- The buffers `ops1` writes, in order. -/
abbrev ops1_W : List (Ref sig .tc) := [main_c_3, main_v37, main_v38, main_c_4, main_v39, main_v40, main_v41, main_v42, main_v43, main_c_5, main_v44, main_v45, main_c_6, main_v46, main_v47, main_v48, main_v49, main_v50, main_v51, main_v52, main_v53, main_v54, main_call2_cst, main_call2_v0, main_call2_v1, main_call2_cst_0, main_call2_v2, main_call2_v3, main_v55, main_v56, main_v57, main_v58, main_cst_7, main_v59, main_v60, main_v61, main_v62, main_v63, main_v64, main_v65, main_call3_cst, main_call3_v0, main_call3_v1, main_call3_cst_0, main_call3_v2, main_call3_v3, main_v66, main_v67, main_v68, main_v69, main_v70]
set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer `ops1` does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h
set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., nullary_bufs_sub .., unary_bufs_sub .., unary_bufs_sub .., ternary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., binary_bufs_sub ..⟩

/-- The buffers `ops2` writes, in order. -/
abbrev ops2_W : List (Ref sig .tc) := [main_c_8, main_v71, main_v72, main_c_9, main_v73, main_v74, main_v75, main_v76, main_v77, main_c_10, main_v78, main_v79, main_c_11, main_v80, main_v81, main_v82, main_v83, main_v84, main_v85, main_v86, main_v87, main_v88, main_call4_cst, main_call4_v0, main_call4_v1, main_call4_cst_0, main_call4_v2, main_call4_v3, main_v89, main_v90, main_v91, main_v92, main_cst_12, main_v93, main_v94, main_v95, main_v96, main_v97, main_v98, main_v99, main_call5_cst, main_call5_v0, main_call5_v1, main_call5_cst_0, main_call5_v2, main_call5_v3, main_v100, main_v101, main_v102, main_v103, main_v104]
set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer `ops2` does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h
set_option maxRecDepth 8192 in
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., nullary_bufs_sub .., unary_bufs_sub .., unary_bufs_sub .., ternary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp opsPre_sub op h, List.forall_iff_forall_mem.mp ops0_sub op h,
      List.forall_iff_forall_mem.mp ops1_sub op h, List.forall_iff_forall_mem.mp ops2_sub op h]

end Cert.ReferenceIdeal.RefRun

end
-- ==== Proof.RefLayer0.lean ====
/-
  Layer 0 read through its own list of operations from any starting contents: the list leaves its output buffer at
  one layer step (`refStep`) of the previous features plus those features, read off the joined rows, the joined edge
  features and the four stacked weight arrays as they stand.
-/
import proofs.«156241_j4647154614414_1_alg».proof.Proof.Gen.ReferenceIdeal
import Idealize.ShloMosaic.Lib.StableHlo.Run
import proofs.«156241_j4647154614414_1_alg».proof.Proof.RefDefs
import proofs.«156241_j4647154614414_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd concatenate broadcastInDim extractStridedSlice shapeCast in
set_option maxRecDepth 8192 in
set_option maxHeartbeats 4000000 in
theorem layer0_out (V : Valuation τ sig (Elt F)) :
    after ops0 V (main_v36 : DevRef τ sig)
      = addf (refStep (V (main_v0 : DevRef τ sig)) (V (main_v1 : DevRef τ sig)) (V (main_v2 : DevRef τ sig))
          (V (main_arg4 : DevRef τ sig)) (V (main_arg5 : DevRef τ sig)) (V (main_arg6 : DevRef τ sig)) (V (main_arg7 : DevRef τ sig)) 0 (V (main_arg0 : DevRef τ sig))) (V (main_arg0 : DevRef τ sig)) := by
  simp only [ops0]
  after_results_simp
  rfl

end Cert.ReferenceIdeal.RefRun

end
-- ==== Proof.RefLayer1.lean ====
/-
  Layer 1 read through its own list of operations from any starting contents: the list leaves its output buffer at
  one layer step (`refStep`) of the previous features plus those features, read off the joined rows, the joined edge
  features and the four stacked weight arrays as they stand.
-/
import proofs.«156241_j4647154614414_1_alg».proof.Proof.Gen.ReferenceIdeal
import Idealize.ShloMosaic.Lib.StableHlo.Run
import proofs.«156241_j4647154614414_1_alg».proof.Proof.RefDefs
import proofs.«156241_j4647154614414_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd concatenate broadcastInDim extractStridedSlice shapeCast in
set_option maxRecDepth 8192 in
set_option maxHeartbeats 4000000 in
theorem layer1_out (V : Valuation τ sig (Elt F)) :
    after ops1 V (main_v70 : DevRef τ sig)
      = addf (refStep (V (main_v0 : DevRef τ sig)) (V (main_v1 : DevRef τ sig)) (V (main_v2 : DevRef τ sig))
          (V (main_arg4 : DevRef τ sig)) (V (main_arg5 : DevRef τ sig)) (V (main_arg6 : DevRef τ sig)) (V (main_arg7 : DevRef τ sig)) 1 (V (main_v36 : DevRef τ sig))) (V (main_v36 : DevRef τ sig)) := by
  simp only [ops1]
  after_results_simp
  rfl

end Cert.ReferenceIdeal.RefRun

end
-- ==== Proof.RefLayer2.lean ====
/-
  Layer 2 read through its own list of operations from any starting contents: the list leaves its output buffer at
  one layer step (`refStep`) of the previous features, read off the joined rows, the joined edge
  features and the four stacked weight arrays as they stand.
-/
import proofs.«156241_j4647154614414_1_alg».proof.Proof.Gen.ReferenceIdeal
import Idealize.ShloMosaic.Lib.StableHlo.Run
import proofs.«156241_j4647154614414_1_alg».proof.Proof.RefDefs
import proofs.«156241_j4647154614414_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd concatenate broadcastInDim extractStridedSlice shapeCast in
set_option maxRecDepth 8192 in
set_option maxHeartbeats 4000000 in
theorem layer2_out (V : Valuation τ sig (Elt F)) :
    after ops2 V (main_v103 : DevRef τ sig)
      = refStep (V (main_v0 : DevRef τ sig)) (V (main_v1 : DevRef τ sig)) (V (main_v2 : DevRef τ sig))
          (V (main_arg4 : DevRef τ sig)) (V (main_arg5 : DevRef τ sig)) (V (main_arg6 : DevRef τ sig)) (V (main_arg7 : DevRef τ sig)) 2 (V (main_v70 : DevRef τ sig)) := by
  simp only [ops2]
  after_results_simp
  rfl

end Cert.ReferenceIdeal.RefRun

end
-- ==== Proof.RefMain.lean ====
/-
  The reference's @main is the straight line of its operations: the outlined rectifier functions unfolded at their six
  call sites and the three printed windows run in order, both sides are one chain of host steps.
-/
import proofs.«156241_j4647154614414_1_alg».proof.Proof.Gen.ReferenceIdeal
import Idealize.ShloMosaic.Lib.StableHlo.Run
import proofs.«156241_j4647154614414_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 8000000 in
theorem main_eq (c : Dev nD) : main (F := F) c = seq ops := by
  simp only [main, main_part0, main_part1, main_part2, fn_leaky_relu.body, fn_where.body, fn_leaky_relu_0.body, fn_where_1.body,
    ops, opsPre, ops0, ops1, ops2, List.cons_append, List.nil_append, List.append_assoc, seq, bind_assoc, pure_bind]

set_option maxRecDepth 8192 in
theorem opsPre_fresh : (opsPre : List (HloOp τ sig (Elt F))).Forall fun op => op.fresh = ∅ :=
  ⟨rfl, rfl, rfl⟩
set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of the program leaves a result undetermined. -/
theorem ops_fresh : ∀ op ∈ (ops : List (HloOp τ sig (Elt F))), op.fresh = ∅ := fun op h => by
  simp only [ops, List.mem_append] at h
  rcases h with ((h | h) | h) | h
  exacts [List.forall_iff_forall_mem.mp opsPre_fresh op h, List.forall_iff_forall_mem.mp ops0_fresh op h,
    List.forall_iff_forall_mem.mp ops1_fresh op h, List.forall_iff_forall_mem.mp ops2_fresh op h]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefRun.lean ====
/-
  The reference's run read back: the joins leave the joined rows and features in their buffers, each layer's list
  leaves one layer step of the previous features (plus them, for the first two), no list writes an argument, and the
  lists run one after the other; so the program ends with its result buffer at `refNet` of the eight argument arrays
  and the arguments unchanged.
-/
import proofs.«156241_j4647154614414_1_alg».proof.Proof.Gen.ReferenceIdeal
import Idealize.ShloMosaic.Lib.StableHlo.Run
import proofs.«156241_j4647154614414_1_alg».proof.Proof.RefDefs
import proofs.«156241_j4647154614414_1_alg».proof.Proof.RefOps
import proofs.«156241_j4647154614414_1_alg».proof.Proof.RefLayer0
import proofs.«156241_j4647154614414_1_alg».proof.Proof.RefLayer1
import proofs.«156241_j4647154614414_1_alg».proof.Proof.RefLayer2
import proofs.«156241_j4647154614414_1_alg».proof.Proof.RefMain
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two lists run in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

attribute [local irreducible] concatenate in
theorem pre_v0 (V : Valuation τ sig (Elt F)) :
    after opsPre V (main_v0 : DevRef τ sig) = refSrc (V (main_arg2 : DevRef τ sig)) (V (main_arg3 : DevRef τ sig)) := by
  simp only [opsPre]
  after_results_simp
  rfl
attribute [local irreducible] concatenate in
theorem pre_v1 (V : Valuation τ sig (Elt F)) :
    after opsPre V (main_v1 : DevRef τ sig) = refSrc (V (main_arg3 : DevRef τ sig)) (V (main_arg2 : DevRef τ sig)) := by
  simp only [opsPre]
  after_results_simp
  rfl
attribute [local irreducible] concatenate in
theorem pre_v2 (V : Valuation τ sig (Elt F)) :
    after opsPre V (main_v2 : DevRef τ sig) = refFeat (V (main_arg1 : DevRef τ sig)) := by
  simp only [opsPre]
  after_results_simp
  rfl

/-- The whole list leaves the result buffer at the network of the eight argument arrays. -/
theorem ops_out (V : Valuation τ sig (Elt F)) :
    after ops V (main_v103 : DevRef τ sig)
      = refNet (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp only [ops, after_app]
  rw [layer2_out, layer1_out,
    ops1_keep _ main_v0 (by decide), ops1_keep _ main_v1 (by decide), ops1_keep _ main_v2 (by decide),
    ops1_keep _ main_arg4 (by decide), ops1_keep _ main_arg5 (by decide), ops1_keep _ main_arg6 (by decide), ops1_keep _ main_arg7 (by decide),
    layer0_out,
    ops0_keep _ main_v0 (by decide), ops0_keep _ main_v1 (by decide), ops0_keep _ main_v2 (by decide),
    ops0_keep _ main_arg4 (by decide), ops0_keep _ main_arg5 (by decide), ops0_keep _ main_arg6 (by decide), ops0_keep _ main_arg7 (by decide),
    pre_v0, pre_v1, pre_v2,
    opsPre_keep _ main_arg0 (by decide), opsPre_keep _ main_arg4 (by decide), opsPre_keep _ main_arg5 (by decide),
    opsPre_keep _ main_arg6 (by decide), opsPre_keep _ main_arg7 (by decide)]
  rfl

theorem ops_main_arg0 (V : Valuation τ sig (Elt F)) : after ops V (main_arg0 : DevRef τ sig) = (V (main_arg0 : DevRef τ sig)) := by
    simp only [ops, after_app]
    rw [ops2_keep _ main_arg0 (by decide), ops1_keep _ main_arg0 (by decide), ops0_keep _ main_arg0 (by decide), opsPre_keep _ main_arg0 (by decide)]
theorem ops_main_arg1 (V : Valuation τ sig (Elt F)) : after ops V (main_arg1 : DevRef τ sig) = (V (main_arg1 : DevRef τ sig)) := by
    simp only [ops, after_app]
    rw [ops2_keep _ main_arg1 (by decide), ops1_keep _ main_arg1 (by decide), ops0_keep _ main_arg1 (by decide), opsPre_keep _ main_arg1 (by decide)]
theorem ops_main_arg2 (V : Valuation τ sig (Elt F)) : after ops V (main_arg2 : DevRef τ sig) = (V (main_arg2 : DevRef τ sig)) := by
    simp only [ops, after_app]
    rw [ops2_keep _ main_arg2 (by decide), ops1_keep _ main_arg2 (by decide), ops0_keep _ main_arg2 (by decide), opsPre_keep _ main_arg2 (by decide)]
theorem ops_main_arg3 (V : Valuation τ sig (Elt F)) : after ops V (main_arg3 : DevRef τ sig) = (V (main_arg3 : DevRef τ sig)) := by
    simp only [ops, after_app]
    rw [ops2_keep _ main_arg3 (by decide), ops1_keep _ main_arg3 (by decide), ops0_keep _ main_arg3 (by decide), opsPre_keep _ main_arg3 (by decide)]
theorem ops_main_arg4 (V : Valuation τ sig (Elt F)) : after ops V (main_arg4 : DevRef τ sig) = (V (main_arg4 : DevRef τ sig)) := by
    simp only [ops, after_app]
    rw [ops2_keep _ main_arg4 (by decide), ops1_keep _ main_arg4 (by decide), ops0_keep _ main_arg4 (by decide), opsPre_keep _ main_arg4 (by decide)]
theorem ops_main_arg5 (V : Valuation τ sig (Elt F)) : after ops V (main_arg5 : DevRef τ sig) = (V (main_arg5 : DevRef τ sig)) := by
    simp only [ops, after_app]
    rw [ops2_keep _ main_arg5 (by decide), ops1_keep _ main_arg5 (by decide), ops0_keep _ main_arg5 (by decide), opsPre_keep _ main_arg5 (by decide)]
theorem ops_main_arg6 (V : Valuation τ sig (Elt F)) : after ops V (main_arg6 : DevRef τ sig) = (V (main_arg6 : DevRef τ sig)) := by
    simp only [ops, after_app]
    rw [ops2_keep _ main_arg6 (by decide), ops1_keep _ main_arg6 (by decide), ops0_keep _ main_arg6 (by decide), opsPre_keep _ main_arg6 (by decide)]
theorem ops_main_arg7 (V : Valuation τ sig (Elt F)) : after ops V (main_arg7 : DevRef τ sig) = (V (main_arg7 : DevRef τ sig)) := by
    simp only [ops, after_app]
    rw [ops2_keep _ main_arg7 (by decide), ops1_keep _ main_arg7 (by decide), ops0_keep _ main_arg7 (by decide), opsPre_keep _ main_arg7 (by decide)]

/-- On every device, for any float values, from any memory with zero counters: every weakly fair execution of @main
    terminates with the result buffer at `refNet` of the arguments' launch contents and the arguments unchanged. -/
theorem run_rawF (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v103)
        = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v103).trans (ops_out (launchContents m c)),
      (h c main_arg0).trans (ops_main_arg0 (launchContents m c)),
      (h c main_arg1).trans (ops_main_arg1 (launchContents m c)),
      (h c main_arg2).trans (ops_main_arg2 (launchContents m c)),
      (h c main_arg3).trans (ops_main_arg3 (launchContents m c)),
      (h c main_arg4).trans (ops_main_arg4 (launchContents m c)),
      (h c main_arg5).trans (ops_main_arg5 (launchContents m c)),
      (h c main_arg6).trans (ops_main_arg6 (launchContents m c)),
      (h c main_arg7).trans (ops_main_arg7 (launchContents m c))⟩)
    (run_seq scopedRefs_eq scopedSems_eq defs main (fun _ => ops) main_eq (fun _ => ops_sub) m ρ (fun _ => ops_fresh))

/-- The same at the ideal instance. -/
theorem run_raw (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v103)
        = refNet (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run_rawF m ρ

end Cert.ReferenceIdeal.RefRun

end
-- ==== Proof.LibWeightBands.lean ====
/-
  Reading a layer's weight band at an entry.

  A stacked weight array has shape [3, n, 128]: three layers of n rows. Layer l's band of m rows starting at row o
  is cut as a [1, m, 128] slice at offsets (l, o, 0) and then reshaped to an m × 128 matrix. Its entry (q, k) is the
  stacked array's entry (l, o + q, k): the reshape drops the unit layer axis (row-major position unchanged), and the
  slice adds its offsets coordinate by coordinate.
-/
import proofs.«156241_j4647154614414_1_alg».proof.Proof.Network
import Idealize.ShloMosaic.Lib.ValueIdx
import Idealize.ShloMosaic.Lib.Pipeline.Value
import Idealize.ShloMosaic.Lib.ValueLayout

open scoped BigOperators

namespace Gnn

open Idealize.ShloMosaic Idealize.ShloMosaic.ValueIdx

/-- An m-row band cut at offsets (o0, o1, 0) from a stack of n0 layers of n1 rows, as a matrix: entry (q, k) is the
    stack's entry (l, p, k) whenever l = o0 and p = o1 + q. -/
theorem slab_apply {n0 n1 m : Nat} (o0 o1 : Nat) (W : (⟨3, ![n0, n1, 128]⟩ : Shape).Idx → EReal)
    (hs : (⟨3, ![n0, n1, 128]⟩ : Shape).Slices ![o0, o1, 0] ⟨3, ![1, m, 128]⟩)
    (hc : (⟨3, ![1, m, 128]⟩ : Shape).ShapeCasts ⟨2, ![m, 128]⟩)
    (q : Fin m) (k : Fin 128) (l : Fin n0) (p : Fin n1) (hl : l.val = o0) (hp : p.val = o1 + q.val) :
    shapeCast ⟨2, ![m, 128]⟩ (extractStridedSlice ⟨3, ![1, m, 128]⟩ ![o0, o1, 0] W hs) hc (ix2 q k) = W (ix3 l p k) :=
  (shapeCast_1ab_ab_apply _ hc q k).trans
    (extractStridedSlice_apply _ W hs (ix3 (0 : Fin 1) q k) (ix3 l p k) (fun ax => by
      match ax with
      | ⟨0, _⟩ => exact hl.trans (Nat.add_zero _).symm
      | ⟨1, _⟩ => exact hp
      | ⟨2, _⟩ => exact (Nat.zero_add _).symm))

/-- A 128-row band at offsets (o0, o1, 0) of a stack of n0 layers of n1 rows: entry (q, k) is the stack's (l, p, k)
    whenever l = o0 and p = o1 + q. -/
theorem band128_apply {n0 n1 : Nat} (o0 o1 : Nat) (W : (⟨3, ![n0, n1, 128]⟩ : Shape).Idx → EReal)
    (hs : (⟨3, ![n0, n1, 128]⟩ : Shape).Slices ![o0, o1, 0] S1M) (hc : S1M.ShapeCasts SM)
    (q k : Fin 128) (l : Fin n0) (p : Fin n1) (hl : l.val = o0) (hp : p.val = o1 + q.val) :
    band128 ![o0, o1, 0] hs hc W (ix2 q k) = W (ix3 l p k) :=
  slab_apply o0 o1 W hs hc q k l p hl hp

/-- A 16-row band at offsets (o0, o1, 0) of a stack of n0 layers of n1 rows: entry (q, k) is the stack's (l, p, k)
    whenever l = o0 and p = o1 + q. -/
theorem band16_apply {n0 n1 : Nat} (o0 o1 : Nat) (W : (⟨3, ![n0, n1, 128]⟩ : Shape).Idx → EReal)
    (hs : (⟨3, ![n0, n1, 128]⟩ : Shape).Slices ![o0, o1, 0] S1C) (hc : S1C.ShapeCasts SC)
    (q : Fin 16) (k : Fin 128) (l : Fin n0) (p : Fin n1) (hl : l.val = o0) (hp : p.val = o1 + q.val) :
    band16 ![o0, o1, 0] hs hc W (ix2 q k) = W (ix3 l p k) :=
  slab_apply o0 o1 W hs hc q k l p hl hp

/-! ## The seven matrices of layer l, entry by entry -/

section
variable (a4 : SW1.Idx → EReal) (a5 : SW2.Idx → EReal) (a6 : SWn.Idx → EReal) (a7 : SW2.Idx → EReal) (l : Fin 3)

/-- Rows 0 … 127 of layer l of the first message weights. -/
theorem wa_apply (q k : Fin 128) :
    (weightsOf a4 a5 a6 a7 l).wa (ix2 q k) = a4 (ix3 l (⟨q.val, by omega⟩ : Fin 272) k) :=
  band128_apply l.val 0 a4 (cut_w1_lo l) band_is_matrix q k l ⟨q.val, by omega⟩ rfl (Nat.zero_add _).symm

/-- Rows 128 … 255 of layer l of the first message weights. -/
theorem wb_apply (q k : Fin 128) :
    (weightsOf a4 a5 a6 a7 l).wb (ix2 q k) = a4 (ix3 l (⟨128 + q.val, by omega⟩ : Fin 272) k) :=
  band128_apply l.val 128 a4 (cut_w1_mid l) band_is_matrix q k l ⟨128 + q.val, by omega⟩ rfl rfl

/-- Rows 256 … 271 of layer l of the first message weights. -/
theorem wc_apply (q : Fin 16) (k : Fin 128) :
    (weightsOf a4 a5 a6 a7 l).wc (ix2 q k) = a4 (ix3 l (⟨256 + q.val, by omega⟩ : Fin 272) k) :=
  band16_apply l.val 256 a4 (cut_w1_hi l) band16_is_matrix q k l ⟨256 + q.val, by omega⟩ rfl rfl

/-- Layer l of the second message weights. -/
theorem w2_apply (q k : Fin 128) : (weightsOf a4 a5 a6 a7 l).w2 (ix2 q k) = a5 (ix3 l q k) :=
  band128_apply l.val 0 a5 (cut_w2 l) band_is_matrix q k l q rfl (Nat.zero_add _).symm

/-- Rows 0 … 127 of layer l of the first node weights. -/
theorem na_apply (q k : Fin 128) :
    (weightsOf a4 a5 a6 a7 l).na (ix2 q k) = a6 (ix3 l (⟨q.val, by omega⟩ : Fin 256) k) :=
  band128_apply l.val 0 a6 (cut_wn_lo l) band_is_matrix q k l ⟨q.val, by omega⟩ rfl (Nat.zero_add _).symm

/-- Rows 128 … 255 of layer l of the first node weights. -/
theorem nb_apply (q k : Fin 128) :
    (weightsOf a4 a5 a6 a7 l).nb (ix2 q k) = a6 (ix3 l (⟨128 + q.val, by omega⟩ : Fin 256) k) :=
  band128_apply l.val 128 a6 (cut_wn_hi l) band_is_matrix q k l ⟨128 + q.val, by omega⟩ rfl rfl

/-- Layer l of the second node weights. -/
theorem n2_apply (q k : Fin 128) : (weightsOf a4 a5 a6 a7 l).n2 (ix2 q k) = a7 (ix3 l q k) :=
  band128_apply l.val 0 a7 (cut_w2 l) band_is_matrix q k l q rfl (Nat.zero_add _).symm

end

end Gnn
-- ==== Proof.RefStages.lean ====
/-
  The reference's two perceptron stages are the specification's.

  Entry (r, c) of a product of an R × K array by a K × 128 matrix is the sum over the K contracted positions of the
  products of the entries. For the first product of the message stage the left array is three arrays joined along the
  feature axis (128 + 128 + 16 = 272 columns), so the sum over 272 positions splits into the three bands' sums; in
  band b the joined row reads the b-th array, and the 272-row weight matrix, read at row (band offset + q), is the
  stacked weight array at (layer, band offset + q, k), which is what the band matrix of the specification reads.
  The rectifier is read entry by entry. The node stage is the same with two bands of 128.
  Only the splitting of a finite sum over consecutive ranges is used; nothing about finiteness of any entry.
-/
import proofs.«156241_j4647154614414_1_alg».proof.ReferenceIdeal
import proofs.«156241_j4647154614414_1_alg».proof.Proof.Network
import proofs.«156241_j4647154614414_1_alg».proof.Proof.LibWeightBands
import proofs.«156241_j4647154614414_1_alg».proof.Proof.RefDefs
import Idealize.ShloMosaic.Lib.ValueIdx
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

noncomputable section

open scoped BigOperators

namespace Cert.ReferenceIdeal.RefStage

open Idealize.ShloMosaic Idealize.ShloMosaic.ValueIdx Cert.ReferenceIdeal

/-! ## A sum over consecutive bands -/

/-- 272 = 128 + 128 + 16. -/
theorem sum_bands3 {M : Type*} [AddCommMonoid M] (f : Fin 272 → M) :
    ∑ q : Fin 272, f q = (∑ q : Fin 128, f ⟨q.val, by omega⟩) + (∑ q : Fin 128, f ⟨128 + q.val, by omega⟩)
      + ∑ q : Fin 16, f ⟨256 + q.val, by omega⟩ :=
  (Fin.sum_univ_add (a := 256) (b := 16) f).trans
    (congrArg (· + ∑ q : Fin 16, f ⟨256 + q.val, by omega⟩)
      (Fin.sum_univ_add (a := 128) (b := 128) (fun i : Fin 256 => f (Fin.castAdd 16 i))))

/-- 256 = 128 + 128. -/
theorem sum_bands2 {M : Type*} [AddCommMonoid M] (f : Fin 256 → M) :
    ∑ q : Fin 256, f q = (∑ q : Fin 128, f ⟨q.val, by omega⟩) + ∑ q : Fin 128, f ⟨128 + q.val, by omega⟩ :=
  Fin.sum_univ_add (a := 128) (b := 128) f

/-! ## The rectifier, entry by entry -/

/-- Compare with the zero array, multiply by the slope array, select: at each entry, the scalar rectifier. -/
theorem leaky_apply (T : Shape) (hb : S_.BroadcastsInDim T ![]) (x : T.Idx → EReal) (i : T.Idx) :
    select (cmpf (F := Ideal) (φ := .f32) .oge x (broadcastInDim T ![] hb (constant (F := Ideal) S_ .f32 0x00000000#32))) x
      (mulf (F := Ideal) (φ := .f32) (broadcastInDim T ![] hb (constant (F := Ideal) S_ .f32 0x3C23D70A#32)) x) i
      = Gnn.lrelu (x i) := by
  rw [select_apply, cmpf_apply, mulf_apply, broadcastInDim_scalar_apply, broadcastInDim_scalar_apply, constant_apply,
    constant_apply]
  rfl

/-! ## The products, entry by entry -/

section Dots
variable [Facts₀]

theorem dims272_eq : dot_S400000x272_S272x128_S400000x128_1_0_0_1_n_n = DotDims.plain 400000 272 128 := rfl
theorem dims128_eq : dot_S400000x128_S128x128_S400000x128_1_0_0_1_n_n = DotDims.plain 400000 128 128 := rfl
theorem dims256_eq : dot_S50000x256_S256x128_S50000x128_1_0_0_1_n_n = DotDims.plain 50000 256 128 := rfl
theorem dims128n_eq : dot_S50000x128_S128x128_S50000x128_1_0_0_1_n_n = DotDims.plain 50000 128 128 := rfl

/-- Entry (r, k) of the 400000 × 272 by 272 × 128 product. -/
theorem dot272_apply (A : S400000x272.Idx → EReal) (B : S272x128.Idx → EReal) (r : Fin 400000) (k : Fin 128) :
    Host.dotGeneral (F := Ideal) (φ₁ := .f32) (φ₂ := .f32) dot_S400000x272_S272x128_S400000x128_1_0_0_1_n_n none A B (ix2 r k)
      = ∑ q : Fin 272, A (ix2 r q) * B (ix2 q k) := by
  rw [dims272_eq]; exact StackMember.dotGeneral_plain_apply none A B r k

/-- Entry (r, c) of the 400000 × 128 by 128 × 128 product. -/
theorem dot128_apply (A : S400000x128.Idx → EReal) (B : S128x128.Idx → EReal) (r : Fin 400000) (c : Fin 128) :
    Host.dotGeneral (F := Ideal) (φ₁ := .f32) (φ₂ := .f32) dot_S400000x128_S128x128_S400000x128_1_0_0_1_n_n none A B (ix2 r c)
      = ∑ k : Fin 128, A (ix2 r k) * B (ix2 k c) := by
  rw [dims128_eq]; exact StackMember.dotGeneral_plain_apply none A B r c

/-- Entry (r, k) of the 50000 × 256 by 256 × 128 product. -/
theorem dot256_apply (A : S50000x256.Idx → EReal) (B : S256x128.Idx → EReal) (r : Fin 50000) (k : Fin 128) :
    Host.dotGeneral (F := Ideal) (φ₁ := .f32) (φ₂ := .f32) dot_S50000x256_S256x128_S50000x128_1_0_0_1_n_n none A B (ix2 r k)
      = ∑ q : Fin 256, A (ix2 r q) * B (ix2 q k) := by
  rw [dims256_eq]; exact StackMember.dotGeneral_plain_apply none A B r k

/-- Entry (r, c) of the 50000 × 128 by 128 × 128 product. -/
theorem dot128n_apply (A : S50000x128.Idx → EReal) (B : S128x128.Idx → EReal) (r : Fin 50000) (c : Fin 128) :
    Host.dotGeneral (F := Ideal) (φ₁ := .f32) (φ₂ := .f32) dot_S50000x128_S128x128_S50000x128_1_0_0_1_n_n none A B (ix2 r c)
      = ∑ k : Fin 128, A (ix2 r k) * B (ix2 k c) := by
  rw [dims128n_eq]; exact StackMember.dotGeneral_plain_apply none A B r c

end Dots

/-! ## A joined row, band by band -/

section Join
variable {R : Nat}

/-- Columns 0 … 127 of the three arrays joined along the feature axis are the first array. -/
theorem cat3_lo (x y : (⟨2, ![R, 128]⟩ : Shape).Idx → EReal) (z : (⟨2, ![R, 16]⟩ : Shape).Idx → EReal)
    (h : Shape.Concatenates [⟨2, ![R, 128]⟩, ⟨2, ![R, 128]⟩, ⟨2, ![R, 16]⟩] ⟨2, ![R, 272]⟩ 1) (r : Fin R) (q : Fin 128) :
    concatenate ⟨2, ![R, 272]⟩ 1 [⟨⟨2, ![R, 128]⟩, x⟩, ⟨⟨2, ![R, 128]⟩, y⟩, ⟨⟨2, ![R, 16]⟩, z⟩] h (ix2 r (⟨q.val, by omega⟩ : Fin 272))
      = x (ix2 r q) :=
  concatenate_apply_piece (t := ⟨2, ![R, 272]⟩) 1 [⟨⟨2, ![R, 128]⟩, x⟩, ⟨⟨2, ![R, 128]⟩, y⟩, ⟨⟨2, ![R, 16]⟩, z⟩] h _ 0 (by simp) ⟨2, ![R, 128]⟩ x rfl rfl 0 rfl (ix2 r q)
    (fun b hb => by
      match b with
      | ⟨0, _⟩ => rfl
      | ⟨1, _⟩ => exact absurd rfl hb)
    (Nat.zero_add _)

/-- Columns 128 … 255 are the second array. -/
theorem cat3_mid (x y : (⟨2, ![R, 128]⟩ : Shape).Idx → EReal) (z : (⟨2, ![R, 16]⟩ : Shape).Idx → EReal)
    (h : Shape.Concatenates [⟨2, ![R, 128]⟩, ⟨2, ![R, 128]⟩, ⟨2, ![R, 16]⟩] ⟨2, ![R, 272]⟩ 1) (r : Fin R) (q : Fin 128) :
    concatenate ⟨2, ![R, 272]⟩ 1 [⟨⟨2, ![R, 128]⟩, x⟩, ⟨⟨2, ![R, 128]⟩, y⟩, ⟨⟨2, ![R, 16]⟩, z⟩] h (ix2 r (⟨128 + q.val, by omega⟩ : Fin 272))
      = y (ix2 r q) :=
  concatenate_apply_piece (t := ⟨2, ![R, 272]⟩) 1 [⟨⟨2, ![R, 128]⟩, x⟩, ⟨⟨2, ![R, 128]⟩, y⟩, ⟨⟨2, ![R, 16]⟩, z⟩] h _ 1 (by simp) ⟨2, ![R, 128]⟩ y rfl rfl 128 rfl (ix2 r q)
    (fun b hb => by
      match b with
      | ⟨0, _⟩ => rfl
      | ⟨1, _⟩ => exact absurd rfl hb)
    rfl

/-- Columns 256 … 271 are the third array. -/
theorem cat3_hi (x y : (⟨2, ![R, 128]⟩ : Shape).Idx → EReal) (z : (⟨2, ![R, 16]⟩ : Shape).Idx → EReal)
    (h : Shape.Concatenates [⟨2, ![R, 128]⟩, ⟨2, ![R, 128]⟩, ⟨2, ![R, 16]⟩] ⟨2, ![R, 272]⟩ 1) (r : Fin R) (q : Fin 16) :
    concatenate ⟨2, ![R, 272]⟩ 1 [⟨⟨2, ![R, 128]⟩, x⟩, ⟨⟨2, ![R, 128]⟩, y⟩, ⟨⟨2, ![R, 16]⟩, z⟩] h (ix2 r (⟨256 + q.val, by omega⟩ : Fin 272))
      = z (ix2 r q) :=
  concatenate_apply_piece (t := ⟨2, ![R, 272]⟩) 1 [⟨⟨2, ![R, 128]⟩, x⟩, ⟨⟨2, ![R, 128]⟩, y⟩, ⟨⟨2, ![R, 16]⟩, z⟩] h _ 2 (by simp) ⟨2, ![R, 16]⟩ z rfl rfl 256 rfl (ix2 r q)
    (fun b hb => by
      match b with
      | ⟨0, _⟩ => rfl
      | ⟨1, _⟩ => exact absurd rfl hb)
    rfl

/-- Columns 0 … 127 of two arrays joined along the feature axis are the first. -/
theorem cat2_lo (x y : (⟨2, ![R, 128]⟩ : Shape).Idx → EReal)
    (h : Shape.Concatenates [⟨2, ![R, 128]⟩, ⟨2, ![R, 128]⟩] ⟨2, ![R, 256]⟩ 1) (r : Fin R) (q : Fin 128) :
    concatenate ⟨2, ![R, 256]⟩ 1 [⟨⟨2, ![R, 128]⟩, x⟩, ⟨⟨2, ![R, 128]⟩, y⟩] h (ix2 r (⟨q.val, by omega⟩ : Fin 256)) = x (ix2 r q) :=
  concatenate_apply_piece (t := ⟨2, ![R, 256]⟩) 1 [⟨⟨2, ![R, 128]⟩, x⟩, ⟨⟨2, ![R, 128]⟩, y⟩] h _ 0 (by simp) ⟨2, ![R, 128]⟩ x rfl rfl 0 rfl (ix2 r q)
    (fun b hb => by
      match b with
      | ⟨0, _⟩ => rfl
      | ⟨1, _⟩ => exact absurd rfl hb)
    (Nat.zero_add _)

/-- Columns 128 … 255 are the second. -/
theorem cat2_hi (x y : (⟨2, ![R, 128]⟩ : Shape).Idx → EReal)
    (h : Shape.Concatenates [⟨2, ![R, 128]⟩, ⟨2, ![R, 128]⟩] ⟨2, ![R, 256]⟩ 1) (r : Fin R) (q : Fin 128) :
    concatenate ⟨2, ![R, 256]⟩ 1 [⟨⟨2, ![R, 128]⟩, x⟩, ⟨⟨2, ![R, 128]⟩, y⟩] h (ix2 r (⟨128 + q.val, by omega⟩ : Fin 256)) = y (ix2 r q) :=
  concatenate_apply_piece (t := ⟨2, ![R, 256]⟩) 1 [⟨⟨2, ![R, 128]⟩, x⟩, ⟨⟨2, ![R, 128]⟩, y⟩] h _ 1 (by simp) ⟨2, ![R, 128]⟩ y rfl rfl 128 rfl (ix2 r q)
    (fun b hb => by
      match b with
      | ⟨0, _⟩ => rfl
      | ⟨1, _⟩ => exact absurd rfl hb)
    rfl

end Join

/-! ## The weight matrices the reference cuts, entry by entry -/

/-- Layer l's whole 272-row matrix at (p, k) is the stacked array at (l, p, k). -/
theorem w272_apply (a4 : S3x272x128.Idx → EReal) (l : Fin 3) (hsl : S3x272x128.Slices ![l.val, 0, 0] S1x272x128)
    (hsc : S1x272x128.ShapeCasts S272x128) (p : Fin 272) (k : Fin 128) :
    shapeCast S272x128 (extractStridedSlice S1x272x128 ![l.val, 0, 0] a4 hsl) hsc (ix2 p k) = a4 (ix3 l p k) :=
  Gnn.slab_apply l.val 0 a4 hsl hsc p k l p rfl (Nat.zero_add _).symm

/-- Layer l's whole 256-row matrix at (p, k) is the stacked array at (l, p, k). -/
theorem w256_apply (a6 : S3x256x128.Idx → EReal) (l : Fin 3) (hsl : S3x256x128.Slices ![l.val, 0, 0] S1x256x128)
    (hsc : S1x256x128.ShapeCasts S256x128) (p : Fin 256) (k : Fin 128) :
    shapeCast S256x128 (extractStridedSlice S1x256x128 ![l.val, 0, 0] a6 hsl) hsc (ix2 p k) = a6 (ix3 l p k) :=
  Gnn.slab_apply l.val 0 a6 hsl hsc p k l p rfl (Nat.zero_add _).symm

/-- Layer l's 128-row matrix at (p, k) is the stacked array at (l, p, k). -/
theorem w128_apply (a : S3x128x128.Idx → EReal) (l : Fin 3) (hsl : S3x128x128.Slices ![l.val, 0, 0] S1x128x128)
    (hsc : S1x128x128.ShapeCasts S128x128) (p k : Fin 128) :
    shapeCast S128x128 (extractStridedSlice S1x128x128 ![l.val, 0, 0] a hsl) hsc (ix2 p k) = a (ix3 l p k) :=
  Gnn.slab_apply l.val 0 a hsl hsc p k l p rfl (Nat.zero_add _).symm

/-! ## The specification's stages at an entry -/

theorem edgeStage_apply {R : Nat} (hs hd : (⟨2, ![R, 128]⟩ : Shape).Idx → EReal) (ef : (⟨2, ![R, 16]⟩ : Shape).Idx → EReal)
    (wa wb : Gnn.SM.Idx → EReal) (wc : Gnn.SC.Idx → EReal) (w2 : Gnn.SM.Idx → EReal) (r : Fin R) (c : Fin 128) :
    Gnn.edgeStage hs hd ef wa wb wc w2 (ix2 r c) = ∑ k : Fin 128,
      Gnn.lrelu ((∑ q : Fin 128, hs (ix2 r q) * wa (ix2 q k)) + (∑ q : Fin 128, hd (ix2 r q) * wb (ix2 q k))
        + ∑ q : Fin 16, ef (ix2 r q) * wc (ix2 q k)) * w2 (ix2 k c) := rfl

theorem nodeStage_apply {R : Nat} (h red : (⟨2, ![R, 128]⟩ : Shape).Idx → EReal) (na nb n2 : Gnn.SM.Idx → EReal)
    (r : Fin R) (c : Fin 128) :
    Gnn.nodeStage h red na nb n2 (ix2 r c) = ∑ k : Fin 128,
      Gnn.lrelu ((∑ q : Fin 128, h (ix2 r q) * na (ix2 q k)) + ∑ q : Fin 128, red (ix2 r q) * nb (ix2 q k))
        * n2 (ix2 k c) := rfl

/-! ## The two stages -/

section Stages
variable [Facts₀]

/-- The message stage as the program composes it — join, 272-row product, rectifier, 128-row product, the two matrices
    cut from the stacked arrays at layer l — is the specification's, whatever witnesses the shape facts carry. -/
theorem edge_eq (hs hd : S400000x128.Idx → EReal) (ef : S400000x16.Idx → EReal)
    (a4 : S3x272x128.Idx → EReal) (a5 : S3x128x128.Idx → EReal) (a6 : S3x256x128.Idx → EReal) (a7 : S3x128x128.Idx → EReal)
    (l : Fin 3)
    (hcat : Shape.Concatenates [S400000x128, S400000x128, S400000x16] S400000x272 1)
    (hsl : S3x272x128.Slices ![l.val, 0, 0] S1x272x128) (hsc : S1x272x128.ShapeCasts S272x128)
    (hb : S_.BroadcastsInDim S400000x128 ![])
    (hs2 : S3x128x128.Slices ![l.val, 0, 0] S1x128x128) (hc2 : S1x128x128.ShapeCasts S128x128) :
    Host.dotGeneral (F := Ideal) (φ₁ := .f32) (φ₂ := .f32) dot_S400000x128_S128x128_S400000x128_1_0_0_1_n_n none
      (select
        (cmpf (F := Ideal) (φ := .f32) .oge
          (Host.dotGeneral (F := Ideal) (φ₁ := .f32) (φ₂ := .f32) dot_S400000x272_S272x128_S400000x128_1_0_0_1_n_n none
            (concatenate S400000x272 1 [⟨S400000x128, hs⟩, ⟨S400000x128, hd⟩, ⟨S400000x16, ef⟩] hcat)
            (shapeCast S272x128 (extractStridedSlice S1x272x128 ![l.val, 0, 0] a4 hsl) hsc))
          (broadcastInDim S400000x128 ![] hb (constant (F := Ideal) S_ .f32 0x00000000#32)))
        (Host.dotGeneral (F := Ideal) (φ₁ := .f32) (φ₂ := .f32) dot_S400000x272_S272x128_S400000x128_1_0_0_1_n_n none
          (concatenate S400000x272 1 [⟨S400000x128, hs⟩, ⟨S400000x128, hd⟩, ⟨S400000x16, ef⟩] hcat)
          (shapeCast S272x128 (extractStridedSlice S1x272x128 ![l.val, 0, 0] a4 hsl) hsc))
        (mulf (F := Ideal) (φ := .f32) (broadcastInDim S400000x128 ![] hb (constant (F := Ideal) S_ .f32 0x3C23D70A#32))
          (Host.dotGeneral (F := Ideal) (φ₁ := .f32) (φ₂ := .f32) dot_S400000x272_S272x128_S400000x128_1_0_0_1_n_n none
            (concatenate S400000x272 1 [⟨S400000x128, hs⟩, ⟨S400000x128, hd⟩, ⟨S400000x16, ef⟩] hcat)
            (shapeCast S272x128 (extractStridedSlice S1x272x128 ![l.val, 0, 0] a4 hsl) hsc))))
      (shapeCast S128x128 (extractStridedSlice S1x128x128 ![l.val, 0, 0] a5 hs2) hc2)
      = Gnn.edgeStage hs hd ef (Gnn.weightsOf a4 a5 a6 a7 l).wa (Gnn.weightsOf a4 a5 a6 a7 l).wb
          (Gnn.weightsOf a4 a5 a6 a7 l).wc (Gnn.weightsOf a4 a5 a6 a7 l).w2 := by
  funext i
  obtain ⟨r, c, rfl⟩ : ∃ (r : Fin 400000) (c : Fin 128), i = ix2 r c := ⟨i 0, i 1, eq_ix2 i⟩
  refine Eq.trans ?_ (edgeStage_apply hs hd ef _ _ _ _ r c).symm
  refine (dot128_apply _ _ r c).trans (Finset.sum_congr rfl fun k _ => ?_)
  refine congrArg₂ (· * ·) ((leaky_apply _ hb _ (ix2 r k)).trans (congrArg Gnn.lrelu ?_))
    ((w128_apply a5 l hs2 hc2 k c).trans (Gnn.w2_apply a4 a5 a6 a7 l k c).symm)
  refine (dot272_apply _ _ r k).trans ((sum_bands3 _).trans ?_)
  refine congrArg₂ (· + ·) (congrArg₂ (· + ·) (Finset.sum_congr rfl fun q _ => ?_) (Finset.sum_congr rfl fun q _ => ?_))
    (Finset.sum_congr rfl fun q _ => ?_)
  · exact congrArg₂ (· * ·) (cat3_lo hs hd ef hcat r q)
      ((w272_apply a4 l hsl hsc _ k).trans (Gnn.wa_apply a4 a5 a6 a7 l q k).symm)
  · exact congrArg₂ (· * ·) (cat3_mid hs hd ef hcat r q)
      ((w272_apply a4 l hsl hsc _ k).trans (Gnn.wb_apply a4 a5 a6 a7 l q k).symm)
  · exact congrArg₂ (· * ·) (cat3_hi hs hd ef hcat r q)
      ((w272_apply a4 l hsl hsc _ k).trans (Gnn.wc_apply a4 a5 a6 a7 l q k).symm)

/-- The node stage as the program composes it — join, 256-row product, rectifier, 128-row product, the two matrices
    cut from the stacked arrays at layer l — is the specification's, whatever witnesses the shape facts carry. -/
theorem node_eq (h red : S50000x128.Idx → EReal)
    (a4 : S3x272x128.Idx → EReal) (a5 : S3x128x128.Idx → EReal) (a6 : S3x256x128.Idx → EReal) (a7 : S3x128x128.Idx → EReal)
    (l : Fin 3)
    (hcat : Shape.Concatenates [S50000x128, S50000x128] S50000x256 1)
    (hsl : S3x256x128.Slices ![l.val, 0, 0] S1x256x128) (hsc : S1x256x128.ShapeCasts S256x128)
    (hb : S_.BroadcastsInDim S50000x128 ![])
    (hs2 : S3x128x128.Slices ![l.val, 0, 0] S1x128x128) (hc2 : S1x128x128.ShapeCasts S128x128) :
    Host.dotGeneral (F := Ideal) (φ₁ := .f32) (φ₂ := .f32) dot_S50000x128_S128x128_S50000x128_1_0_0_1_n_n none
      (select
        (cmpf (F := Ideal) (φ := .f32) .oge
          (Host.dotGeneral (F := Ideal) (φ₁ := .f32) (φ₂ := .f32) dot_S50000x256_S256x128_S50000x128_1_0_0_1_n_n none
            (concatenate S50000x256 1 [⟨S50000x128, h⟩, ⟨S50000x128, red⟩] hcat)
            (shapeCast S256x128 (extractStridedSlice S1x256x128 ![l.val, 0, 0] a6 hsl) hsc))
          (broadcastInDim S50000x128 ![] hb (constant (F := Ideal) S_ .f32 0x00000000#32)))
        (Host.dotGeneral (F := Ideal) (φ₁ := .f32) (φ₂ := .f32) dot_S50000x256_S256x128_S50000x128_1_0_0_1_n_n none
          (concatenate S50000x256 1 [⟨S50000x128, h⟩, ⟨S50000x128, red⟩] hcat)
          (shapeCast S256x128 (extractStridedSlice S1x256x128 ![l.val, 0, 0] a6 hsl) hsc))
        (mulf (F := Ideal) (φ := .f32) (broadcastInDim S50000x128 ![] hb (constant (F := Ideal) S_ .f32 0x3C23D70A#32))
          (Host.dotGeneral (F := Ideal) (φ₁ := .f32) (φ₂ := .f32) dot_S50000x256_S256x128_S50000x128_1_0_0_1_n_n none
            (concatenate S50000x256 1 [⟨S50000x128, h⟩, ⟨S50000x128, red⟩] hcat)
            (shapeCast S256x128 (extractStridedSlice S1x256x128 ![l.val, 0, 0] a6 hsl) hsc))))
      (shapeCast S128x128 (extractStridedSlice S1x128x128 ![l.val, 0, 0] a7 hs2) hc2)
      = Gnn.nodeStage h red (Gnn.weightsOf a4 a5 a6 a7 l).na (Gnn.weightsOf a4 a5 a6 a7 l).nb
          (Gnn.weightsOf a4 a5 a6 a7 l).n2 := by
  funext i
  obtain ⟨r, c, rfl⟩ : ∃ (r : Fin 50000) (c : Fin 128), i = ix2 r c := ⟨i 0, i 1, eq_ix2 i⟩
  refine Eq.trans ?_ (nodeStage_apply h red _ _ _ r c).symm
  refine (dot128n_apply _ _ r c).trans (Finset.sum_congr rfl fun k _ => ?_)
  refine congrArg₂ (· * ·) ((leaky_apply _ hb _ (ix2 r k)).trans (congrArg Gnn.lrelu ?_))
    ((w128_apply a7 l hs2 hc2 k c).trans (Gnn.n2_apply a4 a5 a6 a7 l k c).symm)
  refine (dot256_apply _ _ r k).trans ((sum_bands2 _).trans ?_)
  refine congrArg₂ (· + ·) (Finset.sum_congr rfl fun q _ => ?_) (Finset.sum_congr rfl fun q _ => ?_)
  · exact congrArg₂ (· * ·) (cat2_lo h red hcat r q)
      ((w256_apply a6 l hsl hsc _ k).trans (Gnn.na_apply a4 a5 a6 a7 l q k).symm)
  · exact congrArg₂ (· * ·) (cat2_hi h red hcat r q)
      ((w256_apply a6 l hsl hsc _ k).trans (Gnn.nb_apply a4 a5 a6 a7 l q k).symm)

end Stages

/-! ## The same, on the reference's named stage functions -/

/-- The reference's message stage on layer l's matrices is the specification's. -/
theorem refMsg_eq (hs hd : S400000x128.Idx → EReal) (ef : S400000x16.Idx → EReal)
    (a4 : S3x272x128.Idx → EReal) (a5 : S3x128x128.Idx → EReal) (a6 : S3x256x128.Idx → EReal) (a7 : S3x128x128.Idx → EReal)
    (l : Fin 3) :
    RefRun.refMsg (F := Ideal) hs hd ef (RefRun.w1At (F := Ideal) a4 l) (RefRun.w2At (F := Ideal) a5 l)
      = Gnn.edgeStage hs hd ef (Gnn.weightsOf a4 a5 a6 a7 l).wa (Gnn.weightsOf a4 a5 a6 a7 l).wb
          (Gnn.weightsOf a4 a5 a6 a7 l).wc (Gnn.weightsOf a4 a5 a6 a7 l).w2 := by
  unfold RefRun.refMsg RefRun.lrelu400 RefRun.w1At RefRun.w2At
  exact edge_eq hs hd ef a4 a5 a6 a7 l _ _ _ _ _ _

/-- The reference's node stage on layer l's matrices is the specification's. -/
theorem refNode_eq (h red : S50000x128.Idx → EReal)
    (a4 : S3x272x128.Idx → EReal) (a5 : S3x128x128.Idx → EReal) (a6 : S3x256x128.Idx → EReal) (a7 : S3x128x128.Idx → EReal)
    (l : Fin 3) :
    RefRun.refNode (F := Ideal) h red (RefRun.n1At (F := Ideal) a6 l) (RefRun.w2At (F := Ideal) a7 l)
      = Gnn.nodeStage h red (Gnn.weightsOf a4 a5 a6 a7 l).na (Gnn.weightsOf a4 a5 a6 a7 l).nb
          (Gnn.weightsOf a4 a5 a6 a7 l).n2 := by
  unfold RefRun.refNode RefRun.lrelu50 RefRun.n1At RefRun.w2At
  exact node_eq h red a4 a5 a6 a7 l _ _ _ _ _ _

end Cert.ReferenceIdeal.RefStage

end
-- ==== Proof.RefBridge.lean ====
/-
  The reference's network is the shared specification: each layer step is `Gnn.layer` — its message stage and node
  stage are `Gnn.edgeStage` and `Gnn.nodeStage` (proved apart), and around them both sides apply the same gather,
  the same per-destination sum into the same zero array and the same wrapped row numbers —, and three steps with
  the residual sum after the first two are `Gnn.net`. So the program ends with its result buffer at `Gnn.netOf` of
  the eight argument arrays.
-/
import proofs.«156241_j4647154614414_1_alg».proof.Proof.RefRun
import proofs.«156241_j4647154614414_1_alg».proof.Proof.RefStages
import proofs.«156241_j4647154614414_1_alg».proof.Proof.Network

noncomputable section

namespace Cert.ReferenceIdeal.RefRun

open Cert.ReferenceIdeal Cert.ReferenceIdeal.Gen Idealize.ShloMosaic Idealize.ShloMosaic.TcCoe Idealize.SL.Sem Idealize.ShloMosaic.StableHlo

/-- One layer step of the reference is one layer of the specification, over the same joined rows and features. -/
theorem refStep_eq_layer (a1 : S200000x16.Idx → EReal) (a2 a3 : S200000.Idx → BitVec 32) (a4 : S3x272x128.Idx → EReal)
    (a5 : S3x128x128.Idx → EReal) (a6 : S3x256x128.Idx → EReal) (a7 : S3x128x128.Idx → EReal) (l : Fin 3)
    (h : S50000x128.Idx → EReal) :
    refStep (F := Ideal) (refSrc (F := Ideal) a2 a3) (refSrc (F := Ideal) a3 a2) (refFeat (F := Ideal) a1) a4 a5 a6 a7 l h
      = Gnn.layer (Gnn.hostGlue Gnn.gather_wf Gnn.scatter_wf) (Gnn.zeros Gnn.scalar_to_nodes)
          (Gnn.asColumn Gnn.rows_to_column (Gnn.wrapRows Gnn.scalar_to_rows (Gnn.srcRows a2 a3)))
          (Gnn.asColumn Gnn.rows_to_column (Gnn.wrapRows Gnn.scalar_to_rows (Gnn.dstRows a2 a3)))
          (Gnn.asColumn Gnn.rows_to_column (Gnn.dstRows a2 a3))
          (Gnn.joinFeats Gnn.joins_feats a1 a1) (Gnn.weightsOf a4 a5 a6 a7 l) h := by
  unfold refStep refLayer Gnn.layer
  rw [RefStage.refNode_eq _ _ a4 a5 a6 a7 l, RefStage.refMsg_eq _ _ _ a4 a5 a6 a7 l]
  rfl

/-- The reference's network is the specification's, as functions of the eight argument arrays. -/
theorem refNet_eq_netOf (a0 : S50000x128.Idx → EReal) (a1 : S200000x16.Idx → EReal) (a2 a3 : S200000.Idx → BitVec 32)
    (a4 : S3x272x128.Idx → EReal) (a5 : S3x128x128.Idx → EReal) (a6 : S3x256x128.Idx → EReal) (a7 : S3x128x128.Idx → EReal) :
    refNet (F := Ideal) a0 a1 a2 a3 a4 a5 a6 a7 = Gnn.netOf a0 a1 a2 a3 a4 a5 a6 a7 := by
  unfold refNet Gnn.netOf Gnn.net
  simp only [refStep_eq_layer]
  rfl

/-- On every device, from any memory with zero counters: every weakly fair execution of the reference's @main
    terminates with its result buffer at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v103)
        = Gnn.netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1).trans (refNet_eq_netOf _ _ _ _ _ _ _ _), (h c).2⟩) (run_raw m ρ)

end Cert.ReferenceIdeal.RefRun

end
-- ==== Proof.lean ====
/-
  The certificate: a Pallas message-passing network against its jnp reference, equal over the extended reals.

  Both programs run three layers of one message-passing network on 50000 nodes and 400000 directed messages
  (200000 edges, each taken both ways). A layer gathers the node features at every message's source and destination
  row, sends (source features, destination features, edge features) through a two-stage perceptron with a leaky
  rectifier, sums the messages per destination node, and updates every node by a second two-stage perceptron on
  (node features, summed messages); a residual sum follows the first two layers. The reference forms each
  perceptron's first stage as ONE matrix product of the concatenated inputs with a 272-row (256-row) weight matrix;
  the kernel never concatenates: it multiplies each input by its own band of rows of that matrix, in blocks of 10000
  rows, and adds the three (two) products. The two agree because a sum over the 272 (256) concatenated columns is the
  sum of the sums over its bands — associativity and commutativity of `+`, which hold on all of the extended reals, so
  the precondition is never opened. The kernel's roundings to bf16 on the way into each product are the identity at
  the ideal instance; the rectifier's slope is the same f32 word in both programs; the gathers and the
  per-destination sums are the same host operations on both sides and are never opened.

  `Gnn.netOf` (Proof/Network.lean) is the network as one function of the eight argument arrays. The kernel program's
  result is that function (Proof/KerNet.lean: the run over its twelve segments, each region's output array read as a
  whole-array function, Proof/KerRegion0 … 5), and so is the reference's (Proof/RefBridge.lean: its run, with the two
  perceptron stages rewritten to the band form, Proof/RefStages.lean). The ideal pass rewrote nothing, so the
  kernel program's idealization is its own text read at the ideal instance.
-/
import proofs.«156241_j4647154614414_1_alg».proof.Defs
import proofs.«156241_j4647154614414_1_alg».proof.Proof.Gen.Kernel
import proofs.«156241_j4647154614414_1_alg».proof.Proof.Gen.Kernel.Frame
import proofs.«156241_j4647154614414_1_alg».proof.Proof.Gen.KernelIdeal
import proofs.«156241_j4647154614414_1_alg».proof.Proof.Gen.KernelIdeal.Frame
import proofs.«156241_j4647154614414_1_alg».proof.Proof.Gen.ReferenceIdeal
import proofs.«156241_j4647154614414_1_alg».proof.Proof.Gen.Pre_finite_inputs
import proofs.«156241_j4647154614414_1_alg».proof.Proof.KerNet
import proofs.«156241_j4647154614414_1_alg».proof.Proof.KerRegion0
import proofs.«156241_j4647154614414_1_alg».proof.Proof.KerRegion1
import proofs.«156241_j4647154614414_1_alg».proof.Proof.KerRegion2
import proofs.«156241_j4647154614414_1_alg».proof.Proof.KerRegion3
import proofs.«156241_j4647154614414_1_alg».proof.Proof.KerRegion4
import proofs.«156241_j4647154614414_1_alg».proof.Proof.KerRegion5
import proofs.«156241_j4647154614414_1_alg».proof.Proof.RefBridge

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading at the ideal instance. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- From memories that agree on the eight arguments both programs end with the network of those arguments in their
    result arrays. -/
theorem algebraic : Cert.algebraic_KernelIdeal_ReferenceIdeal := by
  intro m ρ m' ρ' _ hagree
  refine ⟨fun c => Gnn.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KerValue.run m ρ Cert.KernelIdeal.KerValue.region0 Cert.KernelIdeal.KerValue.region1
      Cert.KernelIdeal.KerValue.region2 Cert.KernelIdeal.KerValue.region3 Cert.KernelIdeal.KerValue.region4
      Cert.KernelIdeal.KerValue.region5, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
